-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1x32x64 : Shape := ⟨4, ![4, 1, 32, 64]⟩
abbrev S4x2x32x64 : Shape := ⟨4, ![4, 2, 32, 64]⟩
abbrev S4x4x32x64 : Shape := ⟨4, ![4, 4, 32, 64]⟩
abbrev S4x3x32x64 : Shape := ⟨4, ![4, 3, 32, 64]⟩
abbrev S4x1x2048x2048 : Shape := ⟨4, ![4, 1, 2048, 2048]⟩
abbrev S_ : Shape := ⟨0, ![]⟩

class Facts : Prop where
  bcast_S_S4x1x32x64 : S_.BroadcastsInDim S4x1x32x64 (![] : Fin 0 → Fin S4x1x32x64.rank)
  reducesTo_S4x1x32x64_S_d0_1_2_3 : S4x1x32x64.ReducesTo [0, 1, 2, 3] S_
  h_S_ : 0 < S_.numel
  bcast_S_S4x2x32x64 : S_.BroadcastsInDim S4x2x32x64 (![] : Fin 0 → Fin S4x2x32x64.rank)
  reducesTo_S4x2x32x64_S_d0_1_2_3 : S4x2x32x64.ReducesTo [0, 1, 2, 3] S_
  bcast_S_S4x4x32x64 : S_.BroadcastsInDim S4x4x32x64 (![] : Fin 0 → Fin S4x4x32x64.rank)
  reducesTo_S4x4x32x64_S_d0_1_2_3 : S4x4x32x64.ReducesTo [0, 1, 2, 3] S_
  bcast_S_S4x3x32x64 : S_.BroadcastsInDim S4x3x32x64 (![] : Fin 0 → Fin S4x3x32x64.rank)
  reducesTo_S4x3x32x64_S_d0_1_2_3 : S4x3x32x64.ReducesTo [0, 1, 2, 3] S_

variable [Facts]

def fn_part1 {F : FTy → Type} [FloatOps F] (main_v13 : IVec S_ 1) (main_v16 : IVec S4x3x32x64 1) : IVec S_ 1 :=
  let main_c_5 : IVec S_ 1 := constantI S_ 1 1#1
  let main_v17 : IVec S_ 1 := (fun x v => Host.reduce IntOp.andi x v reducesTo_S4x3x32x64_S_d0_1_2_3 h_S_) main_v16 main_c_5
  let main_v18 : IVec S_ 1 := andi main_v13 main_v17
  main_v18

def fn {F : FTy → Type} [FloatOps F] (main_arg0 : FVec F S4x1x32x64 .f32) (main_arg1 : FVec F S4x2x32x64 .f32) (main_arg2 : FVec F S4x4x32x64 .f32) (main_arg3 : FVec F S4x3x32x64 .f32) (main_arg4 : IVec S4x1x2048x2048 32) : IVec S_ 1 :=
  let main_v0 : FVec F S4x1x32x64 .f32 := Host.absf main_arg0
  let main_cst : FVec F S_ .f32 := constant S_ .f32 0x7F800000#32
  let main_v1 : FVec F S4x1x32x64 .f32 := broadcastInDim S4x1x32x64 ![] bcast_S_S4x1x32x64 main_cst
  let main_v2 : IVec S4x1x32x64 1 := cmpf .olt main_v0 main_v1
  let main_c : IVec S_ 1 := constantI S_ 1 1#1
  let main_v3 : IVec S_ 1 := (fun x v => Host.reduce IntOp.andi x v reducesTo_S4x1x32x64_S_d0_1_2_3 h_S_) main_v2 main_c
  let main_v4 : FVec F S4x2x32x64 .f32 := Host.absf main_arg1
  let main_cst_0 : FVec F S_ .f32 := constant S_ .f32 0x7F800000#32
  let main_v5 : FVec F S4x2x32x64 .f32 := broadcastInDim S4x2x32x64 ![] bcast_S_S4x2x32x64 main_cst_0
  let main_v6 : IVec S4x2x32x64 1 := cmpf .olt main_v4 main_v5
  let main_c_1 : IVec S_ 1 := constantI S_ 1 1#1
  let main_v7 : IVec S_ 1 := (fun x v => Host.reduce IntOp.andi x v reducesTo_S4x2x32x64_S_d0_1_2_3 h_S_) main_v6 main_c_1
  let main_v8 : IVec S_ 1 := andi main_v3 main_v7
  let main_v9 : FVec F S4x4x32x64 .f32 := Host.absf main_arg2
  let main_cst_2 : FVec F S_ .f32 := constant S_ .f32 0x7F800000#32
  let main_v10 : FVec F S4x4x32x64 .f32 := broadcastInDim S4x4x32x64 ![] bcast_S_S4x4x32x64 main_cst_2
  let main_v11 : IVec S4x4x32x64 1 := cmpf .olt main_v9 main_v10
  let main_c_3 : IVec S_ 1 := constantI S_ 1 1#1
  let main_v12 : IVec S_ 1 := (fun x v => Host.reduce IntOp.andi x v reducesTo_S4x4x32x64_S_d0_1_2_3 h_S_) main_v11 main_c_3
  let main_v13 : IVec S_ 1 := andi main_v8 main_v12
  let main_v14 : FVec F S4x3x32x64 .f32 := Host.absf main_arg3
  let main_cst_4 : FVec F S_ .f32 := constant S_ .f32 0x7F800000#32
  let main_v15 : FVec F S4x3x32x64 .f32 := broadcastInDim S4x3x32x64 ![] bcast_S_S4x3x32x64 main_cst_4
  let main_v16 : IVec S4x3x32x64 1 := cmpf .olt main_v14 main_v15
  fn_part1 (F := F) main_v13 main_v16
-- ==== Kernel.lean ====
abbrev S4x1x32x64 : Shape := ⟨4, ![4, 1, 32, 64]⟩
abbrev S4x2x32x64 : Shape := ⟨4, ![4, 2, 32, 64]⟩
abbrev S4x4x32x64 : Shape := ⟨4, ![4, 4, 32, 64]⟩
abbrev S4x3x32x64 : Shape := ⟨4, ![4, 3, 32, 64]⟩
abbrev S4x1x2048x2048 : Shape := ⟨4, ![4, 1, 2048, 2048]⟩
abbrev S_ : Shape := ⟨0, ![]⟩
abbrev S4x4x2048 : Shape := ⟨3, ![4, 4, 2048]⟩
abbrev S4x4x1x2048 : Shape := ⟨4, ![4, 4, 1, 2048]⟩
abbrev S4x4x5x2048 : Shape := ⟨4, ![4, 4, 5, 2048]⟩
abbrev S4x2048x4x5 : Shape := ⟨4, ![4, 2048, 4, 5]⟩
abbrev S4x2048x20 : Shape := ⟨3, ![4, 2048, 20]⟩
abbrev S4x1x128 : Shape := ⟨3, ![4, 1, 128]⟩
abbrev S1x512x20 : Shape := ⟨3, ![1, 512, 20]⟩
abbrev S1x2048x20 : Shape := ⟨3, ![1, 2048, 20]⟩
abbrev S1x1x512x2048 : Shape := ⟨4, ![1, 1, 512, 2048]⟩
abbrev S1x1x128 : Shape := ⟨3, ![1, 1, 128]⟩
abbrev S512x20 : Shape := ⟨2, ![512, 20]⟩
abbrev S2048x20 : Shape := ⟨2, ![2048, 20]⟩
abbrev S512x2048 : Shape := ⟨2, ![512, 2048]⟩
abbrev S1x512x2048 : Shape := ⟨3, ![1, 512, 2048]⟩
abbrev S1 : Shape := ⟨1, ![1]⟩
abbrev S1x1x1 : Shape := ⟨3, ![1, 1, 1]⟩
abbrev S4x1x4 : Shape := ⟨3, ![4, 1, 4]⟩
abbrev S4x4 : Shape := ⟨2, ![4, 4]⟩
abbrev S4 : Shape := ⟨1, ![4]⟩

abbrev nBuf : Space → Nat
  | .hbm => 114
  | .vmem => 8
  | .smem => 0
  | _ => 0

abbrev bufTy : (tb : Table) → Fin (tcTables nBuf tb) → BufTy
  | .hbm, ⟨0, _⟩ => ⟨S4x1x32x64, .f32⟩
  | .hbm, ⟨1, _⟩ => ⟨S4x2x32x64, .f32⟩
  | .hbm, ⟨2, _⟩ => ⟨S4x4x32x64, .f32⟩
  | .hbm, ⟨3, _⟩ => ⟨S4x3x32x64, .f32⟩
  | .hbm, ⟨4, _⟩ => ⟨S4x1x2048x2048, .i32⟩
  | .hbm, ⟨5, _⟩ => ⟨S4x1x32x64, .f32⟩
  | .hbm, ⟨6, _⟩ => ⟨S_, .f32⟩
  | .hbm, ⟨7, _⟩ => ⟨S4x1x32x64, .f32⟩
  | .hbm, ⟨8, _⟩ => ⟨S4x1x32x64, .i1⟩
  | .hbm, ⟨9, _⟩ => ⟨S_, .f32⟩
  | .hbm, ⟨10, _⟩ => ⟨S4x1x32x64, .f32⟩
  | .hbm, ⟨11, _⟩ => ⟨S4x1x32x64, .i1⟩
  | .hbm, ⟨12, _⟩ => ⟨S4x1x32x64, .i32⟩
  | .hbm, ⟨13, _⟩ => ⟨S_, .i32⟩
  | .hbm, ⟨14, _⟩ => ⟨S_, .i32⟩
  | .hbm, ⟨15, _⟩ => ⟨S_, .f32⟩
  | .hbm, ⟨16, _⟩ => ⟨S4x1x32x64, .i32⟩
  | .hbm, ⟨17, _⟩ => ⟨S_, .i32⟩
  | .hbm, ⟨18, _⟩ => ⟨S_, .i32⟩
  | .hbm, ⟨19, _⟩ => ⟨S_, .f32⟩
  | .hbm, ⟨20, _⟩ => ⟨S4x1x32x64, .f32⟩
  | .hbm, ⟨21, _⟩ => ⟨S4x1x32x64, .f32⟩
  | .hbm, ⟨22, _⟩ => ⟨S_, .f32⟩
  | .hbm, ⟨23, _⟩ => ⟨S_, .f32⟩
  | .hbm, ⟨24, _⟩ => ⟨S4x1x32x64, .f32⟩
  | .hbm, ⟨25, _⟩ => ⟨S4x1x32x64, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4x1x32x64, .f32⟩
  | .hbm, ⟨32, _⟩ => ⟨S4x1x32x64, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S4x1x32x64, .f32⟩
  | .hbm, ⟨37, _⟩ => ⟨S4x1x32x64, .f32⟩
  | .hbm, ⟨38, _⟩ => ⟨S4x1x32x64, .f32⟩
  | .hbm, ⟨39, _⟩ => ⟨S4x1x32x64, .f32⟩
  | .hbm, ⟨40, _⟩ => ⟨S_, .f32⟩
  | .hbm, ⟨41, _⟩ => ⟨S_, .f32⟩
  | .hbm, ⟨42, _⟩ => ⟨S4x1x32x64, .f32⟩
  | .hbm, ⟨43, _⟩ => ⟨S4x1x32x64, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4x1x32x64, .f32⟩
  | .hbm, ⟨48, _⟩ => ⟨S4x1x32x64, .f32⟩
  | .hbm, ⟨49, _⟩ => ⟨S4x1x32x64, .f32⟩
  | .hbm, ⟨50, _⟩ => ⟨S4x1x32x64, .f32⟩
  | .hbm, ⟨51, _⟩ => ⟨S_, .f32⟩
  | .hbm, ⟨52, _⟩ => ⟨S_, .f32⟩
  | .hbm, ⟨53, _⟩ => ⟨S4x1x32x64, .f32⟩
  | .hbm, ⟨54, _⟩ => ⟨S4x1x32x64, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S4x4x2048, .f32⟩
  | .hbm, ⟨62, _⟩ => ⟨S4x4x2048, .f32⟩
  | .hbm, ⟨63, _⟩ => ⟨S4x4x2048, .f32⟩
  | .hbm, ⟨64, _⟩ => ⟨S4x4x2048, .f32⟩
  | .hbm, ⟨65, _⟩ => ⟨S_, .f32⟩
  | .hbm, ⟨66, _⟩ => ⟨S4x4x2048, .f32⟩
  | .hbm, ⟨67, _⟩ => ⟨S4x4x1x2048, .f32⟩
  | .hbm, ⟨68, _⟩ => ⟨S4x4x1x2048, .f32⟩
  | .hbm, ⟨69, _⟩ => ⟨S4x4x1x2048, .f32⟩
  | .hbm, ⟨70, _⟩ => ⟨S4x4x1x2048, .f32⟩
  | .hbm, ⟨71, _⟩ => ⟨S4x4x1x2048, .f32⟩
  | .hbm, ⟨72, _⟩ => ⟨S4x4x5x2048, .f32⟩
  | .hbm, ⟨73, _⟩ => ⟨S4x2048x4x5, .f32⟩
  | .hbm, ⟨74, _⟩ => ⟨S4x2048x20, .f32⟩
  | .hbm, ⟨75, _⟩ => ⟨S4x4x2048, .f32⟩
  | .hbm, ⟨76, _⟩ => ⟨S4x4x2048, .f32⟩
  | .hbm, ⟨77, _⟩ => ⟨S4x4x2048, .f32⟩
  | .hbm, ⟨78, _⟩ => ⟨S_, .f32⟩
  | .hbm, ⟨79, _⟩ => ⟨S4x4x2048, .f32⟩
  | .hbm, ⟨80, _⟩ => ⟨S4x4x2048, .f32⟩
  | .hbm, ⟨81, _⟩ => ⟨S_, .f32⟩
  | .hbm, ⟨82, _⟩ => ⟨S4x4x2048, .f32⟩
  | .hbm, ⟨83, _⟩ => ⟨S4x4x2048, .f32⟩
  | .hbm, ⟨84, _⟩ => ⟨S_, .f32⟩
  | .hbm, ⟨85, _⟩ => ⟨S4x4x2048, .f32⟩
  | .hbm, ⟨86, _⟩ => ⟨S4x4x2048, .f32⟩
  | .hbm, ⟨87, _⟩ => ⟨S4x4x1x2048, .f32⟩
  | .hbm, ⟨88, _⟩ => ⟨S4x4x1x2048, .f32⟩
  | .hbm, ⟨89, _⟩ => ⟨S4x4x1x2048, .f32⟩
  | .hbm, ⟨90, _⟩ => ⟨S4x4x1x2048, .f32⟩
  | .hbm, ⟨91, _⟩ => ⟨S4x4x1x2048, .f32⟩
  | .hbm, ⟨92, _⟩ => ⟨S4x4x5x2048, .f32⟩
  | .hbm, ⟨93, _⟩ => ⟨S4x2048x4x5, .f32⟩
  | .hbm, ⟨94, _⟩ => ⟨S4x2048x20, .f32⟩
  | .hbm, ⟨95, _⟩ => ⟨S4x1x128, .f32⟩
  | .hbm, ⟨96, _⟩ => ⟨S4x1x4, .f32⟩
  | .hbm, ⟨97, _⟩ => ⟨S4x4, .f32⟩
  | .hbm, ⟨98, _⟩ => ⟨S_, .f32⟩
  | .hbm, ⟨99, _⟩ => ⟨S4, .f32⟩
  | .hbm, ⟨100, _⟩ => ⟨S1, .f32⟩
  | .hbm, ⟨101, _⟩ => ⟨S_, .f32⟩
  | .hbm, ⟨102, _⟩ => ⟨S1, .f32⟩
  | .hbm, ⟨103, _⟩ => ⟨S_, .f32⟩
  | .hbm, ⟨104, _⟩ => ⟨S1, .f32⟩
  | .hbm, ⟨105, _⟩ => ⟨S_, .f32⟩
  | .hbm, ⟨106, _⟩ => ⟨S1, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .local _ .vmem, ⟨0, _⟩ => ⟨S1x512x20, .f32⟩
  | .local _ .vmem, ⟨1, _⟩ => ⟨S1x512x20, .f32⟩
  | .local _ .vmem, ⟨2, _⟩ => ⟨S1x2048x20, .f32⟩
  | .local _ .vmem, ⟨3, _⟩ => ⟨S1x2048x20, .f32⟩
  | .local _ .vmem, ⟨4, _⟩ => ⟨S1x1x512x2048, .i32⟩
  | .local _ .vmem, ⟨5, _⟩ => ⟨S1x1x512x2048, .i32⟩
  | .local _ .vmem, ⟨6, _⟩ => ⟨S1x1x128, .f32⟩
  | .local _ .vmem, ⟨7, _⟩ => ⟨S1x1x128, .f32⟩
  | _, _ => ⟨S4x1x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_call1_v0 : Ref sig .tc := ⟨.hbm, 30, rfl⟩
abbrev main_call1_v1 : Ref sig .tc := ⟨.hbm, 31, rfl⟩
abbrev main_v16 : Ref sig .tc := ⟨.hbm, 32, rfl⟩
abbrev main_cst_5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_call2_v0 : Ref sig .tc := ⟨.hbm, 41, rfl⟩
abbrev main_call2_v1 : Ref sig .tc := ⟨.hbm, 42, rfl⟩
abbrev main_v23 : Ref sig .tc := ⟨.hbm, 43, rfl⟩
abbrev main_cst_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_8 : Ref sig .tc := ⟨.hbm, 51, rfl⟩
abbrev main_call3_v0 : Ref sig .tc := ⟨.hbm, 52, rfl⟩
abbrev main_call3_v1 : Ref sig .tc := ⟨.hbm, 53, rfl⟩
abbrev main_v30 : Ref sig .tc := ⟨.hbm, 54, rfl⟩
abbrev main_cst_9 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_10 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_11 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_12 : Ref sig .tc := ⟨.hbm, 78, rfl⟩
abbrev main_v51 : Ref sig .tc := ⟨.hbm, 79, rfl⟩
abbrev main_v52 : Ref sig .tc := ⟨.hbm, 80, rfl⟩
abbrev main_cst_13 : Ref sig .tc := ⟨.hbm, 81, rfl⟩
abbrev main_v53 : Ref sig .tc := ⟨.hbm, 82, rfl⟩
abbrev main_v54 : Ref sig .tc := ⟨.hbm, 83, rfl⟩
abbrev main_cst_14 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_15 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  slices_S4x3x32x64_S4x1x32x64_0_0_0_0 : S4x3x32x64.Slices ![0, 0, 0, 0] S4x1x32x64
  bcast_S_S4x1x32x64 : S_.BroadcastsInDim S4x1x32x64 (![] : Fin 0 → Fin S4x1x32x64.rank)
  natLt_1_32 : 1 < 32
  reducesTo_S4x1x32x64_S_d0_1_2_3 : S4x1x32x64.ReducesTo [0, 1, 2, 3] S_
  h_S_ : 0 < S_.numel
  slices_S4x3x32x64_S4x1x32x64_0_1_0_0 : S4x3x32x64.Slices ![0, 1, 0, 0] S4x1x32x64
  slices_S4x2x32x64_S4x1x32x64_0_0_0_0 : S4x2x32x64.Slices ![0, 0, 0, 0] S4x1x32x64
  slices_S4x3x32x64_S4x1x32x64_0_2_0_0 : S4x3x32x64.Slices ![0, 2, 0, 0] S4x1x32x64
  slices_S4x2x32x64_S4x1x32x64_0_1_0_0 : S4x2x32x64.Slices ![0, 1, 0, 0] S4x1x32x64
  shapeCasts_S4x4x32x64_S4x4x2048 : S4x4x32x64.ShapeCasts S4x4x2048
  bcast_S_S4x4x2048 : S_.BroadcastsInDim S4x4x2048 (![] : Fin 0 → Fin S4x4x2048.rank)
  bcast_S4x4x2048_S4x4x1x2048_0_1_3 : S4x4x2048.BroadcastsInDim S4x4x1x2048 (![0, 1, 3] : Fin 3 → Fin S4x4x1x2048.rank)
  concatenates_S4x4x1x2048_S4x4x1x2048_S4x4x1x2048_S4x4x1x2048_S4x4x1x2048_S4x4x5x2048_d2 : Shape.Concatenates [S4x4x1x2048, S4x4x1x2048, S4x4x1x2048, S4x4x1x2048, S4x4x1x2048] S4x4x5x2048 2
  transposes_S4x4x5x2048_S4x2048x4x5_0_3_1_2 : S4x4x5x2048.Transposes [0, 3, 1, 2] S4x2048x4x5
  shapeCasts_S4x2048x4x5_S4x2048x20 : S4x2048x4x5.ShapeCasts S4x2048x20
  inb_S1x1x128_S1x1x128_0_0_0 : ∀ a, (![0, 0, 0] : Fin 3 → Nat) a + S1x1x128.size a ≤ S1x1x128.size a
  h_S1x1x128 : 0 < S1x1x128.numel
  inb_S1x512x20_S1x512x20_0_0_0 : ∀ a, (![0, 0, 0] : Fin 3 → Nat) a + S1x512x20.size a ≤ S1x512x20.size a
  h_S1x512x20 : 0 < S1x512x20.numel
  shapeCasts_S1x512x20_S512x20 : S1x512x20.ShapeCasts S512x20
  inb_S1x2048x20_S1x2048x20_0_0_0 : ∀ a, (![0, 0, 0] : Fin 3 → Nat) a + S1x2048x20.size a ≤ S1x2048x20.size a
  h_S1x2048x20 : 0 < S1x2048x20.numel
  shapeCasts_S1x2048x20_S2048x20 : S1x2048x20.ShapeCasts S2048x20
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  shapeCasts_S512x2048_S1x512x2048 : S512x2048.ShapeCasts S1x512x2048
  reduces_S1x512x2048_S1 : S1x512x2048.Reduces [1, 2] S1
  shapeCasts_S1_S1x1x1 : S1.ShapeCasts S1x1x1
  inpos_S1x1x1_p0_0_0 : ∀ a, (![0, 0, 0] : Fin 3 → Nat) a < S1x1x1.size a
  iota_S1x1x128_d2_w32 : S1x1x128.Iotas .tc 32 [2]
  shapeCasts_S1x1x128_S1x1x128 : S1x1x128.ShapeCasts S1x1x128
  slices_S4x1x128_S4x1x4_0_0_0 : S4x1x128.Slices ![0, 0, 0] S4x1x4
  shapeCasts_S4x1x4_S4x4 : S4x1x4.ShapeCasts S4x4
  reducesTo_S4x4_S4_d0 : S4x4.ReducesTo [0] S4
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  dot_S512x20_S2048x20_S512x2048_1_1_0_0_n_n_wf : DotDims.WF S512x20 S2048x20 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x20.size a ≤ S4x2048x20.size a
  hwx0_0 : ∀ i : grid0.Coords, EltTy.bits .f32 = 32 ∨ (Rect.block (s := S4x2048x20) S1x512x20.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x20.size a ≤ S4x2048x20.size a
  hwx0_1 : ∀ i : grid0.Coords, EltTy.bits .f32 = 32 ∨ (Rect.block (s := S4x2048x20) S1x2048x20.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512x2048.size a ≤ S4x1x2048x2048.size a
  hwx0_2 : ∀ i : grid0.Coords, EltTy.bits .i32 = 32 ∨ (Rect.block (s := S4x1x2048x2048) S1x1x512x2048.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S4x1x128.size a
  hwx0_3 : ∀ i : grid0.Coords, EltTy.bits .f32 = 32 ∨ (Rect.block (s := S4x1x128) S1x1x128.size (cc0_transform_3 i) (hinb0_3 i)).WholeWords (EltTy.packing .f32)

variable [Facts₀]

def dot_S512x20_S2048x20_S512x2048_1_1_0_0_n_n : DotDims S512x20 S2048x20 S512x2048 where
  lhsContracting := [1]
  rhsContracting := [1]
  lhsNonContracting := [0]
  rhsNonContracting := [0]
  lhsBatch := []
  rhsBatch := []
  wf := dot_S512x20_S2048x20_S512x2048_1_1_0_0_n_n_wf

abbrev win0_0 : Pipeline.Window sig grid0 :=
  Pipeline.Window.ofSpec (Memref.whole main_v47) S1x512x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v64) S1x2048x20.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1x1x512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v65) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x1x32x64 : Shape := ⟨4, ![4, 1, 32, 64]⟩
abbrev S4x2x32x64 : Shape := ⟨4, ![4, 2, 32, 64]⟩
abbrev S4x4x32x64 : Shape := ⟨4, ![4, 4, 32, 64]⟩
abbrev S4x3x32x64 : Shape := ⟨4, ![4, 3, 32, 64]⟩
abbrev S4x1x2048x2048 : Shape := ⟨4, ![4, 1, 2048, 2048]⟩
abbrev S_ : Shape := ⟨0, ![]⟩
abbrev S4x4x2048 : Shape := ⟨3, ![4, 4, 2048]⟩
abbrev S4x4x2048x1 : Shape := ⟨4, ![4, 4, 2048, 1]⟩
abbrev S4x4x1x2048 : Shape := ⟨4, ![4, 4, 1, 2048]⟩
abbrev S4x4x2048x2048 : Shape := ⟨4, ![4, 4, 2048, 2048]⟩
abbrev S4x2048x2048 : Shape := ⟨3, ![4, 2048, 2048]⟩

abbrev nBuf : Space → Nat
  | .hbm => 125
  | .vmem => 0
  | .smem => 0
  | _ => 0

abbrev bufTy : (tb : Table) → Fin (tcTables nBuf tb) → BufTy
  | .hbm, ⟨0, _⟩ => ⟨S4x1x32x64, .f32⟩
  | .hbm, ⟨1, _⟩ => ⟨S4x2x32x64, .f32⟩
  | .hbm, ⟨2, _⟩ => ⟨S4x4x32x64, .f32⟩
  | .hbm, ⟨3, _⟩ => ⟨S4x3x32x64, .f32⟩
  | .hbm, ⟨4, _⟩ => ⟨S4x1x2048x2048, .i32⟩
  | .hbm, ⟨5, _⟩ => ⟨S4x1x32x64, .f32⟩
  | .hbm, ⟨6, _⟩ => ⟨S_, .f32⟩
  | .hbm, ⟨7, _⟩ => ⟨S4x1x32x64, .f32⟩
  | .hbm, ⟨8, _⟩ => ⟨S4x1x32x64, .i1⟩
  | .hbm, ⟨9, _⟩ => ⟨S_, .f32⟩
  | .hbm, ⟨10, _⟩ => ⟨S4x1x32x64, .f32⟩
  | .hbm, ⟨11, _⟩ => ⟨S4x1x32x64, .i1⟩
  | .hbm, ⟨12, _⟩ => ⟨S4x1x32x64, .i32⟩
  | .hbm, ⟨13, _⟩ => ⟨S_, .i32⟩
  | .hbm, ⟨14, _⟩ => ⟨S_, .i32⟩
  | .hbm, ⟨15, _⟩ => ⟨S_, .f32⟩
  | .hbm, ⟨16, _⟩ => ⟨S4x1x32x64, .i32⟩
  | .hbm, ⟨17, _⟩ => ⟨S_, .i32⟩
  | .hbm, ⟨18, _⟩ => ⟨S_, .i32⟩
  | .hbm, ⟨19, _⟩ => ⟨S_, .f32⟩
  | .hbm, ⟨20, _⟩ => ⟨S4x1x32x64, .f32⟩
  | .hbm, ⟨21, _⟩ => ⟨S4x1x32x64, .f32⟩
  | .hbm, ⟨22, _⟩ => ⟨S_, .f32⟩
  | .hbm, ⟨23, _⟩ => ⟨S_, .f32⟩
  | .hbm, ⟨24, _⟩ => ⟨S4x1x32x64, .f32⟩
  | .hbm, ⟨25, _⟩ => ⟨S4x1x32x64, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4x1x32x64, .f32⟩
  | .hbm, ⟨32, _⟩ => ⟨S4x1x32x64, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S4x1x32x64, .f32⟩
  | .hbm, ⟨37, _⟩ => ⟨S4x1x32x64, .f32⟩
  | .hbm, ⟨38, _⟩ => ⟨S4x1x32x64, .f32⟩
  | .hbm, ⟨39, _⟩ => ⟨S4x1x32x64, .f32⟩
  | .hbm, ⟨40, _⟩ => ⟨S_, .f32⟩
  | .hbm, ⟨41, _⟩ => ⟨S_, .f32⟩
  | .hbm, ⟨42, _⟩ => ⟨S4x1x32x64, .f32⟩
  | .hbm, ⟨43, _⟩ => ⟨S4x1x32x64, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4x1x32x64, .f32⟩
  | .hbm, ⟨48, _⟩ => ⟨S4x1x32x64, .f32⟩
  | .hbm, ⟨49, _⟩ => ⟨S4x1x32x64, .f32⟩
  | .hbm, ⟨50, _⟩ => ⟨S4x1x32x64, .f32⟩
  | .hbm, ⟨51, _⟩ => ⟨S_, .f32⟩
  | .hbm, ⟨52, _⟩ => ⟨S_, .f32⟩
  | .hbm, ⟨53, _⟩ => ⟨S4x1x32x64, .f32⟩
  | .hbm, ⟨54, _⟩ => ⟨S4x1x32x64, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S4x4x2048, .f32⟩
  | .hbm, ⟨62, _⟩ => ⟨S4x4x2048x1, .f32⟩
  | .hbm, ⟨63, _⟩ => ⟨S4x4x1x2048, .f32⟩
  | .hbm, ⟨64, _⟩ => ⟨S4x4x2048x2048, .f32⟩
  | .hbm, ⟨65, _⟩ => ⟨S4x4x2048x2048, .f32⟩
  | .hbm, ⟨66, _⟩ => ⟨S4x4x2048x2048, .f32⟩
  | .hbm, ⟨67, _⟩ => ⟨S4x4x2048x2048, .f32⟩
  | .hbm, ⟨68, _⟩ => ⟨S4x4x2048x2048, .f32⟩
  | .hbm, ⟨69, _⟩ => ⟨S_, .f32⟩
  | .hbm, ⟨70, _⟩ => ⟨S4x2048x2048, .f32⟩
  | .hbm, ⟨71, _⟩ => ⟨S_, .f32⟩
  | .hbm, ⟨72, _⟩ => ⟨S4x2048x2048, .f32⟩
  | .hbm, ⟨73, _⟩ => ⟨S4x2048x2048, .i1⟩
  | .hbm, ⟨74, _⟩ => ⟨S_, .f32⟩
  | .hbm, ⟨75, _⟩ => ⟨S_, .f32⟩
  | .hbm, ⟨76, _⟩ => ⟨S4x2048x2048, .f32⟩
  | .hbm, ⟨77, _⟩ => ⟨S4x2048x2048, .f32⟩
  | .hbm, ⟨78, _⟩ => ⟨S_, .f32⟩
  | .hbm, ⟨79, _⟩ => ⟨S4x2048x2048, .f32⟩
  | .hbm, ⟨80, _⟩ => ⟨S4x2048x2048, .i1⟩
  | .hbm, ⟨81, _⟩ => ⟨S4x2048x2048, .f32⟩
  | .hbm, ⟨82, _⟩ => ⟨S_, .f32⟩
  | .hbm, ⟨83, _⟩ => ⟨S_, .f32⟩
  | .hbm, ⟨84, _⟩ => ⟨S4x2048x2048, .f32⟩
  | .hbm, ⟨85, _⟩ => ⟨S4x2048x2048, .f32⟩
  | .hbm, ⟨86, _⟩ => ⟨S4x1x2048x2048, .f32⟩
  | .hbm, ⟨87, _⟩ => ⟨S_, .i32⟩
  | .hbm, ⟨88, _⟩ => ⟨S4x1x2048x2048, .i32⟩
  | .hbm, ⟨89, _⟩ => ⟨S4x1x2048x2048, .i1⟩
  | .hbm, ⟨90, _⟩ => ⟨S_, .i32⟩
  | .hbm, ⟨91, _⟩ => ⟨S4x1x2048x2048, .i32⟩
  | .hbm, ⟨92, _⟩ => ⟨S4x1x2048x2048, .i1⟩
  | .hbm, ⟨93, _⟩ => ⟨S_, .f32⟩
  | .hbm, ⟨94, _⟩ => ⟨S_, .f32⟩
  | .hbm, ⟨95, _⟩ => ⟨S4x1x2048x2048, .f32⟩
  | .hbm, ⟨96, _⟩ => ⟨S4x1x2048x2048, .f32⟩
  | .hbm, ⟨97, _⟩ => ⟨S_, .f32⟩
  | .hbm, ⟨98, _⟩ => ⟨S_, .f32⟩
  | .hbm, ⟨99, _⟩ => ⟨S4x1x2048x2048, .i32⟩
  | .hbm, ⟨100, _⟩ => ⟨S_, .i32⟩
  | .hbm, ⟨101, _⟩ => ⟨S_, .i32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S4x1x2048x2048, .f32⟩
  | .hbm, ⟨106, _⟩ => ⟨S4x1x2048x2048, .f32⟩
  | .hbm, ⟨107, _⟩ => ⟨S_, .f32⟩
  | .hbm, ⟨108, _⟩ => ⟨S4x1x2048x2048, .f32⟩
  | .hbm, ⟨109, _⟩ => ⟨S4x1x2048x2048, .f32⟩
  | .hbm, ⟨110, _⟩ => ⟨S_, .f32⟩
  | .hbm, ⟨111, _⟩ => ⟨S_, .f32⟩
  | .hbm, ⟨112, _⟩ => ⟨S4x1x2048x2048, .f32⟩
  | .hbm, ⟨113, _⟩ => ⟨S4x1x2048x2048, .f32⟩
  | .hbm, ⟨114, _⟩ => ⟨S_, .f32⟩
  | .hbm, ⟨115, _⟩ => ⟨S_, .f32⟩
  | .hbm, ⟨116, _⟩ => ⟨S4x1x2048x2048, .i32⟩
  | .hbm, ⟨117, _⟩ => ⟨S_, .i32⟩
  | .hbm, ⟨118, _⟩ => ⟨S_, .i32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | _, _ => ⟨S4x1x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_call1_v0 : Ref sig .tc := ⟨.hbm, 30, rfl⟩
abbrev main_call1_v1 : Ref sig .tc := ⟨.hbm, 31, rfl⟩
abbrev main_v16 : Ref sig .tc := ⟨.hbm, 32, rfl⟩
abbrev main_cst_5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_call2_v0 : Ref sig .tc := ⟨.hbm, 41, rfl⟩
abbrev main_call2_v1 : Ref sig .tc := ⟨.hbm, 42, rfl⟩
abbrev main_v23 : Ref sig .tc := ⟨.hbm, 43, rfl⟩
abbrev main_cst_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_8 : Ref sig .tc := ⟨.hbm, 51, rfl⟩
abbrev main_call3_v0 : Ref sig .tc := ⟨.hbm, 52, rfl⟩
abbrev main_call3_v1 : Ref sig .tc := ⟨.hbm, 53, rfl⟩
abbrev main_v30 : Ref sig .tc := ⟨.hbm, 54, rfl⟩
abbrev main_cst_9 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_10 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_11 : Ref sig .tc := ⟨.hbm, 69, rfl⟩
abbrev main_v43 : Ref sig .tc := ⟨.hbm, 70, rfl⟩
abbrev main_cst_12 : Ref sig .tc := ⟨.hbm, 71, rfl⟩
abbrev main_v44 : Ref sig .tc := ⟨.hbm, 72, rfl⟩
abbrev main_v45 : Ref sig .tc := ⟨.hbm, 73, rfl⟩
abbrev main_cst_13 : Ref sig .tc := ⟨.hbm, 74, rfl⟩
abbrev main_call4_v0 : Ref sig .tc := ⟨.hbm, 75, rfl⟩
abbrev main_call4_v1 : Ref sig .tc := ⟨.hbm, 76, rfl⟩
abbrev main_v46 : Ref sig .tc := ⟨.hbm, 77, rfl⟩
abbrev main_cst_14 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_15 : Ref sig .tc := ⟨.hbm, 82, rfl⟩
abbrev main_call5_v0 : Ref sig .tc := ⟨.hbm, 83, rfl⟩
abbrev main_call5_v1 : Ref sig .tc := ⟨.hbm, 84, rfl⟩
abbrev main_v50 : Ref sig .tc := ⟨.hbm, 85, rfl⟩
abbrev main_v51 : Ref sig .tc := ⟨.hbm, 86, rfl⟩
abbrev main_c_16 : Ref sig .tc := ⟨.hbm, 87, rfl⟩
abbrev main_v52 : Ref sig .tc := ⟨.hbm, 88, rfl⟩
abbrev main_v53 : Ref sig .tc := ⟨.hbm, 89, rfl⟩
abbrev main_c_17 : Ref sig .tc := ⟨.hbm, 90, rfl⟩
abbrev main_v54 : Ref sig .tc := ⟨.hbm, 91, rfl⟩
abbrev main_v55 : Ref sig .tc := ⟨.hbm, 92, rfl⟩
abbrev main_cst_18 : Ref sig .tc := ⟨.hbm, 93, rfl⟩
abbrev main_call6_v0 : Ref sig .tc := ⟨.hbm, 94, rfl⟩
abbrev main_call6_v1 : Ref sig .tc := ⟨.hbm, 95, rfl⟩
abbrev main_v56 : Ref sig .tc := ⟨.hbm, 96, rfl⟩
abbrev main_cst_19 : Ref sig .tc := ⟨.hbm, 97, rfl⟩
abbrev main_v57 : Ref sig .tc := ⟨.hbm, 98, rfl⟩
abbrev main_v58 : Ref sig .tc := ⟨.hbm, 99, rfl⟩
abbrev main_c_20 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_cst_21 : Ref sig .tc := ⟨.hbm, 104, rfl⟩
abbrev main_v62 : Ref sig .tc := ⟨.hbm, 105, rfl⟩
abbrev main_v63 : Ref sig .tc := ⟨.hbm, 106, rfl⟩
abbrev main_cst_22 : Ref sig .tc := ⟨.hbm, 107, rfl⟩
abbrev main_v64 : Ref sig .tc := ⟨.hbm, 108, rfl⟩
abbrev main_v65 : Ref sig .tc := ⟨.hbm, 109, rfl⟩
abbrev main_cst_23 : Ref sig .tc := ⟨.hbm, 110, rfl⟩
abbrev main_call7_v0 : Ref sig .tc := ⟨.hbm, 111, rfl⟩
abbrev main_call7_v1 : Ref sig .tc := ⟨.hbm, 112, rfl⟩
abbrev main_v66 : Ref sig .tc := ⟨.hbm, 113, rfl⟩
abbrev main_cst_24 : Ref sig .tc := ⟨.hbm, 114, rfl⟩
abbrev main_v67 : Ref sig .tc := ⟨.hbm, 115, rfl⟩
abbrev main_v68 : Ref sig .tc := ⟨.hbm, 116, rfl⟩
abbrev main_c_25 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩

abbrev nD : Nat := 1
abbrev τ : Topo := Topo.v7x

variable {F : FTy → Type} [FloatOps F]

class Facts₀ : Prop where
  slices_S4x3x32x64_S4x1x32x64_0_0_0_0 : S4x3x32x64.Slices ![0, 0, 0, 0] S4x1x32x64
  bcast_S_S4x1x32x64 : S_.BroadcastsInDim S4x1x32x64 (![] : Fin 0 → Fin S4x1x32x64.rank)
  natLt_1_32 : 1 < 32
  reducesTo_S4x1x32x64_S_d0_1_2_3 : S4x1x32x64.ReducesTo [0, 1, 2, 3] S_
  h_S_ : 0 < S_.numel
  slices_S4x3x32x64_S4x1x32x64_0_1_0_0 : S4x3x32x64.Slices ![0, 1, 0, 0] S4x1x32x64
  slices_S4x2x32x64_S4x1x32x64_0_0_0_0 : S4x2x32x64.Slices ![0, 0, 0, 0] S4x1x32x64
  slices_S4x3x32x64_S4x1x32x64_0_2_0_0 : S4x3x32x64.Slices ![0, 2, 0, 0] S4x1x32x64
  slices_S4x2x32x64_S4x1x32x64_0_1_0_0 : S4x2x32x64.Slices ![0, 1, 0, 0] S4x1x32x64
  shapeCasts_S4x4x32x64_S4x4x2048 : S4x4x32x64.ShapeCasts S4x4x2048
  bcast_S4x4x2048_S4x4x2048x1_0_1_2 : S4x4x2048.BroadcastsInDim S4x4x2048x1 (![0, 1, 2] : Fin 3 → Fin S4x4x2048x1.rank)
  bcast_S4x4x2048_S4x4x1x2048_0_1_3 : S4x4x2048.BroadcastsInDim S4x4x1x2048 (![0, 1, 3] : Fin 3 → Fin S4x4x1x2048.rank)
  bcast_S4x4x2048x1_S4x4x2048x2048_0_1_2_3 : S4x4x2048x1.BroadcastsInDim S4x4x2048x2048 (![0, 1, 2, 3] : Fin 4 → Fin S4x4x2048x2048.rank)
  bcast_S4x4x1x2048_S4x4x2048x2048_0_1_2_3 : S4x4x1x2048.BroadcastsInDim S4x4x2048x2048 (![0, 1, 2, 3] : Fin 4 → Fin S4x4x2048x2048.rank)
  reducesTo_S4x4x2048x2048_S4x2048x2048_d1 : S4x4x2048x2048.ReducesTo [1] S4x2048x2048
  bcast_S_S4x2048x2048 : S_.BroadcastsInDim S4x2048x2048 (![] : Fin 0 → Fin S4x2048x2048.rank)
  bcast_S4x2048x2048_S4x1x2048x2048_0_2_3 : S4x2048x2048.BroadcastsInDim S4x1x2048x2048 (![0, 2, 3] : Fin 3 → Fin S4x1x2048x2048.rank)
  bcast_S_S4x1x2048x2048 : S_.BroadcastsInDim S4x1x2048x2048 (![] : Fin 0 → Fin S4x1x2048x2048.rank)
  reducesTo_S4x1x2048x2048_S_d0_1_2_3 : S4x1x2048x2048.ReducesTo [0, 1, 2, 3] S_

variable [Facts₀]

class Facts : Prop extends Facts₀ where

variable [Facts]
-- ==== Proof.FrKBase.lean ====
/-
  The program around its one kernel launch, for the frame: the host operations before the launch leave each
  argument array as it was and build the kernel's two float operands; the launch runs the kernel body at the
  sixteen grid points; the host operations after it read the kernel's result and write only buffers of their own.
  Here: what every buffer holds when the launch starts (the fold of the earlier host operations over the initial
  memory), that no host operation writes an argument array or an array the kernel's windows stage, each window's
  block at a grid point, that an input window's staging buffer holds its block at every point whether or not the
  pipeline fetched it there, the frame property read off a run's final state, and the body's one branch condition
  (second grid coordinate = 0, i.e. the point's number is a multiple of 4) in closed form.
-/
import proofs.«134923_j35673998361268_2_alg».proof.Proof.Gen.Kernel.Launch
import proofs.«134923_j35673998361268_2_alg».proof.Proof.Gen.Kernel.Skeleton
import proofs.«134923_j35673998361268_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of the kernel's extents recurses once per coordinate of the long axes
set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the launch -/

/-- What core `c`'s buffers hold when the launch starts: the host operations before it, folded over the initial memory. -/
abbrev V0 (c : Dev nD) : Valuation τ sig (Elt F) := StableHlo.after (List.flatten [hostOps0, hostOps0_1, hostOps0_2, hostOps0_3, hostOps0_4, hostOps0_5, hostOps0_6, hostOps0_7, hostOps0_8]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the earlier host operations, the launch, the later host operations; so its run reduces to the
    launch continued by the later ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- The later host operations touch only arrays of the launch and buffers that bypass it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write no array the kernel's windows stage (each writes its own result buffer only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the launch writes argument 0: the launch finds it as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the launch writes argument 1: the launch finds it as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the launch writes argument 2: the launch finds it as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the launch writes argument 3: the launch finds it as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the launch writes argument 4: the launch finds it as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation after the launch writes argument 0 either, and no window stages it: it ends as it was. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the launch writes argument 1 either, and no window stages it: it ends as it was. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the launch writes argument 2 either, and no window stages it: it ends as it was. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the launch writes argument 3 either, and no window stages it: it ends as it was. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is not
    fetched its block index has not moved), for any proof data over these arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (where it is not
    fetched its block index has not moved), for any proof data over these arrays whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (where it is not
    fetched its block index has not moved), for any proof data over these arrays whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame property from a run -/

/-- From a run that ends with every window's array at what the proof data says and every other buffer as the later
    host operations leave it: the five argument arrays end as they were. Arguments 0 to 3 are staged by no window and
    written by no host operation; argument 4 is input window 2's array, which the pipeline only reads. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
    ((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).1 2).trans (((dats 0 c).arrAt_in 2 rfl _).trans ((hA c 2).trans (V_main_arg4 m c)))⟩) h

/-! ## The body's branch -/

/-- The condition of the body's one branch, from the grid coordinates: the second coordinate is 0. -/
abbrev cond0_0 (i : grid0.Coords) : Prop := (Scalar.cmpi .ne (Scalar.extui (Scalar.cmpi .eq (BitVec.ofNat 32 (i 1).val) 0#32)) 0#32) = 1#1
/-- It holds exactly at the points whose number is a multiple of 4 (the first point of each batch row). -/
theorem hcond0_0 : ∀ t : Fin cfg0.N, cond0_0 (grid0.coords t) ↔ t.val % 4 = 0 :=
  (by decide +kernel : ∀ t : Fin grid0.N, cond0_0 (grid0.coords t) ↔ t.val % 4 = 0)

/-! ## The staging buffers at a point -/

/-- One staging buffer of the output window, through which its contents are stated (which one does not matter). -/
abbrev VO0_3 : View sig .tc .vmem S1x1x128 .f32 := (Memref.whole cc0_stg3_0 : Memref sig .tc .vmem S1x1x128 .f32).view
/-- Each window's current staging buffer at point `t`, as the pipeline passes it to the body, and that it is a whole buffer. -/
abbrev ms0_0 (t : Fin cfg0.N) : Memref sig .tc .vmem S1x512x20 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x20 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x512x2048 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128 .f32 := win0_3.stage (cfg0.slots t 3)
abbrev hs0_3 (t : Fin cfg0.N) : (ms0_3 t).IsWhole := hstage0_3 ((cfg0.slots t 3).cast nbuf0_3)

end Cert.Kernel.Fr

end
-- ==== Proof.FrKRunA.lean ====
/-
  The kernel body run on whole staging buffers, at a FIRST point of a batch row (second grid coordinate 0): the body first fills the output block with zeros, so what the block held before does not matter.
  It loads the three input blocks, computes, loads the output block and stores the sum over it. The statement: from
  the inputs' buffers at their contents and the output's at anything, the body runs to the end, leaving the inputs'
  buffers as they were and the output's at the stores the run made, listed last first; the list is what the run finds.
-/
import proofs.«134923_j35673998361268_2_alg».proof.Proof.FrKBase

-- membership in a rectangle of the kernel's extents recurses once per coordinate of the long axes
set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body makes into the output block at a first point of a row, with the proof that the body runs to the end with them written. -/
noncomputable def kernelRun0_A (c : Dev nD) (i : grid0.Coords) (arg2 : Memref sig .tc .vmem S1x512x20 .f32) (harg2 : arg2.IsWhole) (arg3 : Memref sig .tc .vmem S1x2048x20 .f32) (harg3 : arg3.IsWhole) (arg4 : Memref sig .tc .vmem S1x1x512x2048 .i32) (harg4 : arg4.IsWhole) (arg5 : Memref sig .tc .vmem S1x1x128 .f32) (harg5 : arg5.IsWhole) (hc0 : cond0_0 i)
    (x0 : Vec F S1x512x20 .f32) (x1 : Vec F S1x2048x20 .f32) (x2 : Vec F S1x1x512x2048 .i32) :
    { L3 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0__instance_kernel i arg2 harg2 arg3 harg3 arg4 harg4 arg5 harg5) K } := by
  refine ⟨?_, fun E K => ?run⟩
  case run =>
    simp only [cc0__instance_kernel_eq_skeleton]; unfold cc0__instance_kernel_skel
    simp only [k0_part1_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Fr

end
-- ==== Proof.FrKRunB.lean ====
/-
  The kernel body run on whole staging buffers, at a LATER point of a batch row (second grid coordinate not 0): the body adds to the output block what the point before left there, so the block's contents are a parameter.
  It loads the three input blocks, computes, loads the output block and stores the sum over it. The statement: from
  the inputs' buffers at their contents and the output's at its running contents, the body runs to the end, leaving the inputs'
  buffers as they were and the output's at the stores the run made, listed last first; the list is what the run finds.
-/
import proofs.«134923_j35673998361268_2_alg».proof.Proof.FrKRunA

-- membership in a rectangle of the kernel's extents recurses once per coordinate of the long axes
set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body makes into the output block at a later point of a row, with the proof that the body runs to the end with them written. -/
noncomputable def kernelRun0_B (c : Dev nD) (i : grid0.Coords) (arg2 : Memref sig .tc .vmem S1x512x20 .f32) (harg2 : arg2.IsWhole) (arg3 : Memref sig .tc .vmem S1x2048x20 .f32) (harg3 : arg3.IsWhole) (arg4 : Memref sig .tc .vmem S1x1x512x2048 .i32) (harg4 : arg4.IsWhole) (arg5 : Memref sig .tc .vmem S1x1x128 .f32) (harg5 : arg5.IsWhole) (hc0 : ¬cond0_0 i)
    (x0 : Vec F S1x512x20 .f32) (x1 : Vec F S1x2048x20 .f32) (x2 : Vec F S1x1x512x2048 .i32) (xo3 : Vec F S1x1x128 .f32) :
    { L3 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0__instance_kernel i arg2 harg2 arg3 harg3 arg4 harg4 arg5 harg5) K } := by
  refine ⟨?_, fun E K => ?run⟩
  case run =>
    simp only [cc0__instance_kernel_eq_skeleton]; unfold cc0__instance_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Fr

end
-- ==== Proof.FrK.lean ====
/-
  The frame of the program: it runs to the end without a fault and leaves its argument arrays unchanged.

  The kernel's output block (one row of 128 lanes per batch row) is carried across the four grid points of a batch
  row: the first point fills it with zeros and adds its partial sums, the next three add theirs, and the pipeline
  writes the block back after the fourth. So what the block holds after point number n is defined by recursion on n:
  at a multiple of 4, what the first-point run leaves; otherwise what the later-point run leaves over what point n - 1
  left (between the two the block is not written back). With that as the proof data, each input window's buffer at
  its block, the body's run at every point is one of the two case runs, and the library's launch theorem gives the
  run of the whole program; the frame property is read off its final state.
-/
import proofs.«134923_j35673998361268_2_alg».proof.Proof.FrKRunB

-- membership in a rectangle of the kernel's extents recurses once per coordinate of the long axes
set_option maxRecDepth 16384

noncomputable section

namespace Cert.Kernel.Fr

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stores a first-point run makes tile the output block (two whole-block stores), so they cover it. -/
theorem cover0_A_3 (c : Dev nD) (i : grid0.Coords) (arg2 : Memref sig .tc .vmem S1x512x20 .f32) (harg2 : arg2.IsWhole) (arg3 : Memref sig .tc .vmem S1x2048x20 .f32) (harg3 : arg3.IsWhole) (arg4 : Memref sig .tc .vmem S1x1x512x2048 .i32) (harg4 : arg4.IsWhole) (arg5 : Memref sig .tc .vmem S1x1x128 .f32) (harg5 : arg5.IsWhole) (hc0 : cond0_0 i)
    (x0 : Vec F S1x512x20 .f32) (x1 : Vec F S1x2048x20 .f32) (x2 : Vec F S1x1x512x2048 .i32) (y : S1x1x128.Idx) :
    ∃ pc ∈ (kernelRun0_A c i arg2 harg2 arg3 harg3 arg4 harg4 arg5 harg5 hc0 x0 x1 x2).1, y ∈ pc.1.set :=
  View.cover_of_tiledL (kernelRun0_A c i arg2 harg2 arg3 harg3 arg4 harg4 arg5 harg5 hc0 x0 x1 x2).1 S1x1x128.size (by sl_kernel_rfl) y

/-- What a first-point run leaves in the output block: its stores read back (over anything). -/
def out0_A_3 (c : Dev nD) (i : grid0.Coords) (arg2 : Memref sig .tc .vmem S1x512x20 .f32) (harg2 : arg2.IsWhole) (arg3 : Memref sig .tc .vmem S1x2048x20 .f32) (harg3 : arg3.IsWhole) (arg4 : Memref sig .tc .vmem S1x1x512x2048 .i32) (harg4 : arg4.IsWhole) (arg5 : Memref sig .tc .vmem S1x1x128 .f32) (harg5 : arg5.IsWhole) (hc0 : cond0_0 i)
    (x0 : Vec F S1x512x20 .f32) (x1 : Vec F S1x2048x20 .f32) (x2 : Vec F S1x1x512x2048 .i32) : Vec F S1x1x128 .f32 :=
  VO0_3.read (Elt F) (VO0_3.writes (Elt F) VO0_3.junk (kernelRun0_A c i arg2 harg2 arg3 harg3 arg4 harg4 arg5 harg5 hc0 x0 x1 x2).1)

/-- The store a later-point run makes is the whole output block, so it covers it. -/
theorem cover0_B_3 (c : Dev nD) (i : grid0.Coords) (arg2 : Memref sig .tc .vmem S1x512x20 .f32) (harg2 : arg2.IsWhole) (arg3 : Memref sig .tc .vmem S1x2048x20 .f32) (harg3 : arg3.IsWhole) (arg4 : Memref sig .tc .vmem S1x1x512x2048 .i32) (harg4 : arg4.IsWhole) (arg5 : Memref sig .tc .vmem S1x1x128 .f32) (harg5 : arg5.IsWhole) (hc0 : ¬cond0_0 i)
    (x0 : Vec F S1x512x20 .f32) (x1 : Vec F S1x2048x20 .f32) (x2 : Vec F S1x1x512x2048 .i32) (xo3 : Vec F S1x1x128 .f32) (y : S1x1x128.Idx) :
    ∃ pc ∈ (kernelRun0_B c i arg2 harg2 arg3 harg3 arg4 harg4 arg5 harg5 hc0 x0 x1 x2 xo3).1, y ∈ pc.1.set :=
  View.cover_of_tiledL (kernelRun0_B c i arg2 harg2 arg3 harg3 arg4 harg4 arg5 harg5 hc0 x0 x1 x2 xo3).1 S1x1x128.size (by sl_kernel_rfl) y

/-- What a later-point run leaves in the output block, given what it held before: its store read back. -/
def out0_B_3 (c : Dev nD) (i : grid0.Coords) (arg2 : Memref sig .tc .vmem S1x512x20 .f32) (harg2 : arg2.IsWhole) (arg3 : Memref sig .tc .vmem S1x2048x20 .f32) (harg3 : arg3.IsWhole) (arg4 : Memref sig .tc .vmem S1x1x512x2048 .i32) (harg4 : arg4.IsWhole) (arg5 : Memref sig .tc .vmem S1x1x128 .f32) (harg5 : arg5.IsWhole) (hc0 : ¬cond0_0 i)
    (x0 : Vec F S1x512x20 .f32) (x1 : Vec F S1x2048x20 .f32) (x2 : Vec F S1x1x512x2048 .i32) (xo3 : Vec F S1x1x128 .f32) : Vec F S1x1x128 .f32 :=
  VO0_3.read (Elt F) (VO0_3.writes (Elt F) VO0_3.junk (kernelRun0_B c i arg2 harg2 arg3 harg3 arg4 harg4 arg5 harg5 hc0 x0 x1 x2 xo3).1)

/-! ## What the output block holds after each point -/

/-- The accumulation: what the output block holds after the body at point number `n`. -/
def outsAt0 (c : Dev nD) : (n : ℕ) → n < cfg0.N → Vec F S1x1x128 .f32
  | 0, hn => out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩) (iblk m c 2 ⟨0, hn⟩)
  | n + 1, hn =>
    if h0 : (n + 1) % 4 = 0 then
      out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩) (iblk m c 2 ⟨n + 1, hn⟩)
    else
      out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn))

/-- At a first point of a row: the first-point contents. -/
theorem outsAt0_A (c : Dev nD) (t : Fin cfg0.N) (h0 : t.val % 4 = 0) :
    outsAt0 m c t.val t.isLt = out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t) (iblk m c 2 t) := by
  obtain ⟨n, hn⟩ := t
  cases n with
  | zero => exact rfl
  | succ n => exact (dif_pos h0).trans rfl

/-- At a later point of a row: the later-point contents over what the point before left. -/
theorem outsAt0_B (c : Dev nD) (t : Fin cfg0.N) (h0 : ¬t.val % 4 = 0) :
    outsAt0 m c t.val t.isLt = out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The pipeline's proof data on core `c`: the arrays as the launch finds them; after the body at point `t` each
    input's buffer at its block and the output's at `outsAt0`; nothing else is used, nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- At a later point of a row the output's buffer holds what the body left at the point before: the point is not the
    first, and the block was not written back between (it is written back only after the last point of a row). -/
theorem before0_3_B (c : Dev nD) (t : Fin cfg0.N) (h0 : ¬t.val % 4 = 0) (d) :
    (dats m 0 c).before 3 t d = (outsAt0 m c (t.val - 1) (Nat.lt_of_le_of_lt (Nat.sub_le _ _) t.isLt)) := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point: the inputs' buffers hold their blocks; the point's number says which case it is in; at a
    later point of a row the output's buffer holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 16 := lt_of_lt_of_eq t.isLt (show cfg0.N = 16 from N_0)
  by_cases h0 : t.val % 4 = 0
  · rw [outsAt0_A m c t h0]
    unfold out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c _ _ _ _ _ _ _ _ _ _ _ _ _)
  · rw [outsAt0_B m c t h0]
    simp only [before0_3_B m c t h0]
    unfold out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- From any memory with zero counters every weakly fair execution of the program terminates, and every final state has
    each array of the launch at what the proof data computes and every other buffer as the later host operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and leaves its five argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Fr

end
-- ==== Proof.FrKiBase.lean ====
/-
  The program around its one kernel launch, for the frame: the host operations before the launch leave each
  argument array as it was and build the kernel's two float operands; the launch runs the kernel body at the
  sixteen grid points; the host operations after it read the kernel's result and write only buffers of their own.
  Here: what every buffer holds when the launch starts (the fold of the earlier host operations over the initial
  memory), that no host operation writes an argument array or an array the kernel's windows stage, each window's
  block at a grid point, that an input window's staging buffer holds its block at every point whether or not the
  pipeline fetched it there, the frame property read off a run's final state, and the body's one branch condition
  (second grid coordinate = 0, i.e. the point's number is a multiple of 4) in closed form.
-/
import proofs.«134923_j35673998361268_2_alg».proof.Proof.Gen.KernelIdeal.Launch
import proofs.«134923_j35673998361268_2_alg».proof.Proof.Gen.KernelIdeal.Skeleton
import proofs.«134923_j35673998361268_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of the kernel's extents recurses once per coordinate of the long axes
set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the launch -/

/-- What core `c`'s buffers hold when the launch starts: the host operations before it, folded over the initial memory. -/
abbrev V0 (c : Dev nD) : Valuation τ sig (Elt F) := StableHlo.after (List.flatten [hostOps0, hostOps0_1, hostOps0_2, hostOps0_3, hostOps0_4, hostOps0_5, hostOps0_6, hostOps0_7, hostOps0_8]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the earlier host operations, the launch, the later host operations; so its run reduces to the
    launch continued by the later ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6, hostOps0_7, hostOps0_8] [hostOps1]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- The later host operations touch only arrays of the launch and buffers that bypass it, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- allocate nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- and write no array the kernel's windows stage (each writes its own result buffer only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the launch writes argument 0: the launch finds it as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the launch writes argument 1: the launch finds it as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the launch writes argument 2: the launch finds it as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the launch writes argument 3: the launch finds it as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the launch writes argument 4: the launch finds it as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation after the launch writes argument 0 either, and no window stages it: it ends as it was. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the launch writes argument 1 either, and no window stages it: it ends as it was. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the launch writes argument 2 either, and no window stages it: it ends as it was. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the launch writes argument 3 either, and no window stages it: it ends as it was. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (where it is not
    fetched its block index has not moved), for any proof data over these arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (where it is not
    fetched its block index has not moved), for any proof data over these arrays whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (where it is not
    fetched its block index has not moved), for any proof data over these arrays whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame property from a run -/

/-- From a run that ends with every window's array at what the proof data says and every other buffer as the later
    host operations leave it: the five argument arrays end as they were. Arguments 0 to 3 are staged by no window and
    written by no host operation; argument 4 is input window 2's array, which the pipeline only reads. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
    ((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).1 2).trans (((dats 0 c).arrAt_in 2 rfl _).trans ((hA c 2).trans (V_main_arg4 m c)))⟩) h

/-! ## The body's branch -/

/-- The condition of the body's one branch, from the grid coordinates: the second coordinate is 0. -/
abbrev cond0_0 (i : grid0.Coords) : Prop := (Scalar.cmpi .ne (Scalar.extui (Scalar.cmpi .eq (BitVec.ofNat 32 (i 1).val) 0#32)) 0#32) = 1#1
/-- It holds exactly at the points whose number is a multiple of 4 (the first point of each batch row). -/
theorem hcond0_0 : ∀ t : Fin cfg0.N, cond0_0 (grid0.coords t) ↔ t.val % 4 = 0 :=
  (by decide +kernel : ∀ t : Fin grid0.N, cond0_0 (grid0.coords t) ↔ t.val % 4 = 0)

/-! ## The staging buffers at a point -/

/-- One staging buffer of the output window, through which its contents are stated (which one does not matter). -/
abbrev VO0_3 : View sig .tc .vmem S1x1x128 .f32 := (Memref.whole cc0_stg3_0 : Memref sig .tc .vmem S1x1x128 .f32).view
/-- Each window's current staging buffer at point `t`, as the pipeline passes it to the body, and that it is a whole buffer. -/
abbrev ms0_0 (t : Fin cfg0.N) : Memref sig .tc .vmem S1x512x20 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x20 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x512x2048 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x128 .f32 := win0_3.stage (cfg0.slots t 3)
abbrev hs0_3 (t : Fin cfg0.N) : (ms0_3 t).IsWhole := hstage0_3 ((cfg0.slots t 3).cast nbuf0_3)

end Cert.KernelIdeal.Fr

end
-- ==== Proof.FrKiRunA.lean ====
/-
  The kernel body run on whole staging buffers, at a FIRST point of a batch row (second grid coordinate 0): the body first fills the output block with zeros, so what the block held before does not matter.
  It loads the three input blocks, computes, loads the output block and stores the sum over it. The statement: from
  the inputs' buffers at their contents and the output's at anything, the body runs to the end, leaving the inputs'
  buffers as they were and the output's at the stores the run made, listed last first; the list is what the run finds.
-/
import proofs.«134923_j35673998361268_2_alg».proof.Proof.FrKiBase

-- membership in a rectangle of the kernel's extents recurses once per coordinate of the long axes
set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body makes into the output block at a first point of a row, with the proof that the body runs to the end with them written. -/
noncomputable def kernelRun0_A (c : Dev nD) (i : grid0.Coords) (arg2 : Memref sig .tc .vmem S1x512x20 .f32) (harg2 : arg2.IsWhole) (arg3 : Memref sig .tc .vmem S1x2048x20 .f32) (harg3 : arg3.IsWhole) (arg4 : Memref sig .tc .vmem S1x1x512x2048 .i32) (harg4 : arg4.IsWhole) (arg5 : Memref sig .tc .vmem S1x1x128 .f32) (harg5 : arg5.IsWhole) (hc0 : cond0_0 i)
    (x0 : Vec F S1x512x20 .f32) (x1 : Vec F S1x2048x20 .f32) (x2 : Vec F S1x1x512x2048 .i32) :
    { L3 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0__instance_kernel i arg2 harg2 arg3 harg3 arg4 harg4 arg5 harg5) K } := by
  refine ⟨?_, fun E K => ?run⟩
  case run =>
    simp only [cc0__instance_kernel_eq_skeleton]; unfold cc0__instance_kernel_skel
    simp only [k0_part1_eq_skeleton]
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Fr

end
-- ==== Proof.FrKiRunB.lean ====
/-
  The kernel body run on whole staging buffers, at a LATER point of a batch row (second grid coordinate not 0): the body adds to the output block what the point before left there, so the block's contents are a parameter.
  It loads the three input blocks, computes, loads the output block and stores the sum over it. The statement: from
  the inputs' buffers at their contents and the output's at its running contents, the body runs to the end, leaving the inputs'
  buffers as they were and the output's at the stores the run made, listed last first; the list is what the run finds.
-/
import proofs.«134923_j35673998361268_2_alg».proof.Proof.FrKiRunA

-- membership in a rectangle of the kernel's extents recurses once per coordinate of the long axes
set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body makes into the output block at a later point of a row, with the proof that the body runs to the end with them written. -/
noncomputable def kernelRun0_B (c : Dev nD) (i : grid0.Coords) (arg2 : Memref sig .tc .vmem S1x512x20 .f32) (harg2 : arg2.IsWhole) (arg3 : Memref sig .tc .vmem S1x2048x20 .f32) (harg3 : arg3.IsWhole) (arg4 : Memref sig .tc .vmem S1x1x512x2048 .i32) (harg4 : arg4.IsWhole) (arg5 : Memref sig .tc .vmem S1x1x128 .f32) (harg5 : arg5.IsWhole) (hc0 : ¬cond0_0 i)
    (x0 : Vec F S1x512x20 .f32) (x1 : Vec F S1x2048x20 .f32) (x2 : Vec F S1x1x512x2048 .i32) (xo3 : Vec F S1x1x128 .f32) :
    { L3 : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)) -∗ K ⟨⟩))
          ⊢ wp frame (wpE (defs₀ (F := F)) Variants.none c none) E (cc0__instance_kernel i arg2 harg2 arg3 harg3 arg4 harg4 arg5 harg5) K } := by
  refine ⟨?_, fun E K => ?run⟩
  case run =>
    simp only [cc0__instance_kernel_eq_skeleton]; unfold cc0__instance_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Fr

end
-- ==== Proof.FrKi.lean ====
/-
  The frame of the program: it runs to the end without a fault and leaves its argument arrays unchanged.

  The kernel's output block (one row of 128 lanes per batch row) is carried across the four grid points of a batch
  row: the first point fills it with zeros and adds its partial sums, the next three add theirs, and the pipeline
  writes the block back after the fourth. So what the block holds after point number n is defined by recursion on n:
  at a multiple of 4, what the first-point run leaves; otherwise what the later-point run leaves over what point n - 1
  left (between the two the block is not written back). With that as the proof data, each input window's buffer at
  its block, the body's run at every point is one of the two case runs, and the library's launch theorem gives the
  run of the whole program; the frame property is read off its final state.
-/
import proofs.«134923_j35673998361268_2_alg».proof.Proof.FrKiRunB

-- membership in a rectangle of the kernel's extents recurses once per coordinate of the long axes
set_option maxRecDepth 16384

noncomputable section

namespace Cert.KernelIdeal.Fr

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stores a first-point run makes tile the output block (two whole-block stores), so they cover it. -/
theorem cover0_A_3 (c : Dev nD) (i : grid0.Coords) (arg2 : Memref sig .tc .vmem S1x512x20 .f32) (harg2 : arg2.IsWhole) (arg3 : Memref sig .tc .vmem S1x2048x20 .f32) (harg3 : arg3.IsWhole) (arg4 : Memref sig .tc .vmem S1x1x512x2048 .i32) (harg4 : arg4.IsWhole) (arg5 : Memref sig .tc .vmem S1x1x128 .f32) (harg5 : arg5.IsWhole) (hc0 : cond0_0 i)
    (x0 : Vec F S1x512x20 .f32) (x1 : Vec F S1x2048x20 .f32) (x2 : Vec F S1x1x512x2048 .i32) (y : S1x1x128.Idx) :
    ∃ pc ∈ (kernelRun0_A c i arg2 harg2 arg3 harg3 arg4 harg4 arg5 harg5 hc0 x0 x1 x2).1, y ∈ pc.1.set :=
  View.cover_of_tiledL (kernelRun0_A c i arg2 harg2 arg3 harg3 arg4 harg4 arg5 harg5 hc0 x0 x1 x2).1 S1x1x128.size (by sl_kernel_rfl) y

/-- What a first-point run leaves in the output block: its stores read back (over anything). -/
def out0_A_3 (c : Dev nD) (i : grid0.Coords) (arg2 : Memref sig .tc .vmem S1x512x20 .f32) (harg2 : arg2.IsWhole) (arg3 : Memref sig .tc .vmem S1x2048x20 .f32) (harg3 : arg3.IsWhole) (arg4 : Memref sig .tc .vmem S1x1x512x2048 .i32) (harg4 : arg4.IsWhole) (arg5 : Memref sig .tc .vmem S1x1x128 .f32) (harg5 : arg5.IsWhole) (hc0 : cond0_0 i)
    (x0 : Vec F S1x512x20 .f32) (x1 : Vec F S1x2048x20 .f32) (x2 : Vec F S1x1x512x2048 .i32) : Vec F S1x1x128 .f32 :=
  VO0_3.read (Elt F) (VO0_3.writes (Elt F) VO0_3.junk (kernelRun0_A c i arg2 harg2 arg3 harg3 arg4 harg4 arg5 harg5 hc0 x0 x1 x2).1)

/-- The store a later-point run makes is the whole output block, so it covers it. -/
theorem cover0_B_3 (c : Dev nD) (i : grid0.Coords) (arg2 : Memref sig .tc .vmem S1x512x20 .f32) (harg2 : arg2.IsWhole) (arg3 : Memref sig .tc .vmem S1x2048x20 .f32) (harg3 : arg3.IsWhole) (arg4 : Memref sig .tc .vmem S1x1x512x2048 .i32) (harg4 : arg4.IsWhole) (arg5 : Memref sig .tc .vmem S1x1x128 .f32) (harg5 : arg5.IsWhole) (hc0 : ¬cond0_0 i)
    (x0 : Vec F S1x512x20 .f32) (x1 : Vec F S1x2048x20 .f32) (x2 : Vec F S1x1x512x2048 .i32) (xo3 : Vec F S1x1x128 .f32) (y : S1x1x128.Idx) :
    ∃ pc ∈ (kernelRun0_B c i arg2 harg2 arg3 harg3 arg4 harg4 arg5 harg5 hc0 x0 x1 x2 xo3).1, y ∈ pc.1.set :=
  View.cover_of_tiledL (kernelRun0_B c i arg2 harg2 arg3 harg3 arg4 harg4 arg5 harg5 hc0 x0 x1 x2 xo3).1 S1x1x128.size (by sl_kernel_rfl) y

/-- What a later-point run leaves in the output block, given what it held before: its store read back. -/
def out0_B_3 (c : Dev nD) (i : grid0.Coords) (arg2 : Memref sig .tc .vmem S1x512x20 .f32) (harg2 : arg2.IsWhole) (arg3 : Memref sig .tc .vmem S1x2048x20 .f32) (harg3 : arg3.IsWhole) (arg4 : Memref sig .tc .vmem S1x1x512x2048 .i32) (harg4 : arg4.IsWhole) (arg5 : Memref sig .tc .vmem S1x1x128 .f32) (harg5 : arg5.IsWhole) (hc0 : ¬cond0_0 i)
    (x0 : Vec F S1x512x20 .f32) (x1 : Vec F S1x2048x20 .f32) (x2 : Vec F S1x1x512x2048 .i32) (xo3 : Vec F S1x1x128 .f32) : Vec F S1x1x128 .f32 :=
  VO0_3.read (Elt F) (VO0_3.writes (Elt F) VO0_3.junk (kernelRun0_B c i arg2 harg2 arg3 harg3 arg4 harg4 arg5 harg5 hc0 x0 x1 x2 xo3).1)

/-! ## What the output block holds after each point -/

/-- The accumulation: what the output block holds after the body at point number `n`. -/
def outsAt0 (c : Dev nD) : (n : ℕ) → n < cfg0.N → Vec F S1x1x128 .f32
  | 0, hn => out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩) (iblk m c 2 ⟨0, hn⟩)
  | n + 1, hn =>
    if h0 : (n + 1) % 4 = 0 then
      out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩) (iblk m c 2 ⟨n + 1, hn⟩)
    else
      out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn))

/-- At a first point of a row: the first-point contents. -/
theorem outsAt0_A (c : Dev nD) (t : Fin cfg0.N) (h0 : t.val % 4 = 0) :
    outsAt0 m c t.val t.isLt = out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t) (iblk m c 2 t) := by
  obtain ⟨n, hn⟩ := t
  cases n with
  | zero => exact rfl
  | succ n => exact (dif_pos h0).trans rfl

/-- At a later point of a row: the later-point contents over what the point before left. -/
theorem outsAt0_B (c : Dev nD) (t : Fin cfg0.N) (h0 : ¬t.val % 4 = 0) :
    outsAt0 m c t.val t.isLt = out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The pipeline's proof data on core `c`: the arrays as the launch finds them; after the body at point `t` each
    input's buffer at its block and the output's at `outsAt0`; nothing else is used, nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
/-- At a later point of a row the output's buffer holds what the body left at the point before: the point is not the
    first, and the block was not written back between (it is written back only after the last point of a row). -/
theorem before0_3_B (c : Dev nD) (t : Fin cfg0.N) (h0 : ¬t.val % 4 = 0) (d) :
    (dats m 0 c).before 3 t d = (outsAt0 m c (t.val - 1) (Nat.lt_of_le_of_lt (Nat.sub_le _ _) t.isLt)) := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point: the inputs' buffers hold their blocks; the point's number says which case it is in; at a
    later point of a row the output's buffer holds what the point before left; so that case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 16 := lt_of_lt_of_eq t.isLt (show cfg0.N = 16 from N_0)
  by_cases h0 : t.val % 4 = 0
  · rw [outsAt0_A m c t h0]
    unfold out0_A_3
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c _ _ _ _ _ _ _ _ _ _ _ _ _)
  · rw [outsAt0_B m c t h0]
    simp only [before0_3_B m c t h0]
    unfold out0_B_3
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) (iblk m c 2 t) _).2 Set.univ _)
    isplitl [H0]; · iexact H0
    isplitl [H1]; · iexact H1
    isplitl [H2]; · iexact H2
    isplitl [H3]; · iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- From any memory with zero counters every weakly fair execution of the program terminates, and every final state has
    each array of the launch at what the proof data computes and every other buffer as the later host operations leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and leaves its five argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Fr

end
-- ==== Proof.RefImports.lean ====
/- The reference program's run and its stages read at an index: the generated modules this proof builds on. -/
import proofs.«134923_j35673998361268_2_alg».proof.Proof.Gen.ReferenceIdeal.Run
import proofs.«134923_j35673998361268_2_alg».proof.Proof.Gen.ReferenceIdeal.Read
-- ==== Proof.BodyBits.lean ====
/-
  Small facts the body's arithmetic is read with, none of them about this kernel in particular:
  a sum over a rank-3 index set whose leading axis has one element is the double sum over the other two coordinates;
  a total sum-reduction followed by the reading of its one element is that double sum;
  a product of a matrix with the transpose of another (both contracted over their second axis), accumulated into zero,
  is the sum of the products of the rows' entries; an integer comparison "equal" is the bit 1 exactly when the words are
  equal, so that a select on it is an if-then-else; a one-bit word widened and read as a number is 1 or 0; two small
  naturals are equal exactly when their 32-bit words are.
-/
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.BodySide

open Idealize.ShloMosaic Idealize.ShloMosaic.ValueIdx

/-! ## Sums over index sets with a leading one-element axis -/

/-- A rank-3 index set whose first axis has one element is the product of the other two coordinate ranges. -/
def idxEquiv3u {n1 n2 : Nat} : (⟨3, ![1, n1, n2]⟩ : Shape).Idx ≃ Fin n1 × Fin n2 where
  toFun i := (i 1, i 2)
  invFun p := ix3 (0 : Fin 1) p.1 p.2
  left_inv i := by
    have h0 : (i 0).val = 0 := by have := (i 0).isLt; simp at this; omega
    funext a
    match a with
    | ⟨0, _⟩ => exact Fin.ext h0.symm
    | ⟨1, _⟩ => rfl
    | ⟨2, _⟩ => rfl
  right_inv _ := rfl

/-- So a sum over it is the double sum over those two coordinates. -/
theorem sum_idx3u {M : Type*} [AddCommMonoid M] {n1 n2 : Nat} (f : (⟨3, ![1, n1, n2]⟩ : Shape).Idx → M) :
    ∑ i, f i = ∑ a : Fin n1, ∑ b : Fin n2, f (ix3 (0 : Fin 1) a b) := by
  rw [← Equiv.sum_comp (idxEquiv3u (n1 := n1) (n2 := n2)).symm f, Fintype.sum_prod_type]
  rfl

/-- The sum of a [1, n1, n2] vector over its last two axes, kept as a one-element vector, viewed [1, 1, 1] and read at
    its one position: the double sum of the entries. -/
theorem total_extract {n1 n2 : Nat} (src : FVec Ideal ⟨3, ![1, n1, n2]⟩ .f32)
    (hred : (⟨3, ![1, n1, n2]⟩ : Shape).Reduces [1, 2] ⟨1, ![1]⟩) (hφ : FKind.Formats .f32)
    (hacc : (0x00000000#32 : BitVec 32) = FKind.add.neutral .f32 hφ)
    (hc : (⟨1, ![1]⟩ : Shape).ShapeCasts ⟨3, ![1, 1, 1]⟩)
    (hp : ∀ a, (![0, 0, 0] : Fin 3 → Nat) a < (⟨3, ![1, 1, 1]⟩ : Shape).size a) :
    extractAt ![0, 0, 0] (shapeCast ⟨3, ![1, 1, 1]⟩
        (multiReduction .add [1, 2] ⟨1, ![1]⟩ src 0x00000000#32 hred hφ hacc) hc) hp
      = ∑ r : Fin n1, ∑ m : Fin n2, src (ix3 (0 : Fin 1) r m) := by
  unfold extractAt shapeCast
  exact (Ideal.multiReduction_add_total src _ hred (fun b => by match b with | ⟨0, _⟩ => rfl) hφ hacc _).trans
    (sum_idx3u src)

/-! ## A matrix times a transposed matrix -/

/-- With both operands contracted over their second axis and a zero accumulator, entry (r, m) of the product is the sum
    over the contracted coordinate of the products of row r of the first operand with row m of the second. -/
theorem matmul_nt_apply {a b k : Nat} {φ₁ φ₂ : FTy}
    (w : DotDims.WF ⟨2, ![a, k]⟩ ⟨2, ![b, k]⟩ ⟨2, ![a, b]⟩ [1] [1] [0] [0] [] [])
    (prec : Option ContractPrecision) (A : FVec Ideal ⟨2, ![a, k]⟩ φ₁) (B : FVec Ideal ⟨2, ![b, k]⟩ φ₂)
    (r : Fin a) (m : Fin b) :
    FloatOps.matmul (⟨[1], [1], [0], [0], [], [], w⟩ : DotDims _ _ _) prec A B
        (constant ⟨2, ![a, b]⟩ .f32 0x00000000#32) (ix2 r m)
      = ∑ c : Fin k, A (ix2 r c) * B (ix2 m c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![a, k]⟩ ⟨2, ![b, k]⟩ ⟨2, ![a, b]⟩) k rfl rfl c
  have l2 : (⟨[1], [1], [0], [0], [], [], w⟩ : DotDims ⟨2, ![a, k]⟩ ⟨2, ![b, k]⟩ ⟨2, ![a, b]⟩).lhsIdx (ix2 r m)
      ((contrEquiv1 _ k rfl rfl).symm c) = ix2 r c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![a, k]⟩ ⟨2, ![b, k]⟩ ⟨2, ![a, b]⟩).rhsIdx (ix2 r m)
      ((contrEquiv1 _ k rfl rfl).symm c) = ix2 m c := by
    funext ax; apply Fin.ext
    match ax with
    | ⟨0, _⟩ => simp [DotDims.rhsIdx]; rfl
    | ⟨1, _⟩ => simp [DotDims.rhsIdx]; exact c2
  rw [l2, r2]

/-! ## Words -/

/-- The comparison "equal" answers the bit 1 exactly when the two words are equal. -/
theorem cmpi_eq_one_iff {w : Nat} (x y : BitVec w) : IntOp.cmpi .eq x y = 1#1 ↔ x = y := by
  unfold IntOp.cmpi
  by_cases h : x = y
  · simp [h]
  · have hb : (x == y) = false := beq_eq_false_iff_ne.mpr h
    simp only [hb]
    exact ⟨fun h' => absurd h' (by decide), fun h' => absurd h' h⟩

/-- So a select on it is the if-then-else on the equality. -/
theorem select_cmpi_eq {α : Type} {w : Nat} (x k : BitVec w) (a b : α) :
    Scalar.select (IntOp.cmpi .eq x k) a b = if x = k then a else b := by
  by_cases h : x = k
  · exact (if_pos ((cmpi_eq_one_iff x k).mpr h)).trans (if_pos h).symm
  · exact (if_neg fun h' => h ((cmpi_eq_one_iff x k).mp h')).trans (if_neg h).symm

/-- A one-bit word widened to 32 bits and read as a signed integer is the number 1 when the bit is set, else 0. -/
theorem sitofp_bit (b : BitVec 1) :
    (FloatOps.sitofp (F := Ideal) .f32 (b.setWidth 32) : EReal) = if b = 1#1 then (1 : EReal) else 0 := by
  rcases BitVec.eq_zero_or_eq_one b with h | h <;> subst h
  · show ((((0#1 : BitVec 1).setWidth 32).toInt : ℝ) : EReal) = _
    rw [if_neg (by decide), show ((0#1 : BitVec 1).setWidth 32).toInt = 0 from by decide]
    simp
  · show ((((1#1 : BitVec 1).setWidth 32).toInt : ℝ) : EReal) = _
    rw [if_pos rfl, show ((1#1 : BitVec 1).setWidth 32).toInt = 1 from by decide]
    simp

/-- Two naturals below 2^32 are equal exactly when their 32-bit words are. -/
theorem ofNat32_eq_iff (n k : Nat) (hn : n < 4294967296) (hk : k < 4294967296) :
    BitVec.ofNat 32 n = BitVec.ofNat 32 k ↔ n = k := by
  constructor
  · intro h
    have h' := congrArg BitVec.toNat h
    simp only [BitVec.toNat_ofNat] at h'
    omega
  · intro h; rw [h]

end Cert.BodySide

end
-- ==== Proof.BodyPay.lean ====
/-
  What one grid point's body computes, read on the extended reals.

  The body holds 512 "query" rows and 2048 "key" rows of 20 numbers each, and a 512 x 2048 table of integer labels.
  For a pair (r, m) it forms the inner product of the two rows (a matrix product into a zero accumulator), clamps it
  at zero from below and takes the square root: the pair's value dT. It then forms four numbers: the sum of dT over
  the pairs labelled 1, the sum of max (1 - dT) 0 over the pairs labelled 2, and the number of pairs labelled 1 and
  labelled 2 (each a sum of ones). The four numbers go to lanes 0, 1, 2, 3 of a 128-lane vector that is zero elsewhere
  (four selects on "lane number = k", added; a + 0 = a on the extended reals), and that vector is added to the output
  block as it was before this point.
-/
import proofs.«134923_j35673998361268_2_alg».proof.Proof.Gen.KernelIdeal.Skeleton
import proofs.«134923_j35673998361268_2_alg».proof.Proof.BodyBits

noncomputable section

open scoped BigOperators

namespace Cert.BodySide

open Idealize.ShloMosaic Idealize.ShloMosaic.ValueIdx Cert.KernelIdeal Cert.KernelIdeal.Gen

/-- The inner product of query row r with key row m. -/
def dot (v3 : Vec Ideal S1x512x20 .f32) (v5 : Vec Ideal S1x2048x20 .f32) (r : Fin 512) (m : Fin 2048) : EReal :=
  ∑ j : Fin 20, v3 (ix3 (0 : Fin 1) r j) * v5 (ix3 (0 : Fin 1) m j)

/-- The pair's value: the square root of the inner product clamped at zero from below. -/
def dT (v3 : Vec Ideal S1x512x20 .f32) (v5 : Vec Ideal S1x2048x20 .f32) (r : Fin 512) (m : Fin 2048) : EReal :=
  Ideal.sqrt (max (dot v3 v5 r m) 0)

/-- The sum of the values of the pairs labelled 1. -/
def sumSame (v3 : Vec Ideal S1x512x20 .f32) (v5 : Vec Ideal S1x2048x20 .f32) (v11 : Vec Ideal S1x1x512x2048 .i32) : EReal :=
  ∑ r : Fin 512, ∑ m : Fin 2048, if v11 (ix4 (0 : Fin 1) (0 : Fin 1) r m) = 1#32 then dT v3 v5 r m else 0

/-- The sum of max (1 - value) 0 over the pairs labelled 2. -/
def sumDiff (v3 : Vec Ideal S1x512x20 .f32) (v5 : Vec Ideal S1x2048x20 .f32) (v11 : Vec Ideal S1x1x512x2048 .i32) : EReal :=
  ∑ r : Fin 512, ∑ m : Fin 2048, if v11 (ix4 (0 : Fin 1) (0 : Fin 1) r m) = 2#32 then max (1 - dT v3 v5 r m) 0 else 0

/-- The number of pairs labelled k, as a sum of ones. -/
def cntLab (v11 : Vec Ideal S1x1x512x2048 .i32) (k : BitVec 32) : EReal :=
  ∑ r : Fin 512, ∑ m : Fin 2048, if v11 (ix4 (0 : Fin 1) (0 : Fin 1) r m) = k then (1 : EReal) else 0

/-- The 128-lane vector the body adds to the output block: the four numbers in lanes 0 to 3, zero elsewhere. -/
def tileVec (v3 : Vec Ideal S1x512x20 .f32) (v5 : Vec Ideal S1x2048x20 .f32) (v11 : Vec Ideal S1x1x512x2048 .i32)
    (l : Fin 128) : EReal :=
  if l.val = 0 then sumSame v3 v5 v11 else if l.val = 1 then sumDiff v3 v5 v11
  else if l.val = 2 then cntLab v11 1#32 else if l.val = 3 then cntLab v11 2#32 else 0

variable (v3 : Vec Ideal S1x512x20 .f32) (v5 : Vec Ideal S1x2048x20 .f32) (v11 : Vec Ideal S1x1x512x2048 .i32)
  (v69 : Vec Ideal S1x1x128 .f32)

/-- The word of 1.0 denotes the number 1. -/
theorem ofBits_one_f32 : Ideal.ofBits .f32 0x3F800000#32 = 1 := IdealRules.sign_bit.ideal_onePat .f32

/-- The zero fill of the output block is zero in every lane. -/
theorem pay2_eq (l : Fin 128) : k0_pay2 (F := Ideal) (ix3 (0 : Fin 1) (0 : Fin 1) l) = 0 := by
  unfold k0_pay2
  exact Ideal.ofBits_zero_f32

/-- The clamped square root of the matrix product at (r, m) is the pair's value. -/
theorem pay3_apply (r : Fin 512) (m : Fin 2048) : k0_pay3 (F := Ideal) v3 v5 (ix2 r m) = dT v3 v5 r m := by
  unfold k0_pay3 dT dot
  show Ideal.sqrt (max (FloatOps.matmul (F := Ideal) dot_S512x20_S2048x20_S512x2048_1_1_0_0_n_n (some .fp32)
      (shapeCast S512x20 v3 shapeCasts_S1x512x20_S512x20) (shapeCast S2048x20 v5 shapeCasts_S1x2048x20_S2048x20)
      (constant (F := Ideal) S512x2048 .f32 0x00000000#32) (ix2 r m)) (Ideal.ofBits .f32 0x00000000#32)) = _
  rw [Ideal.ofBits_zero_f32]
  refine congrArg (fun x => Ideal.sqrt (max x 0)) ?_
  refine (matmul_nt_apply _ _ _ _ r m).trans ?_
  refine Finset.sum_congr rfl fun j _ => ?_
  rw [shapeCast_1ab_ab_apply, shapeCast_1ab_ab_apply]

/-- The label table viewed 512 x 2048 reads the loaded block at (0, 0, r, m). -/
theorem pay4_apply (r : Fin 512) (m : Fin 2048) :
    k0_pay4 (F := Ideal) v11 (ix2 r m) = v11 (ix4 (0 : Fin 1) (0 : Fin 1) r m) := by
  unfold k0_pay4
  exact shapeCast_apply v11 _ _ _ (by
    rw [Shape.rowMajor_val_four, Shape.rowMajor_val_two]
    show ((0 * 1 + 0) * 512 + r.val) * 2048 + m.val = r.val * 2048 + m.val
    omega)

/-- The first scalar: the sum of the values of the pairs labelled 1. -/
theorem pay7_eq : k0_pay7 (F := Ideal) v3 v5 v11 = sumSame v3 v5 v11 := by
  unfold k0_pay7 sumSame
  refine (total_extract _ _ _ _ _ _).trans ?_
  refine Finset.sum_congr rfl fun r _ => Finset.sum_congr rfl fun m _ => ?_
  refine (shapeCast_ab_1ab_apply _ _ _ _ _).trans ?_
  show Scalar.select (IntOp.cmpi .eq (k0_pay4 (F := Ideal) v11 (ix2 r m)) 1#32)
      (k0_pay3 (F := Ideal) v3 v5 (ix2 r m)) (Ideal.ofBits .f32 0x00000000#32) = _
  rw [select_cmpi_eq, pay4_apply, pay3_apply, Ideal.ofBits_zero_f32]

/-- The second scalar: the sum of max (1 - value) 0 over the pairs labelled 2. -/
theorem pay8_eq : k0_pay8 (F := Ideal) v3 v5 v11 = sumDiff v3 v5 v11 := by
  unfold k0_pay8 sumDiff
  refine (total_extract _ _ _ _ _ _).trans ?_
  refine Finset.sum_congr rfl fun r _ => Finset.sum_congr rfl fun m _ => ?_
  refine (shapeCast_ab_1ab_apply _ _ _ _ _).trans ?_
  show Scalar.select (IntOp.cmpi .eq (k0_pay4 (F := Ideal) v11 (ix2 r m)) 2#32)
      (max (Ideal.ofBits .f32 0x3F800000#32 - k0_pay3 (F := Ideal) v3 v5 (ix2 r m)) (Ideal.ofBits .f32 0x00000000#32))
      (Ideal.ofBits .f32 0x00000000#32) = _
  rw [select_cmpi_eq, pay4_apply, pay3_apply, Ideal.ofBits_zero_f32, ofBits_one_f32]

/-- The indicator "label is 1", as a number, at (r, m). -/
theorem pay9_apply (r : Fin 512) (m : Fin 2048) :
    k0_pay9 (F := Ideal) v11 (ix2 r m) = if v11 (ix4 (0 : Fin 1) (0 : Fin 1) r m) = 1#32 then (1 : EReal) else 0 := by
  unfold k0_pay9
  show FloatOps.sitofp (F := Ideal) .f32 ((IntOp.cmpi .eq (k0_pay4 (F := Ideal) v11 (ix2 r m)) 1#32).setWidth 32) = _
  rw [sitofp_bit, pay4_apply]
  exact if_congr (cmpi_eq_one_iff _ _) rfl rfl

/-- The bit "label is 2" at (r, m). -/
theorem pay6_iff (r : Fin 512) (m : Fin 2048) :
    k0_pay6 (F := Ideal) v11 (ix2 r m) = 1#1 ↔ v11 (ix4 (0 : Fin 1) (0 : Fin 1) r m) = 2#32 := by
  unfold k0_pay6
  show IntOp.cmpi .eq (k0_pay4 (F := Ideal) v11 (ix2 r m)) 2#32 = 1#1 ↔ _
  rw [pay4_apply]
  exact cmpi_eq_one_iff _ _

/-- Four numbers packed into lanes 0 to 3 by selects on "lane number = k" and added, on top of x: at lane l the sum is
    x plus the number of that lane (nothing for the other lanes; a + 0 = a). -/
theorem lane_pack (l : Fin 128) (I : BitVec 32) (hI : I = BitVec.ofNat 32 l.val) (x x' a b c c' d d' Z : EReal)
    (hx : x = x') (hc : c = c') (hd : d = d') (hZ : Z = 0) :
    x + (((Scalar.select (IntOp.cmpi .eq I 0#32) a Z + Scalar.select (IntOp.cmpi .eq I 1#32) b Z)
          + Scalar.select (IntOp.cmpi .eq I 2#32) c Z) + Scalar.select (IntOp.cmpi .eq I 3#32) d Z)
      = x' + ((((if l.val = 0 then a else 0) + (if l.val = 1 then b else 0)) + (if l.val = 2 then c' else 0))
          + (if l.val = 3 then d' else 0)) := by
  subst hI hx hc hd hZ
  have hl : l.val < 4294967296 := by have := l.isLt; omega
  have e : ∀ (k : Nat) (_ : k < 4294967296) (y : EReal),
      Scalar.select (IntOp.cmpi .eq (BitVec.ofNat 32 l.val) (BitVec.ofNat 32 k)) y 0 = if l.val = k then y else 0 :=
    fun k hk y => by
      rw [select_cmpi_eq]
      exact if_congr (ofNat32_eq_iff _ _ hl hk) rfl rfl
  rw [e 0 (by norm_num), e 1 (by norm_num), e 2 (by norm_num), e 3 (by norm_num)]

/-- The sum of a 512 x 2048 table, as the body forms it: viewed [1, 512, 2048], summed over its last two axes into a
    one-element vector, viewed [1, 1, 1], and read at its one position. -/
def tot (x : FVec Ideal S512x2048 .f32) : Ideal .f32 :=
  extractAt ![0, 0, 0] (shapeCast S1x1x1 (multiReduction .add [1, 2] S1
    (shapeCast S1x512x2048 x shapeCasts_S512x2048_S1x512x2048) 0x00000000#32 reduces_S1x512x2048_S1 (.inl rfl) rfl)
    shapeCasts_S1_S1x1x1) inpos_S1x1x1_p0_0_0

/-- It is the double sum of the table's entries. -/
theorem tot_eq (x : FVec Ideal S512x2048 .f32) : tot x = ∑ r : Fin 512, ∑ m : Fin 2048, x (ix2 r m) := by
  unfold tot
  exact (total_extract _ _ _ _ _ _).trans (Finset.sum_congr rfl fun r _ => Finset.sum_congr rfl fun m _ =>
    shapeCast_ab_1ab_apply _ _ _ _ _)

/-- The packing of four numbers into lanes 0 to 3 of a 128-lane vector (a select on "lane number = k" for each, the
    four vectors added) added to a block: the last part of the body, as a function of the four numbers. -/
def packLanes (a b c d : Ideal .f32) (v69 : Vec Ideal S1x1x128 .f32) : FVec Ideal S1x1x128 .f32 :=
  have v45 : IVec S1x1x128 32 := iota .tc S1x1x128 32 [2] iota_S1x1x128_d2_w32
  have v46 : IVec S1x1x128 32 := broadcast S1x1x128 0#32
  have v47 : IVec S1x1x128 1 := cmpi .eq v45 v46
  have cst_20 : Ideal .f32 := Scalar.ofBits .f32 0x00000000#32
  have v48 : FVec Ideal S1x1x128 .f32 := broadcast S1x1x128 a
  have v49 : FVec Ideal S1x1x128 .f32 := broadcast S1x1x128 cst_20
  have v50 : FVec Ideal S1x1x128 .f32 := select v47 v48 v49
  have v51 : IVec S1x1x128 32 := broadcast S1x1x128 1#32
  have v52 : IVec S1x1x128 1 := cmpi .eq v45 v51
  have cst_22 : Ideal .f32 := Scalar.ofBits .f32 0x00000000#32
  have v53 : FVec Ideal S1x1x128 .f32 := broadcast S1x1x128 b
  have v54 : FVec Ideal S1x1x128 .f32 := broadcast S1x1x128 cst_22
  have v55 : FVec Ideal S1x1x128 .f32 := select v52 v53 v54
  have v56 : FVec Ideal S1x1x128 .f32 := addf v50 v55
  have v57 : IVec S1x1x128 32 := broadcast S1x1x128 2#32
  have v58 : IVec S1x1x128 1 := cmpi .eq v45 v57
  have cst_24 : Ideal .f32 := Scalar.ofBits .f32 0x00000000#32
  have v59 : FVec Ideal S1x1x128 .f32 := broadcast S1x1x128 c
  have v60 : FVec Ideal S1x1x128 .f32 := broadcast S1x1x128 cst_24
  have v61 : FVec Ideal S1x1x128 .f32 := select v58 v59 v60
  have v62 : FVec Ideal S1x1x128 .f32 := addf v56 v61
  have v63 : IVec S1x1x128 32 := broadcast S1x1x128 3#32
  have v64 : IVec S1x1x128 1 := cmpi .eq v45 v63
  have cst_25 : Ideal .f32 := Scalar.ofBits .f32 0x00000000#32
  have v65 : FVec Ideal S1x1x128 .f32 := broadcast S1x1x128 d
  have v66 : FVec Ideal S1x1x128 .f32 := broadcast S1x1x128 cst_25
  have v67 : FVec Ideal S1x1x128 .f32 := select v64 v65 v66
  have v68 : FVec Ideal S1x1x128 .f32 := addf v62 v67
  have v70 : FVec Ideal S1x1x128 .f32 := shapeCast S1x1x128 v69 shapeCasts_S1x1x128_S1x1x128
  have v71 : FVec Ideal S1x1x128 .f32 := addf v70 v68
  v71

/-- The stored vector is the packing of the two scalars, the total of the first table and the total of the mask read
    as numbers: the two sides unfold to the same term. -/
theorem pay1_split (v16 : IVec S512x2048 1) (v22 v32 : Ideal .f32) (v34 : FVec Ideal S512x2048 .f32) :
    k0_pay1 (F := Ideal) v16 v22 v32 v34 v69
      = packLanes v22 v32 (tot v34) (tot (sitofp (F := Ideal) .f32 (extui 32 v16 natLt_1_32))) v69 := rfl

/-- The packing read at lane l. -/
theorem packLanes_apply (a b c d c' d' : Ideal .f32) (hc : c = c') (hd : d = d') (l : Fin 128) :
    packLanes a b c d v69 (ix3 (0 : Fin 1) (0 : Fin 1) l)
      = v69 (ix3 (0 : Fin 1) (0 : Fin 1) l)
        + ((((if l.val = 0 then a else 0) + (if l.val = 1 then b else 0)) + (if l.val = 2 then c' else 0))
            + (if l.val = 3 then d' else 0)) := by
  unfold packLanes
  exact lane_pack l _ (iota_single_apply _ _ _ _ _ _) _ _ a b c c' d d' _
    (congrFun (shapeCast_self v69 _) _) hc hd Ideal.ofBits_zero_f32

attribute [irreducible] tot

/-- The stored vector at lane l, for any four inputs of the packing: the block as it was plus, in lanes 0 to 3, the two
    scalars, the total of the table and the number of set bits of the mask; nothing in the other lanes. -/
theorem pay1_apply (v16 : IVec S512x2048 1) (v22 v32 : Ideal .f32) (v34 : FVec Ideal S512x2048 .f32) (l : Fin 128) :
    k0_pay1 (F := Ideal) v16 v22 v32 v34 v69 (ix3 (0 : Fin 1) (0 : Fin 1) l)
      = v69 (ix3 (0 : Fin 1) (0 : Fin 1) l)
        + ((((if l.val = 0 then v22 else 0) + (if l.val = 1 then v32 else 0))
            + (if l.val = 2 then ∑ r : Fin 512, ∑ m : Fin 2048, v34 (ix2 r m) else 0))
            + (if l.val = 3 then ∑ r : Fin 512, ∑ m : Fin 2048, (if v16 (ix2 r m) = 1#1 then (1 : EReal) else 0)
               else 0)) :=
  (congrFun (pay1_split v69 v16 v22 v32 v34) (ix3 (0 : Fin 1) (0 : Fin 1) l)).trans
    (packLanes_apply v69 v22 v32 (tot v34) (tot (sitofp (F := Ideal) .f32 (extui 32 v16 natLt_1_32))) _ _ (tot_eq v34)
      ((tot_eq _).trans (Finset.sum_congr rfl fun r _ => Finset.sum_congr rfl fun m _ => sitofp_bit _)) l)

/-- Four numbers, each in its own lane and zero elsewhere, added: at lane l the number of that lane, zero past lane 3
    (a + 0 = a); the four numbers may be replaced by equal ones. -/
theorem lanes_congr (l : Fin 128) (a a' b b' c c' d d' : EReal) (ha : a = a') (hb : b = b') (hc : c = c') (hd : d = d') :
    (((if l.val = 0 then a else 0) + (if l.val = 1 then b else 0)) + (if l.val = 2 then c else 0))
        + (if l.val = 3 then d else 0)
      = if l.val = 0 then a' else if l.val = 1 then b' else if l.val = 2 then c' else if l.val = 3 then d' else 0 := by
  subst ha hb hc hd
  by_cases h0 : l.val = 0
  · simp [h0]
  by_cases h1 : l.val = 1
  · simp [h1]
  by_cases h2 : l.val = 2
  · simp [h2]
  by_cases h3 : l.val = 3
  · simp [h3]
  simp [h0, h1, h2, h3]

/-- The stored vector of one grid point: the block as it was plus the four numbers in lanes 0 to 3. -/
theorem pay1_eq (l : Fin 128) :
    k0_pay1 (F := Ideal) (k0_pay6 v11) (k0_pay7 v3 v5 v11) (k0_pay8 v3 v5 v11) (k0_pay9 v11) v69
        (ix3 (0 : Fin 1) (0 : Fin 1) l)
      = v69 (ix3 (0 : Fin 1) (0 : Fin 1) l) + tileVec v3 v5 v11 l := by
  refine (pay1_apply v69 _ _ _ _ l).trans ?_
  refine congrArg (fun x => v69 (ix3 (0 : Fin 1) (0 : Fin 1) l) + x) ?_
  have h9 : (∑ r : Fin 512, ∑ m : Fin 2048, k0_pay9 (F := Ideal) v11 (ix2 r m)) = cntLab v11 1#32 :=
    Finset.sum_congr rfl fun r _ => Finset.sum_congr rfl fun m _ => pay9_apply v11 r m
  have h6 : (∑ r : Fin 512, ∑ m : Fin 2048, (if k0_pay6 (F := Ideal) v11 (ix2 r m) = 1#1 then (1 : EReal) else 0))
      = cntLab v11 2#32 :=
    Finset.sum_congr rfl fun r _ => Finset.sum_congr rfl fun m _ => if_congr (pay6_iff v11 r m) rfl rfl
  unfold tileVec
  exact lanes_congr l _ _ _ _ _ _ _ _ (pay7_eq v3 v5 v11) (pay8_eq v3 v5 v11) h9 h6

end Cert.BodySide

end
-- ==== Proof.KiValue.lean ====
/-
  What the kernel's launch leaves in its result array, at the extended reals.

  One grid point (b, q) handles batch row b and the q-th block of 512 query points against all 2048 key points. Its
  body computes four scalars from its three input blocks — the sum of the distances of the pairs labelled 1, the sum of
  max (1 - distance) 0 over the pairs labelled 2, and the two counts — puts them in lanes 0 to 3 of a 128-lane row, and
  adds that row to the output block, which the first point of a batch row has filled with zeros. So after point number
  n the block holds the running sum of the rows of the points of its batch row so far (by induction on n); the block is
  written back after the fourth point of a row, to row b of the result array; the four write-backs cover the array.
  Hence entry (b, 0, l) of the result array is 0 + the sum over q of lane l of the row of point (b, q).
-/
import proofs.«134923_j35673998361268_2_alg».proof.Proof.FrKi
import proofs.«134923_j35673998361268_2_alg».proof.Proof.BodyPay
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Val

open Cert.KernelIdeal Cert.KernelIdeal.Gen Cert.KernelIdeal.Fr

theorem hz3 : (![0, 0, 0] : Fin 3 → Nat) = fun _ => 0 := funext fun a => by fin_cases a <;> rfl
theorem hz4 : (![0, 0, 0, 0] : Fin 4 → Nat) = fun _ => 0 := funext fun a => by fin_cases a <;> rfl

section AnyValues

variable {F : FTy → Type} [FloatOps F]

/-- The block's value after a later point of a row: the body's one store, whose loads read the whole buffers — the
    payload of the three input blocks and of what the block held before. -/
theorem out_B (c : Dev nD) (i : grid0.Coords) (a2 : Memref sig .tc .vmem S1x512x20 .f32) (h2 : a2.IsWhole) (a3 : Memref sig .tc .vmem S1x2048x20 .f32) (h3 : a3.IsWhole) (a4 : Memref sig .tc .vmem S1x1x512x2048 .i32) (h4 : a4.IsWhole) (a5 : Memref sig .tc .vmem S1x1x128 .f32) (h5 : a5.IsWhole) (hc : ¬cond0_0 i)
    (x0 : Vec F S1x512x20 .f32) (x1 : Vec F S1x2048x20 .f32) (x2 : Vec F S1x1x512x2048 .i32) (xo : Vec F S1x1x128 .f32) :
    out0_B_3 c i a2 h2 a3 h3 a4 h4 a5 h5 hc x0 x1 x2 xo = k0_pay1 (k0_pay6 x2) (k0_pay7 x0 x1 x2) (k0_pay8 x0 x1 x2) (k0_pay9 x2) xo := by
  unfold out0_B_3
  rw [View.read_writes_eq_canon _ _ _ (cover0_B_3 c i a2 h2 a3 h3 a4 h4 a5 h5 hc x0 x1 x2 xo)]
  unfold kernelRun0_B
  dsimp only
  sl_unfold_words
  rw [View.canon_unit_zero hz3]
  simp only [View.readAt_eq_ld, h2.read_unread, h3.read_unread, h4.read_unread, h5.read_unread, View.ld_unit_zero (S := S1x512x20) hz3, View.ld_unit_zero (S := S1x2048x20) hz3, View.ld_unit_zero (S := S1x1x512x2048) hz4, View.ld_unit_zero (S := S1x1x128) hz3]

/-- The block's value after a first point of a row: the body stores the zero block, reads it back, and stores the
    payload of the three input blocks over it. -/
theorem out_A (c : Dev nD) (i : grid0.Coords) (a2 : Memref sig .tc .vmem S1x512x20 .f32) (h2 : a2.IsWhole) (a3 : Memref sig .tc .vmem S1x2048x20 .f32) (h3 : a3.IsWhole) (a4 : Memref sig .tc .vmem S1x1x512x2048 .i32) (h4 : a4.IsWhole) (a5 : Memref sig .tc .vmem S1x1x128 .f32) (h5 : a5.IsWhole) (hc : cond0_0 i)
    (x0 : Vec F S1x512x20 .f32) (x1 : Vec F S1x2048x20 .f32) (x2 : Vec F S1x1x512x2048 .i32) :
    out0_A_3 c i a2 h2 a3 h3 a4 h4 a5 h5 hc x0 x1 x2 = k0_pay1 (k0_pay6 x2) (k0_pay7 x0 x1 x2) (k0_pay8 x0 x1 x2) (k0_pay9 x2) (k0_pay2 (F := F)) := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S1x1x128) hz3, View.readCov_unit_zero (S := S1x1x128) _ hz3]
  simp only [View.readAt_eq_ld, h2.read_unread, h3.read_unread, h4.read_unread, h5.read_unread, View.ld_unit_zero (S := S1x512x20) hz3, View.ld_unit_zero (S := S1x2048x20) hz3, View.ld_unit_zero (S := S1x1x512x2048) hz4, View.ld_unit_zero (S := S1x1x128) hz3]

end AnyValues

/-! ## At the extended reals -/

variable (m : (ℓ : Loc nD τ sig) → Buf (Elt Ideal) ℓ) (ρ : Dev nD → PrngReg)

/-- The row of four scalars (lanes 0 to 3, zero elsewhere) that grid point `t` computes from its three input blocks. -/
def tile (c : Dev nD) (t : Fin cfg0.N) (l : Fin 128) : EReal :=
  Cert.BodySide.tileVec (iblk m c 0 t : Vec Ideal S1x512x20 .f32) (iblk m c 1 t : Vec Ideal S1x2048x20 .f32)
    (iblk m c 2 t : Vec Ideal S1x1x512x2048 .i32) l

/-- Grid point number 4 b + q: query block `q` of batch row `b`. -/
def pt (b : Fin 4) (q : ℕ) (hq : q < 4) : Fin cfg0.N :=
  ⟨4 * b.val + q, by have := b.isLt; have hN : cfg0.N = 16 := N_0; omega⟩

/-- The running sum in lane `l` of batch row `b`'s output block after its query block `q`: from zero, one row of scalars per block. -/
def accq (c : Dev nD) (b : Fin 4) : (q : ℕ) → q < 4 → Fin 128 → EReal
  | 0, h, l => 0 + tile m c (pt b 0 h) l
  | q + 1, h, l => accq c b q (Nat.lt_of_succ_lt h) l + tile m c (pt b (q + 1) h) l

theorem outsAt_congr (c : Dev nD) {n n' : ℕ} (e : n = n') (h : n < cfg0.N) (h' : n' < cfg0.N) :
    outsAt0 m c n h = outsAt0 m c n' h' := by subst e; rfl

/-- What the output block holds after point 4 b + q is that running sum, by induction on q: the first point of the
    row is the one that resets the block, each later one adds to what the point before left. -/
theorem outsAt_eq (c : Dev nD) (b : Fin 4) : ∀ (q : ℕ) (hq : q < 4) (l : Fin 128),
    outsAt0 m c (pt b q hq).val (pt b q hq).isLt (ix3 (0 : Fin 1) (0 : Fin 1) l) = accq m c b q hq l
  | 0, hq, l => by
    rw [outsAt0_A m c (pt b 0 hq) (by show (4 * b.val + 0) % 4 = 0; omega), out_A]
    refine (Cert.BodySide.pay1_eq _ _ _ _ l).trans ?_
    rw [Cert.BodySide.pay2_eq]
    rfl
  | q + 1, hq, l => by
    have h0 : ¬(pt b (q + 1) hq).val % 4 = 0 := by show ¬(4 * b.val + (q + 1)) % 4 = 0; omega
    rw [outsAt0_B m c (pt b (q + 1) hq) h0, out_B]
    refine (Cert.BodySide.pay1_eq _ _ _ _ l).trans ?_
    have e' := outsAt_congr m c (show (pt b (q + 1) hq).val - 1 = (pt b q (Nat.lt_of_succ_lt hq)).val from by
      show 4 * b.val + (q + 1) - 1 = 4 * b.val + q; omega) (Nat.lt_of_le_of_lt (Nat.sub_le _ _) (pt b (q + 1) hq).isLt) (pt b q (Nat.lt_of_succ_lt hq)).isLt
    rw [e', outsAt_eq c b q (Nat.lt_of_succ_lt hq) l]
    rfl

/-- The result array after the launch: row `b` holds the running sum after the last query block of batch row `b`. -/
def Gv (c : Dev nD) : FVec Ideal S4x1x128 .f32 :=
  fun i => accq m c (i 0) 3 (by decide) (i 2)
/-- The same, as contents of the result array's buffer. -/
abbrev G (c : Dev nD) : Buf (Elt Ideal) ((c : Thread nD τ).loc main_v65) := Gv m c

/-- The output window's block index at a point: the batch row, then zeros. -/
theorem idx3 : ∀ t : Fin cfg0.N, win0_3.index t 0 = t.val / 4 ∧ win0_3.index t 1 = 0 ∧ win0_3.index t 2 = 0 :=
  (by decide +kernel : ∀ t : Fin grid0.N, win0_3.index t 0 = t.val / 4 ∧ win0_3.index t 1 = 0 ∧ win0_3.index t 2 = 0)

/-- A write-back (after the last point of a batch row) writes that row of `G`. -/
theorem flushed_eq (c : Dev nD) (t : Fin cfg0.N) (hf : (cfg0.win 3).flush t = true) :
    (dats m 0 c).flushed 3 t = ((cfg0.win 3).blk t).view.read (Elt Ideal) (G m c) := by
  have hN : cfg0.N = 16 := N_0
  have ht : t.val < 16 := lt_of_lt_of_eq t.isLt hN
  have h3 : t.val % 4 = 3 := (flush0_3 t).mp hf
  show (cfg0.win 3).cut (grid0.coords t) ((dats m 0 c).after 3 t) = _
  rw [after0_3]
  funext y
  have hy0 : y 0 = (0 : Fin 1) := Fin.ext (by have h : (y 0).val < 1 := (y 0).isLt; show (y 0).val = 0; omega)
  have hy1 : y 1 = (0 : Fin 1) := Fin.ext (by have h : (y 1).val < 1 := (y 1).isLt; show (y 1).val = 0; omega)
  obtain ⟨l, rfl⟩ : ∃ l : Fin 128, y = ix3 (0 : Fin 1) (0 : Fin 1) l :=
    ⟨y 2, (eq_ix3 y).trans (by rw [hy0, hy1] <;> rfl)⟩
  rw [View.read_apply]
  show outsAt0 m c t.val t.isLt (ix3 (0 : Fin 1) (0 : Fin 1) l) = _
  have hb : t.val / 4 < 4 := by omega
  rw [outsAt_congr m c (show t.val = (pt ⟨t.val / 4, hb⟩ 3 (by decide)).val from by show t.val = 4 * (t.val / 4) + 3; omega) t.isLt (pt ⟨t.val / 4, hb⟩ 3 (by decide)).isLt,
    outsAt_eq m c ⟨t.val / 4, hb⟩ 3 (by decide) l]
  have e0 : ((((cfg0.win 3).blk t).view.emb (ix3 (0 : Fin 1) (0 : Fin 1) l)) 0) = (⟨t.val / 4, hb⟩ : Fin 4) := by
    apply Fin.ext
    show win0_3.index t 0 * 1 + 1 * 0 = t.val / 4
    rw [(idx3 t).1]; omega
  have e2 : ((((cfg0.win 3).blk t).view.emb (ix3 (0 : Fin 1) (0 : Fin 1) l)) 2) = l := by
    apply Fin.ext
    show win0_3.index t 2 * 128 + 1 * l.val = l.val
    rw [(idx3 t).2.2]; omega
  have hG : Gv m c (((cfg0.win 3).blk t).view.emb (ix3 (0 : Fin 1) (0 : Fin 1) l)) = accq m c ⟨t.val / 4, hb⟩ 3 (by decide) l := by
    unfold Gv; rw [e0, e2]
  show _ = Gv m c (((cfg0.win 3).blk t).view.emb (ix3 (0 : Fin 1) (0 : Fin 1) l))
  exact hG.symm

/-- The output window is not clipped: its blocks have the full extents at every point. -/
theorem xs3 : ∀ t : Fin cfg0.N, win0_3.xsize (grid0.coords t) 0 = 1 ∧ win0_3.xsize (grid0.coords t) 1 = 1 ∧ win0_3.xsize (grid0.coords t) 2 = 128 :=
  (by decide +kernel : ∀ t : Fin grid0.N, win0_3.xsize (grid0.coords t) 0 = 1 ∧ win0_3.xsize (grid0.coords t) 1 = 1 ∧ win0_3.xsize (grid0.coords t) 2 = 128)

/-- So the result array ends holding `G`: row b lies in the block written back after point 4b + 3. -/
theorem final (c : Dev nD) : (dats m 0 c).arrAt 3 cfg0.N = G m c :=
  (dats m 0 c).arrAt_eq_of_cover 3 (G m c) (flushed_eq m c) fun i => by
    have hN : cfg0.N = 16 := N_0
    have hi0 : (i 0 : Nat) < 4 := (i 0).isLt
    have hi1 : (i 1 : Nat) < 1 := (i 1).isLt
    have hi2 : (i 2 : Nat) < 128 := (i 2).isLt
    have ht : 4 * (i 0 : Nat) + 3 < cfg0.N := by rw [hN]; omega
    refine ⟨⟨4 * (i 0 : Nat) + 3, ht⟩, (flush0_3 _).mpr (by show (4 * (i 0 : Nat) + 3) % 4 = 3; omega), ?_⟩
    show i ∈ ((View.whole main_v65).slice (win0_3.rect ⟨4 * (i 0 : Nat) + 3, ht⟩)).set
    rw [View.set_slice_whole, Rect.mem_set_unit]
    intro a
    obtain ⟨e0, e1, e2⟩ := idx3 ⟨4 * (i 0 : Nat) + 3, ht⟩
    obtain ⟨x0, x1, x2⟩ := xs3 ⟨4 * (i 0 : Nat) + 3, ht⟩
    match a with
    | ⟨0, _⟩ =>
      show win0_3.index ⟨4 * (i 0 : Nat) + 3, ht⟩ 0 * 1 ≤ (i 0 : Nat) ∧ (i 0 : Nat) < win0_3.index ⟨4 * (i 0 : Nat) + 3, ht⟩ 0 * 1 + win0_3.xsize (grid0.coords ⟨4 * (i 0 : Nat) + 3, ht⟩) 0
      rw [e0, x0]; show (4 * (i 0 : Nat) + 3) / 4 * 1 ≤ (i 0 : Nat) ∧ (i 0 : Nat) < (4 * (i 0 : Nat) + 3) / 4 * 1 + 1; omega
    | ⟨1, _⟩ =>
      show win0_3.index ⟨4 * (i 0 : Nat) + 3, ht⟩ 1 * 1 ≤ (i 1 : Nat) ∧ (i 1 : Nat) < win0_3.index ⟨4 * (i 0 : Nat) + 3, ht⟩ 1 * 1 + win0_3.xsize (grid0.coords ⟨4 * (i 0 : Nat) + 3, ht⟩) 1
      rw [e1, x1]; omega
    | ⟨2, _⟩ =>
      show win0_3.index ⟨4 * (i 0 : Nat) + 3, ht⟩ 2 * 128 ≤ (i 2 : Nat) ∧ (i 2 : Nat) < win0_3.index ⟨4 * (i 0 : Nat) + 3, ht⟩ 2 * 128 + win0_3.xsize (grid0.coords ⟨4 * (i 0 : Nat) + 3, ht⟩) 2
      rw [e2, x2]; omega

end Cert.KernelIdeal.Val

end
-- ==== Proof.KiTail.lean ====
/-
  What the host operations after the launch compute: from the kernel's result array (one row of 128 lanes per batch
  row, lanes 0 to 3 holding the row's two sums and two counts) they keep lanes 0 to 3, add the four batch rows lane
  by lane, divide the two sums by the two counts, add the quotients, and add the lane part computed before the launch.
-/
import proofs.«134923_j35673998361268_2_alg».proof.Proof.FrKi
import Idealize.ShloMosaic.Lib.Pipeline.Value
import Idealize.ShloMosaic.Lib.StableHlo.Run
import Idealize.ShloMosaic.Lib.ValueIdx
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Tail

open Cert.KernelIdeal Cert.KernelIdeal.Gen Cert.KernelIdeal.Fr

section AnyValues

variable {F : FTy → Type} [FloatOps F]
variable (m : (ℓ : Loc nD τ sig) → Buf (Elt F) ℓ)

/-- Lanes 0 to 3 of the result array, the four batch rows added lane by lane (from zero). -/
def totals (o : (⟨S4x1x128, .f32⟩ : BufTy).Contents (Elt F)) : (⟨S4, .f32⟩ : BufTy).Contents (Elt F) :=
  Host.reduceAdd (fun i => shapeCast S4x4 (extractStridedSlice S4x1x4 ![0, 0, 0] o slices_S4x1x128_S4x1x4_0_0_0) shapeCasts_S4x1x4_S4x4 i)
    (constant S_ .f32 0#32) reducesTo_S4x4_S4_d0 h_S_

/-- The program's result from the result array `o` and the three lane scalars. -/
def tailTerm (o : (⟨S4x1x128, .f32⟩ : BufTy).Contents (Elt F)) (a b d : (⟨S_, .f32⟩ : BufTy).Contents (Elt F)) :
    (⟨S_, .f32⟩ : BufTy).Contents (Elt F) :=
  addf (addf (addf a b) d)
    (addf
      (Host.divf (fun i => shapeCast S_ (extractStridedSlice S1 ![0] (totals o) slices_S4_S1_0) shapeCasts_S1_S_ i)
        (fun i => shapeCast S_ (extractStridedSlice S1 ![2] (totals o) slices_S4_S1_2) shapeCasts_S1_S_ i))
      (Host.divf (fun i => shapeCast S_ (extractStridedSlice S1 ![1] (totals o) slices_S4_S1_1) shapeCasts_S1_S_ i)
        (fun i => shapeCast S_ (extractStridedSlice S1 ![3] (totals o) slices_S4_S1_3) shapeCasts_S1_S_ i)))

set_option maxHeartbeats 4000000 in
/-- After the later host operations the result buffer holds that function of the array the launch left and of the lane
    scalars the earlier host operations left. -/
theorem tail_eq (c : Dev nD) :
    Pipeline.afterTail₀ cfgs (dats m) 0 (V0 m) [hostOps1] c main_v82
      = tailTerm ((dats m 0 c).arrAt 3 cfg0.N) (V m c main_v15) (V m c main_v18) (V m c main_v34) := by
  unfold Pipeline.afterTail₀
  simp only [List.flatten_cons, List.flatten_nil, List.append_nil]
  have h65 : Pipeline.withArrays (cfgs 0).spec c (V0 m c) (fun w => (dats m 0 c).arrAt w (cfgs 0).N) (Proc.devRef .tc main_v65)
      = (dats m 0 c).arrAt 3 cfg0.N := Pipeline.withArrays_arr spec0 launch0.win.arr_inj c _ _ 3
  have h15 : Pipeline.withArrays (cfgs 0).spec c (V0 m c) (fun w => (dats m 0 c).arrAt w (cfgs 0).N) (Proc.devRef .tc main_v15)
      = V m c main_v15 := Pipeline.withArrays_of_ne _ c (V0 m c) _ main_v15 (by exact (by decide : ∀ w, Pipeline.arrRef spec0 w ≠ main_v15))
  have h18 : Pipeline.withArrays (cfgs 0).spec c (V0 m c) (fun w => (dats m 0 c).arrAt w (cfgs 0).N) (Proc.devRef .tc main_v18)
      = V m c main_v18 := Pipeline.withArrays_of_ne _ c (V0 m c) _ main_v18 (by exact (by decide : ∀ w, Pipeline.arrRef spec0 w ≠ main_v18))
  have h34 : Pipeline.withArrays (cfgs 0).spec c (V0 m c) (fun w => (dats m 0 c).arrAt w (cfgs 0).N) (Proc.devRef .tc main_v34)
      = V m c main_v34 := Pipeline.withArrays_of_ne _ c (V0 m c) _ main_v34 (by exact (by decide : ∀ w, Pipeline.arrRef spec0 w ≠ main_v34))
  generalize Pipeline.withArrays (cfgs 0).spec c (V0 m c) _ = W at h65 h15 h18 h34 ⊢
  after_results_simp
  rw [h65, h15, h18, h34]
  rfl

end AnyValues

end Cert.KernelIdeal.Tail

end
-- ==== Proof.KiRun.lean ====
/-
  The kernel program's run with its result named: every weakly fair execution terminates with the result buffer at
  what the later host operations compute from the array the launch left, and the five argument arrays unchanged.
-/
import proofs.«134923_j35673998361268_2_alg».proof.Proof.KiTail

set_option maxRecDepth 16384

noncomputable section

open Idealize.ShloMosaic Idealize.ShloMosaic.TcCoe Idealize.SL.Sem
open Idealize.ShloMosaic.Pipeline (Dat)

namespace Cert.KernelIdeal.Tail

open Cert.KernelIdeal Cert.KernelIdeal.Gen Cert.KernelIdeal.Fr

variable {F : FTy → Type} [FloatOps F]
variable (m : (ℓ : Loc nD τ sig) → Buf (Elt F) ℓ) (ρ : Dev nD → PrngReg)

/-- The program's result on core `c`. -/
def kres (c : Dev nD) : Buf (Elt F) ((c.tc : Thread nD τ).loc main_v82) :=
  Pipeline.afterTail₀ cfgs (dats m) 0 (V0 m) [hostOps1] c main_v82

theorem run : θ_run defs (onTc (τ := τ) (main (F := F))) ⟨m, fun _ => 0, ρ⟩ (fun r => ∀ c : Dev nD,
      r.2.mem ((c.tc : Thread nD τ).loc main_v82) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
    (h c).2 main_v82 (Pipeline.mem_restRefs_of main_v82 (by decide) (by decide)),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).1 2).trans ((((dats m) 0 c).arrAt_in 2 rfl _).trans ((A_eq m c 2).trans (V_main_arg4 m c)))⟩) (run_main m ρ)

end Cert.KernelIdeal.Tail

end
-- ==== Proof.KiTailRead.lean ====
/-
  The host operations after the launch, read at an index. Lane j of the totals is the sum, from zero, over the four batch
  rows of lane j of the result array (its first four lanes kept, the unit axis dropped, the batch axis summed). The
  program's result is the lane part plus the two quotients: total 0 over total 2, and total 1 over total 3.
-/
import proofs.«134923_j35673998361268_2_alg».proof.Proof.KiTail

noncomputable section

open scoped BigOperators

namespace Cert.KernelIdeal.Tail

open Cert.KernelIdeal Cert.KernelIdeal.Gen Idealize.ShloMosaic Idealize.ShloMosaic.ValueIdx

/-- Lane `j` of the totals: zero plus the sum over the batch rows of lane `j` of the result array. -/
theorem totals_lane (o : (⟨S4x1x128, .f32⟩ : BufTy).Contents (Elt Ideal)) (j : Nat) (hj : j < 4) :
    totals (F := Ideal) o (ix1 (⟨j, hj⟩ : Fin 4))
      = 0 + ∑ b : Fin 4, o (ix3 b (0 : Fin 1) (⟨j, by omega⟩ : Fin 128)) := by
  unfold totals
  simp only [Host.reduceAdd, Ideal.hostReduceAdd_def]
  rw [Ideal.hostReduceAdd_single reducesTo_S4x4_S4_d0 (by decide)]
  have h0 : constant (F := Ideal) S_ .f32 0#32 (Shape.Idx.first h_S_) = 0 := Ideal.ofBits_zero_f32
  rw [h0]
  refine congrArg (0 + ·) (Finset.sum_congr rfl fun k _ => ?_)
  refine (shapeCast_apply _ shapeCasts_S4x1x4_S4x4 _ (ix3 k (0 : Fin 1) (⟨j, hj⟩ : Fin 4)) (by
    rw [Shape.rowMajor_val_three, Shape.rowMajor_val_two]
    show (k.val * 1 + 0) * 4 + j = k.val * 4 + j
    omega)).trans ?_
  exact extractStridedSlice_apply ![0, 0, 0] o slices_S4x1x128_S4x1x4_0_0_0 _
    (ix3 k (0 : Fin 1) (⟨j, by omega⟩ : Fin 128)) (fun a => match a with
      | ⟨0, _⟩ => by show k.val = 0 + k.val; omega
      | ⟨1, _⟩ => by show 0 = 0 + 0; rfl
      | ⟨2, _⟩ => by show j = 0 + j; omega)

/-- The same at a lane given as an element of `Fin 4`. -/
theorem totals_apply (o : (⟨S4x1x128, .f32⟩ : BufTy).Contents (Elt Ideal)) (j : Fin 4) :
    totals (F := Ideal) o (ix1 j)
      = 0 + ∑ b : Fin 4, o (ix3 b (0 : Fin 1) (⟨j.val, by have := j.isLt; omega⟩ : Fin 128)) :=
  totals_lane o j.val j.isLt

/-- One lane of a four-lane vector, sliced out and reshaped to a scalar, is that lane. -/
theorem pick_apply (x : (⟨S4, .f32⟩ : BufTy).Contents (Elt Ideal)) (k : Nat) (hk : k < 4) (h : S4.Slices ![k] S1)
    (i : S_.Idx) :
    shapeCast S_ (extractStridedSlice S1 ![k] x h) shapeCasts_S1_S_ i = x (ix1 (⟨k, hk⟩ : Fin 4)) := by
  have h1 : (S_.rowMajor i).val = 0 := by
    have h2 := (S_.rowMajor i).isLt
    have h3 : S_.numel = 1 := by decide
    omega
  refine (shapeCast_apply _ shapeCasts_S1_S_ i (ix1 (0 : Fin 1)) (by
    rw [Shape.rowMajor_val_one, h1]; rfl)).trans ?_
  exact extractStridedSlice_apply ![k] x h _ (ix1 (⟨k, hk⟩ : Fin 4)) (fun a => match a with
    | ⟨0, _⟩ => by show k = k + 0; omega)

/-- The program's result: the lane part plus the two quotients of the totals. -/
theorem tailTerm_apply (o : (⟨S4x1x128, .f32⟩ : BufTy).Contents (Elt Ideal))
    (a b d : (⟨S_, .f32⟩ : BufTy).Contents (Elt Ideal)) (i : S_.Idx) :
    tailTerm (F := Ideal) o a b d i
      = ((a i + b i) + d i)
        + (Ideal.div (0 + ∑ b : Fin 4, o (ix3 b (0 : Fin 1) (⟨0, by decide⟩ : Fin 128)))
              (0 + ∑ b : Fin 4, o (ix3 b (0 : Fin 1) (⟨2, by decide⟩ : Fin 128)))
          + Ideal.div (0 + ∑ b : Fin 4, o (ix3 b (0 : Fin 1) (⟨1, by decide⟩ : Fin 128)))
              (0 + ∑ b : Fin 4, o (ix3 b (0 : Fin 1) (⟨3, by decide⟩ : Fin 128)))) := by
  have e : tailTerm (F := Ideal) o a b d i
      = ((a i + b i) + d i)
        + (Ideal.div (shapeCast S_ (extractStridedSlice S1 ![0] (totals (F := Ideal) o) slices_S4_S1_0) shapeCasts_S1_S_ i)
              (shapeCast S_ (extractStridedSlice S1 ![2] (totals (F := Ideal) o) slices_S4_S1_2) shapeCasts_S1_S_ i)
          + Ideal.div (shapeCast S_ (extractStridedSlice S1 ![1] (totals (F := Ideal) o) slices_S4_S1_1) shapeCasts_S1_S_ i)
              (shapeCast S_ (extractStridedSlice S1 ![3] (totals (F := Ideal) o) slices_S4_S1_3) shapeCasts_S1_S_ i)) := rfl
  rw [e, pick_apply _ 0 (by decide), pick_apply _ 2 (by decide), pick_apply _ 1 (by decide), pick_apply _ 3 (by decide),
    totals_lane, totals_lane, totals_lane, totals_lane]

end Cert.KernelIdeal.Tail

end
-- ==== Proof.KiRows.lean ====
/-
  The kernel's tiling of the 2048 points into four blocks of 512, and of its sixteen grid points into four batch rows of
  four blocks: point n = 512·q + r is row r of block q, grid point t = 4·b + q is block q of batch row b. A sum over the
  points is the sum over the blocks of the sums over their rows; a sum over the grid is the sum over the batch rows of
  the sums over their blocks.
-/
import Idealize.ShloMosaic.Lib.ValueIdx

noncomputable section

open scoped BigOperators

namespace Cert.Regroup

/-- Row `r` of block `q` is point `512·q + r`. -/
def row (q : Fin 4) (r : Fin 512) : Fin 2048 := ⟨512 * q.val + r.val, by have := q.isLt; have := r.isLt; omega⟩

@[simp] theorem row_val (q : Fin 4) (r : Fin 512) : (row q r).val = 512 * q.val + r.val := rfl

/-- The points are the rows of the four blocks. -/
def rowEquiv : Fin 4 × Fin 512 ≃ Fin 2048 where
  toFun p := row p.1 p.2
  invFun n := (⟨n.val / 512, by have := n.isLt; omega⟩, ⟨n.val % 512, Nat.mod_lt _ (by decide)⟩)
  left_inv p := by
    have h1 := p.1.isLt
    have h2 := p.2.isLt
    refine Prod.ext (Fin.ext ?_) (Fin.ext ?_)
    · show (512 * p.1.val + p.2.val) / 512 = p.1.val
      omega
    · show (512 * p.1.val + p.2.val) % 512 = p.2.val
      omega
  right_inv n := Fin.ext (by
    show 512 * (n.val / 512) + n.val % 512 = n.val
    omega)

/-- A sum over the points is the sum over the blocks of the sums over their rows. -/
theorem sum_rows {M : Type*} [AddCommMonoid M] (f : Fin 2048 → M) :
    ∑ n, f n = ∑ q : Fin 4, ∑ r : Fin 512, f (row q r) := by
  rw [← Equiv.sum_comp rowEquiv f, Fintype.sum_prod_type]
  rfl

/-- Block `q` of batch row `b` is grid point `4·b + q`. -/
def gridEquiv : Fin 4 × Fin 4 ≃ Fin 16 where
  toFun p := ⟨4 * p.1.val + p.2.val, by have := p.1.isLt; have := p.2.isLt; omega⟩
  invFun t := (⟨t.val / 4, by have := t.isLt; omega⟩, ⟨t.val % 4, Nat.mod_lt _ (by decide)⟩)
  left_inv p := by
    have h1 := p.1.isLt
    have h2 := p.2.isLt
    refine Prod.ext (Fin.ext ?_) (Fin.ext ?_)
    · show (4 * p.1.val + p.2.val) / 4 = p.1.val
      omega
    · show (4 * p.1.val + p.2.val) % 4 = p.2.val
      omega
  right_inv t := Fin.ext (by
    show 4 * (t.val / 4) + t.val % 4 = t.val
    omega)

/-- A sum over the grid is the sum over the batch rows of the sums over their blocks. -/
theorem sum_grid {M : Type*} [AddCommMonoid M] (f : Fin 16 → M) :
    ∑ t, f t = ∑ b : Fin 4, ∑ q : Fin 4,
      f ⟨4 * b.val + q.val, by have := b.isLt; have := q.isLt; omega⟩ := by
  rw [← Equiv.sum_comp gridEquiv f, Fintype.sum_prod_type]
  rfl

end Cert.Regroup

end
-- ==== Proof.KiBlocks.lean ====
/-
  The kernel's input blocks read at an index. Grid point t = 4·b + q stages, of the query operand [4, 2048, 20], the block
  of batch row b and rows 512·q … 512·q + 511; of the key operand [4, 2048, 20], all of batch row b; of the label matrix
  [4, 1, 2048, 2048], batch row b, rows 512·q … 512·q + 511, every column. A block's element at a coordinate is the
  array's at (block index) · (block size) + (the coordinate), axis by axis.
-/
import proofs.«134923_j35673998361268_2_alg».proof.Proof.FrKi
import proofs.«134923_j35673998361268_2_alg».proof.Proof.KiRows
import Idealize.ShloMosaic.Lib.Pipeline.Value
import Idealize.ShloMosaic.Lib.ValueIdx

noncomputable section

namespace Cert.KernelIdeal.Blk

open Cert.KernelIdeal Cert.KernelIdeal.Gen Cert.KernelIdeal.Fr Cert.Regroup
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The grid has sixteen points. -/
theorem t_lt (t : Fin cfg0.N) : t.val < 16 := lt_of_lt_of_eq t.isLt (show cfg0.N = 16 from N_0)

/-- Window 0's block index at point t: (t / 4, t % 4, 0). -/
theorem index0 : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)

/-- Window 1's block index at point t: (t / 4, 0, 0). -/
theorem index1 : ∀ t : Fin cfg0.N, win0_1.index t 0 = t.val / 4 ∧ win0_1.index t 1 = 0 ∧ win0_1.index t 2 = 0 :=
  (by decide +kernel : ∀ t : Fin grid0.N, win0_1.index t 0 = t.val / 4 ∧ win0_1.index t 1 = 0 ∧ win0_1.index t 2 = 0)

/-- Window 2's block index at point t: (t / 4, 0, t % 4, 0). -/
theorem index2 : ∀ t : Fin cfg0.N, win0_2.index t 0 = t.val / 4 ∧ win0_2.index t 1 = 0 ∧ win0_2.index t 2 = t.val % 4
      ∧ win0_2.index t 3 = 0 :=
  (by decide +kernel : ∀ t : Fin grid0.N, win0_2.index t 0 = t.val / 4 ∧ win0_2.index t 1 = 0
      ∧ win0_2.index t 2 = t.val % 4 ∧ win0_2.index t 3 = 0)

/-- The query block at point t, row r, column j: the query operand at batch row t / 4, row 512·(t % 4) + r. -/
theorem iblk0_apply (c : Dev nD) (t : Fin cfg0.N) (r : Fin 512) (j : Fin 20) :
    (iblk m c 0 t : Vec F S1x512x20 .f32) (ix3 (0 : Fin 1) r j)
      = V m c main_v47 (ix3 (⟨t.val / 4, by have := t_lt t; omega⟩ : Fin 4)
          (⟨512 * (t.val % 4) + r.val, by have := r.isLt; omega⟩ : Fin 2048) j) := by
  have hi := index0 t
  unfold iblk
  rw [View.read_apply]
  show V m c main_v47 _ = V m c main_v47 _
  refine congrArg (V m c main_v47) (funext fun a => Fin.ext ?_)
  match a with
  | ⟨0, _⟩ => show win0_0.index t 0 * 1 + 1 * 0 = t.val / 4; rw [hi.1]; omega
  | ⟨1, _⟩ => show win0_0.index t 1 * 512 + 1 * r.val = 512 * (t.val % 4) + r.val; rw [hi.2.1]; omega
  | ⟨2, _⟩ => show win0_0.index t 2 * 20 + 1 * j.val = j.val; rw [hi.2.2]; omega

/-- The key block at point t, row mm, column j: the key operand at batch row t / 4, row mm. -/
theorem iblk1_apply (c : Dev nD) (t : Fin cfg0.N) (mm : Fin 2048) (j : Fin 20) :
    (iblk m c 1 t : Vec F S1x2048x20 .f32) (ix3 (0 : Fin 1) mm j)
      = V m c main_v64 (ix3 (⟨t.val / 4, by have := t_lt t; omega⟩ : Fin 4) mm j) := by
  have hi := index1 t
  unfold iblk
  rw [View.read_apply]
  show V m c main_v64 _ = V m c main_v64 _
  refine congrArg (V m c main_v64) (funext fun a => Fin.ext ?_)
  match a with
  | ⟨0, _⟩ => show win0_1.index t 0 * 1 + 1 * 0 = t.val / 4; rw [hi.1]; omega
  | ⟨1, _⟩ => show win0_1.index t 1 * 2048 + 1 * mm.val = mm.val; rw [hi.2.1]; omega
  | ⟨2, _⟩ => show win0_1.index t 2 * 20 + 1 * j.val = j.val; rw [hi.2.2]; omega

/-- The label block at point t, row r, column mm: the label matrix at batch row t / 4, row 512·(t % 4) + r, column mm. -/
theorem iblk2_apply (c : Dev nD) (t : Fin cfg0.N) (r : Fin 512) (mm : Fin 2048) :
    (iblk m c 2 t : Vec F S1x1x512x2048 .i32) (ix4 (0 : Fin 1) (0 : Fin 1) r mm)
      = V m c main_arg4 (ix4 (⟨t.val / 4, by have := t_lt t; omega⟩ : Fin 4) (0 : Fin 1)
          (⟨512 * (t.val % 4) + r.val, by have := r.isLt; omega⟩ : Fin 2048) mm) := by
  have hi := index2 t
  unfold iblk
  rw [View.read_apply]
  show V m c main_arg4 _ = V m c main_arg4 _
  refine congrArg (V m c main_arg4) (funext fun a => Fin.ext ?_)
  match a with
  | ⟨0, _⟩ => show win0_2.index t 0 * 1 + 1 * 0 = t.val / 4; rw [hi.1]; omega
  | ⟨1, _⟩ => show win0_2.index t 1 * 1 + 1 * 0 = 0; rw [hi.2.1]
  | ⟨2, _⟩ => show win0_2.index t 2 * 512 + 1 * r.val = 512 * (t.val % 4) + r.val; rw [hi.2.2.1]; omega
  | ⟨3, _⟩ => show win0_2.index t 3 * 2048 + 1 * mm.val = mm.val; rw [hi.2.2.2]; omega

/-- Block q of batch row b is grid point 4·b + q. -/
def pt (b q : Fin 4) : Fin cfg0.N :=
  ⟨4 * b.val + q.val, by rw [show cfg0.N = 16 from N_0]; have := b.isLt; have := q.isLt; omega⟩

theorem pt_val (b q : Fin 4) : (pt b q).val = 4 * b.val + q.val := rfl

/-- The query block of (b, q): rows 512·q … of batch row b. -/
theorem iblk0_pt (c : Dev nD) (b q : Fin 4) (r : Fin 512) (j : Fin 20) :
    (iblk m c 0 (pt b q) : Vec F S1x512x20 .f32) (ix3 (0 : Fin 1) r j) = V m c main_v47 (ix3 b (row q r) j) := by
  rw [iblk0_apply]
  have hb := b.isLt
  have hq := q.isLt
  refine congrArg (V m c main_v47) (funext fun a => Fin.ext ?_)
  match a with
  | ⟨0, _⟩ => show (4 * b.val + q.val) / 4 = b.val; omega
  | ⟨1, _⟩ => show 512 * ((4 * b.val + q.val) % 4) + r.val = 512 * q.val + r.val; omega
  | ⟨2, _⟩ => rfl

/-- The key block of (b, q): batch row b. -/
theorem iblk1_pt (c : Dev nD) (b q : Fin 4) (mm : Fin 2048) (j : Fin 20) :
    (iblk m c 1 (pt b q) : Vec F S1x2048x20 .f32) (ix3 (0 : Fin 1) mm j) = V m c main_v64 (ix3 b mm j) := by
  rw [iblk1_apply]
  have hb := b.isLt
  have hq := q.isLt
  refine congrArg (V m c main_v64) (funext fun a => Fin.ext ?_)
  match a with
  | ⟨0, _⟩ => show (4 * b.val + q.val) / 4 = b.val; omega
  | ⟨1, _⟩ => rfl
  | ⟨2, _⟩ => rfl

/-- The label block of (b, q): rows 512·q … of batch row b. -/
theorem iblk2_pt (c : Dev nD) (b q : Fin 4) (r : Fin 512) (mm : Fin 2048) :
    (iblk m c 2 (pt b q) : Vec F S1x1x512x2048 .i32) (ix4 (0 : Fin 1) (0 : Fin 1) r mm)
      = V m c main_arg4 (ix4 b (0 : Fin 1) (row q r) mm) := by
  rw [iblk2_apply]
  have hb := b.isLt
  have hq := q.isLt
  refine congrArg (V m c main_arg4) (funext fun a => Fin.ext ?_)
  match a with
  | ⟨0, _⟩ => show (4 * b.val + q.val) / 4 = b.val; omega
  | ⟨1, _⟩ => rfl
  | ⟨2, _⟩ => show 512 * ((4 * b.val + q.val) % 4) + r.val = 512 * q.val + r.val; omega
  | ⟨3, _⟩ => rfl

end Cert.KernelIdeal.Blk

end
-- ==== Proof.Spec.lean ====
/-
  The instance part of the loss as one function of the feature map and the instance matrix, on the extended reals.

  `f b c n` is channel `c` of point `n` in batch `b` (the feature map with its two spatial axes flattened, n = 64·y + x);
  `g b n m` is the label of the pair (n, m): 1 = same lane, 2 = different lanes, anything else ignored.
  For a pair the "distance" is the square root of the sum over the four channels of the FOURTH power of the difference,
  taken as 0 when that sum is not positive. The loss adds the mean distance over the pairs labelled 1 to the mean of
  max (1 - distance) 0 over the pairs labelled 2; each mean is a sum divided by a count, the count being the number of
  such pairs (a sum of ones).
-/
import Idealize.ShloMosaic.PureOps.Ideal

noncomputable section

namespace Cert.Spec

open Idealize.ShloMosaic

/-- Sum over the four channels of the fourth power of the difference of two points' features, the fourth power written as
    the square of the square. -/
def quart (f : Fin 4 → Fin 4 → Fin 2048 → EReal) (b : Fin 4) (n m : Fin 2048) : EReal :=
  ∑ c : Fin 4, ((f b c n - f b c m) * (f b c n - f b c m)) * ((f b c n - f b c m) * (f b c n - f b c m))

/-- The pair's distance: the square root of `quart` where that is positive, else 0. -/
def dist (f : Fin 4 → Fin 4 → Fin 2048 → EReal) (b : Fin 4) (n m : Fin 2048) : EReal :=
  if 0 < quart f b n m then Ideal.sqrt (quart f b n m) else 0

/-- Sum of the distances of the pairs labelled 1. -/
def sisc (f : Fin 4 → Fin 4 → Fin 2048 → EReal) (g : Fin 4 → Fin 2048 → Fin 2048 → BitVec 32) : EReal :=
  ∑ b : Fin 4, ∑ n : Fin 2048, ∑ m : Fin 2048, if g b n m = 1#32 then dist f b n m else 0

/-- Sum of max (1 - distance) 0 over the pairs labelled 2. -/
def disc (f : Fin 4 → Fin 4 → Fin 2048 → EReal) (g : Fin 4 → Fin 2048 → Fin 2048 → BitVec 32) : EReal :=
  ∑ b : Fin 4, ∑ n : Fin 2048, ∑ m : Fin 2048, if g b n m = 2#32 then max (1 - dist f b n m) 0 else 0

/-- The number of pairs labelled `k`, as a sum of ones. -/
def cnt (g : Fin 4 → Fin 2048 → Fin 2048 → BitVec 32) (k : BitVec 32) : EReal :=
  ∑ b : Fin 4, ∑ n : Fin 2048, ∑ m : Fin 2048, if g b n m = k then (1 : EReal) else 0

/-- The instance part of the loss. -/
def inst (f : Fin 4 → Fin 4 → Fin 2048 → EReal) (g : Fin 4 → Fin 2048 → Fin 2048 → BitVec 32) : EReal :=
  Ideal.div (sisc f g) (cnt g 1#32) + Ideal.div (disc f g) (cnt g 2#32)

end Cert.Spec

end
-- ==== Proof.KiRegroup.lean ====
/-
  The grid's partial sums regrouped. Each grid point (batch row b, block q) holds 512 query rows — the points
  512·q + r of batch row b —, all 2048 key rows of b, and the labels of those pairs. If a pair's value, the square root of
  the inner product clamped at zero, is a function D b n m of the pair, then summing a point's selected values over its
  512 x 2048 pairs and then over the four blocks of a batch row and the four batch rows is summing over all pairs
  (b, n, m): the blocks' rows are the points. The same for the selected max (1 - value) 0 and for the counts. With D the
  specification's distance and the labels the specification's, the totals are the specification's four sums.
-/
import proofs.«134923_j35673998361268_2_alg».proof.Proof.BodyPay
import proofs.«134923_j35673998361268_2_alg».proof.Proof.Spec
import proofs.«134923_j35673998361268_2_alg».proof.Proof.KiRows

noncomputable section

open scoped BigOperators

namespace Cert.Regroup

open Idealize.ShloMosaic Idealize.ShloMosaic.ValueIdx Cert.KernelIdeal Cert.BodySide

variable (Qa Ka : (⟨3, ![4, 2048, 20]⟩ : Shape).Idx → EReal) (La : (⟨4, ![4, 1, 2048, 2048]⟩ : Shape).Idx → BitVec 32)
  (x0 : Fin 4 → Fin 4 → Vec Ideal S1x512x20 .f32) (x1 : Fin 4 → Fin 4 → Vec Ideal S1x2048x20 .f32)
  (x2 : Fin 4 → Fin 4 → Vec Ideal S1x1x512x2048 .i32) (D : Fin 4 → Fin 2048 → Fin 2048 → EReal)

/-- A block's pair value is the pair's distance. -/
theorem dT_eq (h0 : ∀ b q r j, x0 b q (ix3 (0 : Fin 1) r j) = Qa (ix3 b (row q r) j))
    (h1 : ∀ b q mm j, x1 b q (ix3 (0 : Fin 1) mm j) = Ka (ix3 b mm j))
    (hD : ∀ b n mm, Ideal.sqrt (max (∑ j : Fin 20, Qa (ix3 b n j) * Ka (ix3 b mm j)) 0) = D b n mm)
    (b q : Fin 4) (r : Fin 512) (mm : Fin 2048) : dT (x0 b q) (x1 b q) r mm = D b (row q r) mm := by
  unfold dT dot
  rw [← hD]
  refine congrArg (fun x => Ideal.sqrt (max x 0)) (Finset.sum_congr rfl fun j _ => ?_)
  rw [h0, h1]

/-- The selected values, summed over the grid, are summed over all pairs. -/
theorem sumSame_regroup (h0 : ∀ b q r j, x0 b q (ix3 (0 : Fin 1) r j) = Qa (ix3 b (row q r) j))
    (h1 : ∀ b q mm j, x1 b q (ix3 (0 : Fin 1) mm j) = Ka (ix3 b mm j))
    (h2 : ∀ b q r mm, x2 b q (ix4 (0 : Fin 1) (0 : Fin 1) r mm) = La (ix4 b (0 : Fin 1) (row q r) mm))
    (hD : ∀ b n mm, Ideal.sqrt (max (∑ j : Fin 20, Qa (ix3 b n j) * Ka (ix3 b mm j)) 0) = D b n mm) :
    ∑ b : Fin 4, ∑ q : Fin 4, sumSame (x0 b q) (x1 b q) (x2 b q)
      = ∑ b : Fin 4, ∑ n : Fin 2048, ∑ mm : Fin 2048, if La (ix4 b (0 : Fin 1) n mm) = 1#32 then D b n mm else 0 := by
  refine Finset.sum_congr rfl fun b _ => ?_
  rw [sum_rows fun n => ∑ mm : Fin 2048, if La (ix4 b (0 : Fin 1) n mm) = 1#32 then D b n mm else 0]
  refine Finset.sum_congr rfl fun q _ => ?_
  unfold sumSame
  refine Finset.sum_congr rfl fun r _ => Finset.sum_congr rfl fun mm _ => ?_
  rw [h2, dT_eq Qa Ka x0 x1 D h0 h1 hD]

/-- The selected max (1 - value) 0, summed over the grid, are summed over all pairs. -/
theorem sumDiff_regroup (h0 : ∀ b q r j, x0 b q (ix3 (0 : Fin 1) r j) = Qa (ix3 b (row q r) j))
    (h1 : ∀ b q mm j, x1 b q (ix3 (0 : Fin 1) mm j) = Ka (ix3 b mm j))
    (h2 : ∀ b q r mm, x2 b q (ix4 (0 : Fin 1) (0 : Fin 1) r mm) = La (ix4 b (0 : Fin 1) (row q r) mm))
    (hD : ∀ b n mm, Ideal.sqrt (max (∑ j : Fin 20, Qa (ix3 b n j) * Ka (ix3 b mm j)) 0) = D b n mm) :
    ∑ b : Fin 4, ∑ q : Fin 4, sumDiff (x0 b q) (x1 b q) (x2 b q)
      = ∑ b : Fin 4, ∑ n : Fin 2048, ∑ mm : Fin 2048,
          if La (ix4 b (0 : Fin 1) n mm) = 2#32 then max (1 - D b n mm) 0 else 0 := by
  refine Finset.sum_congr rfl fun b _ => ?_
  rw [sum_rows fun n => ∑ mm : Fin 2048, if La (ix4 b (0 : Fin 1) n mm) = 2#32 then max (1 - D b n mm) 0 else 0]
  refine Finset.sum_congr rfl fun q _ => ?_
  unfold sumDiff
  refine Finset.sum_congr rfl fun r _ => Finset.sum_congr rfl fun mm _ => ?_
  rw [h2, dT_eq Qa Ka x0 x1 D h0 h1 hD]

/-- The counts of a label, summed over the grid, count all pairs. -/
theorem cntLab_regroup (h2 : ∀ b q r mm, x2 b q (ix4 (0 : Fin 1) (0 : Fin 1) r mm) = La (ix4 b (0 : Fin 1) (row q r) mm))
    (k : BitVec 32) :
    ∑ b : Fin 4, ∑ q : Fin 4, cntLab (x2 b q) k
      = ∑ b : Fin 4, ∑ n : Fin 2048, ∑ mm : Fin 2048, if La (ix4 b (0 : Fin 1) n mm) = k then (1 : EReal) else 0 := by
  refine Finset.sum_congr rfl fun b _ => ?_
  rw [sum_rows fun n => ∑ mm : Fin 2048, if La (ix4 b (0 : Fin 1) n mm) = k then (1 : EReal) else 0]
  refine Finset.sum_congr rfl fun q _ => ?_
  unfold cntLab
  refine Finset.sum_congr rfl fun r _ => Finset.sum_congr rfl fun mm _ => ?_
  rw [h2]

/-! With the specification's distance and labels the totals are the specification's. -/

variable (f : Fin 4 → Fin 4 → Fin 2048 → EReal) (g : Fin 4 → Fin 2048 → Fin 2048 → BitVec 32)

theorem sumSame_spec (h0 : ∀ b q r j, x0 b q (ix3 (0 : Fin 1) r j) = Qa (ix3 b (row q r) j))
    (h1 : ∀ b q mm j, x1 b q (ix3 (0 : Fin 1) mm j) = Ka (ix3 b mm j))
    (h2 : ∀ b q r mm, x2 b q (ix4 (0 : Fin 1) (0 : Fin 1) r mm) = La (ix4 b (0 : Fin 1) (row q r) mm))
    (hD : ∀ b n mm, Ideal.sqrt (max (∑ j : Fin 20, Qa (ix3 b n j) * Ka (ix3 b mm j)) 0) = Cert.Spec.dist f b n mm)
    (hL : ∀ b n mm, La (ix4 b (0 : Fin 1) n mm) = g b n mm) :
    ∑ b : Fin 4, ∑ q : Fin 4, sumSame (x0 b q) (x1 b q) (x2 b q) = Cert.Spec.sisc f g := by
  rw [sumSame_regroup Qa Ka La x0 x1 x2 (Cert.Spec.dist f) h0 h1 h2 hD]
  unfold Cert.Spec.sisc
  refine Finset.sum_congr rfl fun b _ => Finset.sum_congr rfl fun n _ => Finset.sum_congr rfl fun mm _ => ?_
  rw [hL]

theorem sumDiff_spec (h0 : ∀ b q r j, x0 b q (ix3 (0 : Fin 1) r j) = Qa (ix3 b (row q r) j))
    (h1 : ∀ b q mm j, x1 b q (ix3 (0 : Fin 1) mm j) = Ka (ix3 b mm j))
    (h2 : ∀ b q r mm, x2 b q (ix4 (0 : Fin 1) (0 : Fin 1) r mm) = La (ix4 b (0 : Fin 1) (row q r) mm))
    (hD : ∀ b n mm, Ideal.sqrt (max (∑ j : Fin 20, Qa (ix3 b n j) * Ka (ix3 b mm j)) 0) = Cert.Spec.dist f b n mm)
    (hL : ∀ b n mm, La (ix4 b (0 : Fin 1) n mm) = g b n mm) :
    ∑ b : Fin 4, ∑ q : Fin 4, sumDiff (x0 b q) (x1 b q) (x2 b q) = Cert.Spec.disc f g := by
  rw [sumDiff_regroup Qa Ka La x0 x1 x2 (Cert.Spec.dist f) h0 h1 h2 hD]
  unfold Cert.Spec.disc
  refine Finset.sum_congr rfl fun b _ => Finset.sum_congr rfl fun n _ => Finset.sum_congr rfl fun mm _ => ?_
  rw [hL]

theorem cntLab_spec (h2 : ∀ b q r mm, x2 b q (ix4 (0 : Fin 1) (0 : Fin 1) r mm) = La (ix4 b (0 : Fin 1) (row q r) mm))
    (hL : ∀ b n mm, La (ix4 b (0 : Fin 1) n mm) = g b n mm) (k : BitVec 32) :
    ∑ b : Fin 4, ∑ q : Fin 4, cntLab (x2 b q) k = Cert.Spec.cnt g k := by
  rw [cntLab_regroup La x2 h2 k]
  unfold Cert.Spec.cnt
  refine Finset.sum_congr rfl fun b _ => Finset.sum_congr rfl fun n _ => Finset.sum_congr rfl fun mm _ => ?_
  rw [hL]

end Cert.Regroup

end
-- ==== Proof.Host.lean ====
/-
  The two operand arrays of the contraction, as the host part of the program builds them from the feature map, read at an
  index.

  The feature map f32[4,4,32,64] is flattened to [4,4,2048] (point n = 64·y + x). From it the program forms, elementwise, the
  powers x², x³ = x²·x, x⁴ = x²·x² and the products (-4)·x, 6·x², (-4)·x³, and an array of ones; it stacks five of them on a new
  axis (position p), moves the point axis in front of the channel axis, and merges channel c and position p into one axis
  of length 20 at 5c+p. `Qterm` stacks (x⁴, x³, x², x, 1), `Kterm` stacks (1, -4x, 6x², -4x³, x⁴). Read at (b, n, 5c+p) each is
  the p-th of its five expressions at the feature of channel c at point n of batch b.
-/
import proofs.«134923_j35673998361268_2_alg».proof.Proof.Gen.KernelIdeal
import Idealize.ShloMosaic.Lib.Pipeline.Value
import Idealize.ShloMosaic.Lib.ValueIdx
import Idealize.ShloMosaic.Lib.IdealHost

noncomputable section

namespace Cert.HostSide

open Idealize.ShloMosaic Idealize.ShloMosaic.ValueIdx
open Cert.KernelIdeal Cert.KernelIdeal.Gen

/-- The feature of channel `c` at point `n` (row `n / 64`, column `n % 64`) of batch `b`. -/
def feat (a2 : FVec Ideal S4x4x32x64 .f32) (b c : Fin 4) (n : Fin 2048) : EReal :=
  a2 (ix4 b c ⟨n.val / 64, by have := n.isLt; omega⟩ ⟨n.val % 64, Nat.mod_lt _ (by decide)⟩)

/-- The feature map with its two spatial axes flattened. -/
def flat (a2 : FVec Ideal S4x4x32x64 .f32) : FVec Ideal S4x4x2048 .f32 :=
  shapeCast S4x4x2048 a2 shapeCasts_S4x4x32x64_S4x4x2048

/-- An array of one constant at the flattened shape. -/
def splat (w : BitVec 32) : FVec Ideal S4x4x2048 .f32 :=
  broadcastInDim S4x4x2048 ![] bcast_S_S4x4x2048 (constant (F := Ideal) S_ .f32 w)

/-- Five arrays stacked on a new axis, the point axis moved in front of the channel axis, channel and position merged. -/
def stack (v0 v1 v2 v3 v4 : FVec Ideal S4x4x2048 .f32) : FVec Ideal S4x2048x20 .f32 :=
  shapeCast S4x2048x20
    (transpose S4x2048x4x5 [0, 3, 1, 2]
      (concatenate S4x4x5x2048 2
        [⟨S4x4x1x2048, broadcastInDim S4x4x1x2048 ![0, 1, 3] bcast_S4x4x2048_S4x4x1x2048_0_1_3 v0⟩,
         ⟨S4x4x1x2048, broadcastInDim S4x4x1x2048 ![0, 1, 3] bcast_S4x4x2048_S4x4x1x2048_0_1_3 v1⟩,
         ⟨S4x4x1x2048, broadcastInDim S4x4x1x2048 ![0, 1, 3] bcast_S4x4x2048_S4x4x1x2048_0_1_3 v2⟩,
         ⟨S4x4x1x2048, broadcastInDim S4x4x1x2048 ![0, 1, 3] bcast_S4x4x2048_S4x4x1x2048_0_1_3 v3⟩,
         ⟨S4x4x1x2048, broadcastInDim S4x4x1x2048 ![0, 1, 3] bcast_S4x4x2048_S4x4x1x2048_0_1_3 v4⟩]
        concatenates_S4x4x1x2048_S4x4x1x2048_S4x4x1x2048_S4x4x1x2048_S4x4x1x2048_S4x4x5x2048_d2)
      transposes_S4x4x5x2048_S4x2048x4x5_0_3_1_2)
    shapeCasts_S4x2048x4x5_S4x2048x20

/-- The left operand: the powers x⁴, x³, x², x and 1 of every feature. -/
def Qterm (a2 : FVec Ideal S4x4x32x64 .f32) : FVec Ideal S4x2048x20 .f32 :=
  stack (mulf (mulf (flat a2) (flat a2)) (mulf (flat a2) (flat a2))) (mulf (mulf (flat a2) (flat a2)) (flat a2))
    (mulf (flat a2) (flat a2)) (flat a2) (splat 0x3F800000#32)

/-- The right operand: 1, -4x, 6x², -4x³ and x⁴ of every feature. -/
def Kterm (a2 : FVec Ideal S4x4x32x64 .f32) : FVec Ideal S4x2048x20 .f32 :=
  stack (splat 0x3F800000#32) (mulf (splat 0xC0800000#32) (flat a2)) (mulf (splat 0x40C00000#32) (mulf (flat a2) (flat a2)))
    (mulf (splat 0xC0800000#32) (mulf (mulf (flat a2) (flat a2)) (flat a2))) (mulf (mulf (flat a2) (flat a2)) (mulf (flat a2) (flat a2)))

/-- The flattened feature map at (b, c, n) is the feature. -/
theorem flat_apply (a2 : FVec Ideal S4x4x32x64 .f32) (b c : Fin 4) (n : Fin 2048) : flat a2 (ix3 b c n) = feat a2 b c n := by
  have hn := n.isLt
  unfold flat feat
  refine shapeCast_apply _ _ _ _ ?_
  rw [Shape.rowMajor_val_four, Shape.rowMajor_val_three]
  show ((b.val * 4 + c.val) * 32 + n.val / 64) * 64 + n.val % 64 = (b.val * 4 + c.val) * 2048 + n.val
  omega

/-- A constant array reads its constant. -/
theorem splat_apply (w : BitVec 32) (j : S4x4x2048.Idx) : splat w j = Ideal.ofBits .f32 w := by
  unfold splat
  rw [broadcastInDim_scalar_apply]
  rfl

/-- Five arrays with a unit axis concatenated along it: position `p` reads the `p`-th array. -/
theorem concat5_apply (w : Fin 5 → FVec Ideal S4x4x1x2048 .f32) (b c : Fin 4) (p : Fin 5) (n : Fin 2048) :
    concatenate S4x4x5x2048 2
        [⟨S4x4x1x2048, w 0⟩, ⟨S4x4x1x2048, w 1⟩, ⟨S4x4x1x2048, w 2⟩, ⟨S4x4x1x2048, w 3⟩, ⟨S4x4x1x2048, w 4⟩]
        concatenates_S4x4x1x2048_S4x4x1x2048_S4x4x1x2048_S4x4x1x2048_S4x4x1x2048_S4x4x5x2048_d2 (ix4 b c p n)
      = w p (ix4 b c ⟨0, Nat.one_pos⟩ n) := by
  have hi : ∀ a : Fin S4x4x1x2048.rank, a.cast (rfl : S4x4x1x2048.rank = S4x4x5x2048.rank) ≠ (2 : Fin S4x4x5x2048.rank) →
      ((ix4 b c (⟨0, Nat.one_pos⟩ : Fin 1) n : S4x4x1x2048.Idx) a).val = ((ix4 b c p n : S4x4x5x2048.Idx) (a.cast rfl)).val :=
    fun a ha => match a, ha with
      | ⟨0, _⟩, _ => rfl
      | ⟨1, _⟩, _ => rfl
      | ⟨2, _⟩, ha => absurd rfl ha
      | ⟨3, _⟩, _ => rfl
  match p, hi with
  | ⟨0, hp⟩, hi =>
    refine concatenate_apply_piece 2 _ _ (ix4 b c ⟨0, hp⟩ n) 0 ?_ S4x4x1x2048 (w 0) ?_ rfl 0 ?_ (ix4 b c ⟨0, Nat.one_pos⟩ n) hi ?_
    · simp
    · rfl
    · rfl
    · rfl
  | ⟨1, hp⟩, hi =>
    refine concatenate_apply_piece 2 _ _ (ix4 b c ⟨1, hp⟩ n) 1 ?_ S4x4x1x2048 (w 1) ?_ rfl 1 ?_ (ix4 b c ⟨0, Nat.one_pos⟩ n) hi ?_
    · simp
    · rfl
    · rfl
    · rfl
  | ⟨2, hp⟩, hi =>
    refine concatenate_apply_piece 2 _ _ (ix4 b c ⟨2, hp⟩ n) 2 ?_ S4x4x1x2048 (w 2) ?_ rfl 2 ?_ (ix4 b c ⟨0, Nat.one_pos⟩ n) hi ?_
    · simp
    · rfl
    · rfl
    · rfl
  | ⟨3, hp⟩, hi =>
    refine concatenate_apply_piece 2 _ _ (ix4 b c ⟨3, hp⟩ n) 3 ?_ S4x4x1x2048 (w 3) ?_ rfl 3 ?_ (ix4 b c ⟨0, Nat.one_pos⟩ n) hi ?_
    · simp
    · rfl
    · rfl
    · rfl
  | ⟨4, hp⟩, hi =>
    refine concatenate_apply_piece 2 _ _ (ix4 b c ⟨4, hp⟩ n) 4 ?_ S4x4x1x2048 (w 4) ?_ rfl 4 ?_ (ix4 b c ⟨0, Nat.one_pos⟩ n) hi ?_
    · simp
    · rfl
    · rfl
    · rfl

/-- The stacked array at (b, n, 5c+p) is the `p`-th array at (b, c, n). -/
theorem stack_apply (v : Fin 5 → FVec Ideal S4x4x2048 .f32) (b : Fin 4) (n : Fin 2048) (c : Fin 4) (p : Fin 5) :
    stack (v 0) (v 1) (v 2) (v 3) (v 4) (ix3 b n ⟨5 * c.val + p.val, by have := c.isLt; have := p.isLt; omega⟩)
      = v p (ix3 b c n) := by
  have hb := b.isLt; have hn := n.isLt; have hc := c.isLt; have hp := p.isLt
  unfold stack
  -- channel and position merged: [4,2048,20] at (b, n, 5c+p) reads [4,2048,4,5] at (b, n, c, p)
  refine (shapeCast_apply _ _ _ (ix4 b n c p) (by
    rw [Shape.rowMajor_val_four, Shape.rowMajor_val_three]
    show ((b.val * 2048 + n.val) * 4 + c.val) * 5 + p.val = (b.val * 2048 + n.val) * 20 + (5 * c.val + p.val)
    omega)).trans ?_
  -- the transpose [0,3,1,2]: [4,2048,4,5] at (b, n, c, p) reads [4,4,5,2048] at (b, c, p, n)
  refine (transpose_apply _ _ _ _ (ix4 b c p n)
    (fun a => match a with | ⟨0, _⟩ => rfl | ⟨1, _⟩ => rfl | ⟨2, _⟩ => rfl | ⟨3, _⟩ => rfl)).trans ?_
  -- the concatenation along the new axis: position p is the p-th piece at (b, c, 0, n)
  refine (concat5_apply (fun i => broadcastInDim S4x4x1x2048 ![0, 1, 3] bcast_S4x4x2048_S4x4x1x2048_0_1_3 (v i)) b c p n).trans ?_
  -- the new unit axis: [4,4,1,2048] at (b, c, 0, n) reads [4,4,2048] at (b, c, n)
  exact broadcastInDim_apply _ _ _ _ (ix3 b c n)
    (fun a => match a with | ⟨0, _⟩ => rfl | ⟨1, _⟩ => rfl | ⟨2, _⟩ => rfl)

/-- The stacked array at position 5c: the first array. -/
theorem stack_apply0 (v0 v1 v2 v3 v4 : FVec Ideal S4x4x2048 .f32) (b : Fin 4) (n : Fin 2048) (c : Fin 4) :
    stack v0 v1 v2 v3 v4 (ix3 b n ⟨5 * c.val + 0, by have := c.isLt; omega⟩) = v0 (ix3 b c n) :=
  stack_apply ![v0, v1, v2, v3, v4] b n c 0
/-- The stacked array at position 5c+1: the second array. -/
theorem stack_apply1 (v0 v1 v2 v3 v4 : FVec Ideal S4x4x2048 .f32) (b : Fin 4) (n : Fin 2048) (c : Fin 4) :
    stack v0 v1 v2 v3 v4 (ix3 b n ⟨5 * c.val + 1, by have := c.isLt; omega⟩) = v1 (ix3 b c n) :=
  stack_apply ![v0, v1, v2, v3, v4] b n c 1
/-- The stacked array at position 5c+2: the third array. -/
theorem stack_apply2 (v0 v1 v2 v3 v4 : FVec Ideal S4x4x2048 .f32) (b : Fin 4) (n : Fin 2048) (c : Fin 4) :
    stack v0 v1 v2 v3 v4 (ix3 b n ⟨5 * c.val + 2, by have := c.isLt; omega⟩) = v2 (ix3 b c n) :=
  stack_apply ![v0, v1, v2, v3, v4] b n c 2
/-- The stacked array at position 5c+3: the fourth array. -/
theorem stack_apply3 (v0 v1 v2 v3 v4 : FVec Ideal S4x4x2048 .f32) (b : Fin 4) (n : Fin 2048) (c : Fin 4) :
    stack v0 v1 v2 v3 v4 (ix3 b n ⟨5 * c.val + 3, by have := c.isLt; omega⟩) = v3 (ix3 b c n) :=
  stack_apply ![v0, v1, v2, v3, v4] b n c 3
/-- The stacked array at position 5c+4: the fifth array. -/
theorem stack_apply4 (v0 v1 v2 v3 v4 : FVec Ideal S4x4x2048 .f32) (b : Fin 4) (n : Fin 2048) (c : Fin 4) :
    stack v0 v1 v2 v3 v4 (ix3 b n ⟨5 * c.val + 4, by have := c.isLt; omega⟩) = v4 (ix3 b c n) :=
  stack_apply ![v0, v1, v2, v3, v4] b n c 4

/-! ## The left operand at an index: x⁴, x³, x², x, 1 -/

theorem Qterm_apply0 (a2 : FVec Ideal S4x4x32x64 .f32) (b : Fin 4) (n : Fin 2048) (c : Fin 4) :
    Qterm a2 (ix3 b n ⟨5 * c.val + 0, by have := c.isLt; omega⟩)
      = (feat a2 b c n * feat a2 b c n) * (feat a2 b c n * feat a2 b c n) := by
  unfold Qterm
  rw [stack_apply0, mulf_apply, mulf_apply, flat_apply]
theorem Qterm_apply1 (a2 : FVec Ideal S4x4x32x64 .f32) (b : Fin 4) (n : Fin 2048) (c : Fin 4) :
    Qterm a2 (ix3 b n ⟨5 * c.val + 1, by have := c.isLt; omega⟩) = (feat a2 b c n * feat a2 b c n) * feat a2 b c n := by
  unfold Qterm
  rw [stack_apply1, mulf_apply, mulf_apply, flat_apply]
theorem Qterm_apply2 (a2 : FVec Ideal S4x4x32x64 .f32) (b : Fin 4) (n : Fin 2048) (c : Fin 4) :
    Qterm a2 (ix3 b n ⟨5 * c.val + 2, by have := c.isLt; omega⟩) = feat a2 b c n * feat a2 b c n := by
  unfold Qterm
  rw [stack_apply2, mulf_apply, flat_apply]
theorem Qterm_apply3 (a2 : FVec Ideal S4x4x32x64 .f32) (b : Fin 4) (n : Fin 2048) (c : Fin 4) :
    Qterm a2 (ix3 b n ⟨5 * c.val + 3, by have := c.isLt; omega⟩) = feat a2 b c n := by
  unfold Qterm
  rw [stack_apply3, flat_apply]
theorem Qterm_apply4 (a2 : FVec Ideal S4x4x32x64 .f32) (b : Fin 4) (n : Fin 2048) (c : Fin 4) :
    Qterm a2 (ix3 b n ⟨5 * c.val + 4, by have := c.isLt; omega⟩) = 1 := by
  unfold Qterm
  rw [stack_apply4, splat_apply, Ideal.ofBits_one_f32]

/-! ## The right operand at an index: 1, -4y, 6y², -4y³, y⁴ (the two constants as their bit patterns) -/

theorem Kterm_apply0 (a2 : FVec Ideal S4x4x32x64 .f32) (b : Fin 4) (m : Fin 2048) (c : Fin 4) :
    Kterm a2 (ix3 b m ⟨5 * c.val + 0, by have := c.isLt; omega⟩) = 1 := by
  unfold Kterm
  rw [stack_apply0, splat_apply, Ideal.ofBits_one_f32]
theorem Kterm_apply1 (a2 : FVec Ideal S4x4x32x64 .f32) (b : Fin 4) (m : Fin 2048) (c : Fin 4) :
    Kterm a2 (ix3 b m ⟨5 * c.val + 1, by have := c.isLt; omega⟩) = Ideal.ofBits .f32 0xC0800000#32 * feat a2 b c m := by
  unfold Kterm
  rw [stack_apply1, mulf_apply, splat_apply, flat_apply]
theorem Kterm_apply2 (a2 : FVec Ideal S4x4x32x64 .f32) (b : Fin 4) (m : Fin 2048) (c : Fin 4) :
    Kterm a2 (ix3 b m ⟨5 * c.val + 2, by have := c.isLt; omega⟩)
      = Ideal.ofBits .f32 0x40C00000#32 * (feat a2 b c m * feat a2 b c m) := by
  unfold Kterm
  rw [stack_apply2, mulf_apply, mulf_apply, splat_apply, flat_apply]
theorem Kterm_apply3 (a2 : FVec Ideal S4x4x32x64 .f32) (b : Fin 4) (m : Fin 2048) (c : Fin 4) :
    Kterm a2 (ix3 b m ⟨5 * c.val + 3, by have := c.isLt; omega⟩)
      = Ideal.ofBits .f32 0xC0800000#32 * ((feat a2 b c m * feat a2 b c m) * feat a2 b c m) := by
  unfold Kterm
  rw [stack_apply3, mulf_apply, mulf_apply, mulf_apply, splat_apply, flat_apply]
theorem Kterm_apply4 (a2 : FVec Ideal S4x4x32x64 .f32) (b : Fin 4) (m : Fin 2048) (c : Fin 4) :
    Kterm a2 (ix3 b m ⟨5 * c.val + 4, by have := c.isLt; omega⟩)
      = (feat a2 b c m * feat a2 b c m) * (feat a2 b c m * feat a2 b c m) := by
  unfold Kterm
  rw [stack_apply4, mulf_apply, mulf_apply, flat_apply]

end Cert.HostSide

end
-- ==== Proof.KiOperands.lean ====
/-
  What the launch finds in its two float operand arrays: the host operations before it leave the feature map as it was and
  build from it, by the elementwise powers, the stacking and the two re-layouts, the left and the right operand of the
  kernel's contraction.
-/
import proofs.«134923_j35673998361268_2_alg».proof.Proof.FrKi
import proofs.«134923_j35673998361268_2_alg».proof.Proof.Host

set_option maxRecDepth 16384

noncomputable section

namespace Cert.KernelIdeal.Ki

open Cert.KernelIdeal Cert.KernelIdeal.Gen
open Idealize.ShloMosaic Idealize.ShloMosaic.TcCoe Idealize.ShloMosaic.StableHlo

section Nary5
variable {τ : Topo} {sig : RefSig} {Val : EltTy → Type}
variable {x a b c d y : Ref sig .tc}

/-- A five-operand operation's result, each operand's contents read at its own reference. -/
theorem nary5_result'
    (f : ((k : Fin 5) → ((![x, a, b, c, d] : Fin 5 → Ref sig .tc) k).ty.Contents Val) → y.ty.Contents Val) (hxs hy)
    (F : Valuation τ sig Val) :
    (nary (τ := τ) ![x, a, b, c, d] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc d)) (fun i => i.elim0)))))) := by
  rw [nary_result]; congr 1; funext k; fin_cases k <;> rfl

end Nary5

/-- The last stretch of host operations before the launch, from any contents: the left operand's array. -/
theorem after8_main_v47 (W : Valuation τ sig (Elt Ideal)) :
    StableHlo.after (hostOps0_8 (F := Ideal)) W (Proc.devRef .tc main_v47)
      = Cert.HostSide.Qterm (W (Proc.devRef .tc main_arg2)) := by
  simp (disch := decide) only [hostOps0_8, after_cons, after_nil,
      nullary_result', unary_result', binary_result', reshape_result', nary5_result',
      nullary_result_ne', unary_result_ne', binary_result_ne', reshape_result_ne', nary_result_ne']
  rfl

/-- The last stretch of host operations before the launch, from any contents: the right operand's array. -/
theorem after8_main_v64 (W : Valuation τ sig (Elt Ideal)) :
    StableHlo.after (hostOps0_8 (F := Ideal)) W (Proc.devRef .tc main_v64)
      = Cert.HostSide.Kterm (W (Proc.devRef .tc main_arg2)) := by
  simp (disch := decide) only [hostOps0_8, after_cons, after_nil,
      nullary_result', unary_result', binary_result', reshape_result', nary5_result',
      nullary_result_ne', unary_result_ne', binary_result_ne', reshape_result_ne', nary_result_ne']
  rfl

variable (m : (ℓ : Loc nD τ sig) → Buf (Elt Ideal) ℓ)

/-- The earlier stretches of host operations write other buffers: they leave the feature map as it was. -/
theorem pre_main_arg2 (c : Dev nD) :
    StableHlo.after (List.flatten [hostOps0 (F := Ideal), hostOps0_1, hostOps0_2, hostOps0_3, hostOps0_4, hostOps0_5, hostOps0_6, hostOps0_7])
        (fun b => m (c, b)) (Proc.devRef .tc main_arg2) = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- The host operations before the launch are the earlier stretches, then the last one. -/
theorem V0_split (c : Dev nD) :
    Fr.V0 m c = StableHlo.after (hostOps0_8 (F := Ideal))
      (StableHlo.after (List.flatten [hostOps0 (F := Ideal), hostOps0_1, hostOps0_2, hostOps0_3, hostOps0_4, hostOps0_5, hostOps0_6, hostOps0_7])
        (fun b => m (c, b))) := by
  show StableHlo.after (List.flatten [hostOps0, hostOps0_1, hostOps0_2, hostOps0_3, hostOps0_4, hostOps0_5, hostOps0_6, hostOps0_7, hostOps0_8]) _ = _
  rw [← StableHlo.after_append]
  congr 1

/-- **The launch finds the left operand in its first float array.** -/
theorem V_main_v47 (c : Dev nD) :
    Fr.V m c main_v47 = Cert.HostSide.Qterm (m ((c : Thread nD τ).loc main_arg2)) := by
  show Fr.V0 m c (Proc.devRef .tc main_v47) = _
  rw [V0_split, after8_main_v47, pre_main_arg2]

/-- **The launch finds the right operand in its second float array.** -/
theorem V_main_v64 (c : Dev nD) :
    Fr.V m c main_v64 = Cert.HostSide.Kterm (m ((c : Thread nD τ).loc main_arg2)) := by
  show Fr.V0 m c (Proc.devRef .tc main_v64) = _
  rw [V0_split, after8_main_v64, pre_main_arg2]

end Cert.KernelIdeal.Ki

end
-- ==== Proof.LibQuarticAlg.lean ====
/-
  The algebra that joins the kernel's binomial expansion to the fourth power of a difference, on the extended reals.

  For real x and y,  (x-y)⁴ = x⁴·1 + x³·(-4y) + x²·(6y²) + x·(-4y³) + 1·y⁴.  The kernel lays the five left factors of the
  four channels along one axis of length 20 (position 5c+p), the five right factors along another, and contracts the two:
  the contraction is the sum over the channels of the fourth powers of the differences. The factors are finite reals, so
  every product and sum below is the real one under the coercion into the extended reals. Last, the square root of a sum
  clamped below at zero is the square root of the sum where that is positive, and zero elsewhere.
-/
import Idealize.ShloMosaic.PureOps.Ideal.Laws
import Idealize.ShloMosaic.Lib.IdealHost

noncomputable section

namespace Cert.Alg

open Idealize.ShloMosaic
open scoped BigOperators

/-- The f32 pattern `0xC0800000` is the real -4. -/
theorem ofBits_neg_four_f32 : Ideal.ofBits .f32 0xC0800000#32 = ((-4 : ℝ) : EReal) := by
  simp [Ideal.ofBits, Ideal.ieee, -EReal.coe_mul, -EReal.coe_neg]; norm_num

/-- The f32 pattern `0x40C00000` is the real 6. -/
theorem ofBits_six_f32 : Ideal.ofBits .f32 0x40C00000#32 = ((6 : ℝ) : EReal) := by
  simp [Ideal.ofBits, Ideal.ieee, -EReal.coe_mul, -EReal.coe_neg]; norm_num

/-- The binomial expansion of a fourth power of a difference, the powers written as the kernel multiplies them. -/
theorem quartic_expand (x y : ℝ) :
    (x * x) * (x * x) * 1 + ((x * x) * x) * ((-4) * y) + (x * x) * (6 * (y * y)) + x * ((-4) * ((y * y) * y))
      + 1 * ((y * y) * (y * y)) = ((x - y) * (x - y)) * ((x - y) * (x - y)) := by
  ring

/-- The same on the extended reals, at two finite values. -/
theorem quartic_expand_coe (x y : ℝ) :
    ((x : EReal) * x) * ((x : EReal) * x) * 1 + (((x : EReal) * x) * x) * (((-4 : ℝ) : EReal) * y)
      + ((x : EReal) * x) * (((6 : ℝ) : EReal) * ((y : EReal) * y)) + (x : EReal) * (((-4 : ℝ) : EReal) * (((y : EReal) * y) * y))
      + 1 * (((y : EReal) * y) * ((y : EReal) * y))
      = (((x : EReal) - y) * ((x : EReal) - y)) * (((x : EReal) - y) * ((x : EReal) - y)) := by
  have h := quartic_expand x y
  exact_mod_cast h

/-- A sum over twenty positions is the sum over four groups of five consecutive ones. -/
theorem sum_fin20 {M : Type*} [AddCommMonoid M] (f : Fin 20 → M) :
    ∑ j, f j = ∑ c : Fin 4, ∑ p : Fin 5, f ⟨5 * c.val + p.val, by have := c.isLt; have := p.isLt; omega⟩ := by
  rw [← (finProdFinEquiv (m := 4) (n := 5)).sum_comp f, Fintype.sum_prod_type]
  refine Finset.sum_congr rfl fun c _ => Finset.sum_congr rfl fun p _ => ?_
  congr 1
  apply Fin.ext
  show p.val + 5 * c.val = 5 * c.val + p.val
  omega

/-- **The contraction of the two factor rows is the sum of the fourth powers of the differences.** `Q` holds at position
    `5c+p` the `p`-th left factor of channel `c` (x⁴, x³, x², x, 1), `K` the `p`-th right factor (1, -4y, 6y², -4y³, y⁴);
    the channel values are finite. -/
theorem contraction_eq (X Y : Fin 4 → EReal) (Q K : Fin 20 → EReal) (m4 c6 : EReal)
    (hm4 : m4 = ((-4 : ℝ) : EReal)) (hc6 : c6 = ((6 : ℝ) : EReal))
    (hX : ∀ c, ∃ r : ℝ, X c = r) (hY : ∀ c, ∃ r : ℝ, Y c = r)
    (hQ0 : ∀ c : Fin 4, Q ⟨5 * c.val + 0, by have := c.isLt; omega⟩ = (X c * X c) * (X c * X c))
    (hQ1 : ∀ c : Fin 4, Q ⟨5 * c.val + 1, by have := c.isLt; omega⟩ = (X c * X c) * X c)
    (hQ2 : ∀ c : Fin 4, Q ⟨5 * c.val + 2, by have := c.isLt; omega⟩ = X c * X c)
    (hQ3 : ∀ c : Fin 4, Q ⟨5 * c.val + 3, by have := c.isLt; omega⟩ = X c)
    (hQ4 : ∀ c : Fin 4, Q ⟨5 * c.val + 4, by have := c.isLt; omega⟩ = 1)
    (hK0 : ∀ c : Fin 4, K ⟨5 * c.val + 0, by have := c.isLt; omega⟩ = 1)
    (hK1 : ∀ c : Fin 4, K ⟨5 * c.val + 1, by have := c.isLt; omega⟩ = m4 * Y c)
    (hK2 : ∀ c : Fin 4, K ⟨5 * c.val + 2, by have := c.isLt; omega⟩ = c6 * (Y c * Y c))
    (hK3 : ∀ c : Fin 4, K ⟨5 * c.val + 3, by have := c.isLt; omega⟩ = m4 * ((Y c * Y c) * Y c))
    (hK4 : ∀ c : Fin 4, K ⟨5 * c.val + 4, by have := c.isLt; omega⟩ = (Y c * Y c) * (Y c * Y c)) :
    ∑ j, Q j * K j = ∑ c : Fin 4, ((X c - Y c) * (X c - Y c)) * ((X c - Y c) * (X c - Y c)) := by
  rw [sum_fin20]
  refine Finset.sum_congr rfl fun c _ => ?_
  obtain ⟨x, hx⟩ := hX c
  obtain ⟨y, hy⟩ := hY c
  rw [Fin.sum_univ_five]
  show Q ⟨5 * c.val + 0, _⟩ * K ⟨5 * c.val + 0, _⟩ + Q ⟨5 * c.val + 1, _⟩ * K ⟨5 * c.val + 1, _⟩
      + Q ⟨5 * c.val + 2, _⟩ * K ⟨5 * c.val + 2, _⟩ + Q ⟨5 * c.val + 3, _⟩ * K ⟨5 * c.val + 3, _⟩
      + Q ⟨5 * c.val + 4, _⟩ * K ⟨5 * c.val + 4, _⟩ = _
  rw [hQ0, hQ1, hQ2, hQ3, hQ4, hK0, hK1, hK2, hK3, hK4, hx, hy, hm4, hc6]
  exact quartic_expand_coe x y

/-- The square root of a value clamped below at zero: the square root where the value is positive, zero elsewhere. -/
theorem sqrt_max_zero (s : EReal) : Ideal.sqrt (max s 0) = if 0 < s then Ideal.sqrt s else 0 := by
  induction s using EReal.rec with
  | bot =>
    rw [if_neg (by simp), max_eq_right bot_le]
    show Ideal.sqrt ((0 : ℝ) : EReal) = 0
    rw [Ideal.sqrt_coe, if_neg (lt_irrefl _), Real.sqrt_zero]; rfl
  | coe r =>
    by_cases hr : 0 < r
    · rw [if_pos (by exact_mod_cast hr), max_eq_left (by exact_mod_cast hr.le)]
    · rw [if_neg (by exact_mod_cast hr), max_eq_right (by exact_mod_cast (not_lt.mp hr))]
      show Ideal.sqrt ((0 : ℝ) : EReal) = 0
      rw [Ideal.sqrt_coe, if_neg (lt_irrefl _), Real.sqrt_zero]; rfl
  | top =>
    rw [if_pos (by simp), max_eq_left le_top]

end Cert.Alg

end
-- ==== Proof.HostAlg.lean ====
/-
  The contraction of the two operand arrays, read against the specification: at a pair of points (n, m) of a batch the sum
  over the twenty positions of the products of the left operand at n and the right operand at m is the sum over the four
  channels of the fourth powers of the differences of the two points' features, for a finite feature map; and the square
  root of that sum clamped below at zero is the specification's distance of the pair.
-/
import proofs.«134923_j35673998361268_2_alg».proof.Proof.Host
import proofs.«134923_j35673998361268_2_alg».proof.Proof.LibQuarticAlg
import proofs.«134923_j35673998361268_2_alg».proof.Proof.Spec

noncomputable section

namespace Cert.HostSide

open Idealize.ShloMosaic Idealize.ShloMosaic.ValueIdx
open Cert.KernelIdeal
open scoped BigOperators

/-- The contraction over the twenty positions is the specification's sum of fourth powers. -/
theorem contraction (a2 : FVec Ideal S4x4x32x64 .f32) (hfin : ∀ b c n, ∃ r : ℝ, feat a2 b c n = r)
    (b : Fin 4) (n m : Fin 2048) :
    ∑ j : Fin 20, Qterm a2 (ix3 b n j) * Kterm a2 (ix3 b m j) = Cert.Spec.quart (feat a2) b n m := by
  unfold Cert.Spec.quart
  exact Cert.Alg.contraction_eq (fun c => feat a2 b c n) (fun c => feat a2 b c m)
    (fun j => Qterm a2 (ix3 b n j)) (fun j => Kterm a2 (ix3 b m j))
    (Ideal.ofBits .f32 0xC0800000#32) (Ideal.ofBits .f32 0x40C00000#32)
    Cert.Alg.ofBits_neg_four_f32 Cert.Alg.ofBits_six_f32
    (fun c => hfin b c n) (fun c => hfin b c m)
    (Qterm_apply0 a2 b n) (Qterm_apply1 a2 b n) (Qterm_apply2 a2 b n) (Qterm_apply3 a2 b n) (Qterm_apply4 a2 b n)
    (Kterm_apply0 a2 b m) (Kterm_apply1 a2 b m) (Kterm_apply2 a2 b m) (Kterm_apply3 a2 b m) (Kterm_apply4 a2 b m)

/-- The square root of the contraction clamped below at zero is the specification's distance. -/
theorem sqrt_contraction (a2 : FVec Ideal S4x4x32x64 .f32) (hfin : ∀ b c n, ∃ r : ℝ, feat a2 b c n = r)
    (b : Fin 4) (n m : Fin 2048) :
    Ideal.sqrt (max (∑ j : Fin 20, Qterm a2 (ix3 b n j) * Kterm a2 (ix3 b m j)) 0) = Cert.Spec.dist (feat a2) b n m := by
  rw [contraction a2 hfin b n m, Cert.Alg.sqrt_max_zero]
  rfl

end Cert.HostSide

end
-- ==== Proof.KiResult.lean ====
/-
  The kernel program's result at the extended reals: the lane part plus the specification's instance part.

  Row b of the array the launch leaves holds, in lanes 0 to 3, the sums over the row's four query blocks of the blocks'
  four scalars. A block's scalars are sums over its 512 x 2048 pairs of terms in the matrix product of the two operand
  arrays' rows; the operand arrays are the monomial arrays of the feature map, whose row products are, for finite
  features, the sum of fourth powers of the feature differences; so, regrouping the blocks into whole rows, the four
  lane totals are the specification's two sums and two counts, and the tail's two quotients its instance part.
-/
import proofs.«134923_j35673998361268_2_alg».proof.Proof.KiValue
import proofs.«134923_j35673998361268_2_alg».proof.Proof.KiRun
import proofs.«134923_j35673998361268_2_alg».proof.Proof.KiTailRead
import proofs.«134923_j35673998361268_2_alg».proof.Proof.KiBlocks
import proofs.«134923_j35673998361268_2_alg».proof.Proof.KiRegroup
import proofs.«134923_j35673998361268_2_alg».proof.Proof.KiOperands
import proofs.«134923_j35673998361268_2_alg».proof.Proof.HostAlg

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Res

open Cert.KernelIdeal Cert.KernelIdeal.Gen Cert.KernelIdeal.Fr Cert.KernelIdeal.Val Cert.KernelIdeal.Tail

variable (m : (ℓ : Loc nD τ sig) → Buf (Elt Ideal) ℓ) (c : Dev nD)

/-- The labels of the pairs, read off the instance matrix the program was given. -/
def labels (b : Fin 4) (n mm : Fin 2048) : BitVec 32 := (m ((c.tc : Thread nD τ).loc main_arg4) : IVec S4x1x2048x2048 32) (ix4 b (0 : Fin 1) n mm)

/-- The two float operand arrays and the label array as the launch finds them, and the three lane scalars the earlier
    host operations left, each at its vector type. -/
abbrev Qarr : FVec Ideal S4x2048x20 .f32 := V m c main_v47
abbrev Karr : FVec Ideal S4x2048x20 .f32 := V m c main_v64
abbrev Larr : IVec S4x1x2048x2048 32 := V m c main_arg4
abbrev s15 : FVec Ideal S_ .f32 := V m c main_v15
abbrev s18 : FVec Ideal S_ .f32 := V m c main_v18
abbrev s34 : FVec Ideal S_ .f32 := V m c main_v34

/-- The three input blocks of query block `q` of batch row `b`. -/
abbrev x0 (b q : Fin 4) : Vec Ideal S1x512x20 .f32 := iblk m c 0 (Blk.pt b q)
abbrev x1 (b q : Fin 4) : Vec Ideal S1x2048x20 .f32 := iblk m c 1 (Blk.pt b q)
abbrev x2 (b q : Fin 4) : Vec Ideal S1x1x512x2048 .i32 := iblk m c 2 (Blk.pt b q)

/-- Lane `l` of row `b` of the result array: the four query blocks' scalars added. -/
theorem G_lane (b : Fin 4) (l : Fin 128) :
    Gv m c (ix3 b (0 : Fin 1) l) = ∑ q : Fin 4, Cert.BodySide.tileVec (x0 m c b q) (x1 m c b q) (x2 m c b q) l := by
  unfold Gv
  show accq m c b 3 (by decide) l = _
  simp only [accq, zero_add, Fin.sum_univ_four]
  rfl

theorem lane0 (v3 : Vec Ideal S1x512x20 .f32) (v5 : Vec Ideal S1x2048x20 .f32) (v11 : Vec Ideal S1x1x512x2048 .i32) :
    Cert.BodySide.tileVec v3 v5 v11 (⟨0, by decide⟩ : Fin 128) = Cert.BodySide.sumSame v3 v5 v11 := by
  unfold Cert.BodySide.tileVec; rw [if_pos rfl]
theorem lane1 (v3 : Vec Ideal S1x512x20 .f32) (v5 : Vec Ideal S1x2048x20 .f32) (v11 : Vec Ideal S1x1x512x2048 .i32) :
    Cert.BodySide.tileVec v3 v5 v11 (⟨1, by decide⟩ : Fin 128) = Cert.BodySide.sumDiff v3 v5 v11 := by
  unfold Cert.BodySide.tileVec; rw [if_neg (by decide), if_pos rfl]
theorem lane2 (v3 : Vec Ideal S1x512x20 .f32) (v5 : Vec Ideal S1x2048x20 .f32) (v11 : Vec Ideal S1x1x512x2048 .i32) :
    Cert.BodySide.tileVec v3 v5 v11 (⟨2, by decide⟩ : Fin 128) = Cert.BodySide.cntLab v11 1#32 := by
  unfold Cert.BodySide.tileVec; rw [if_neg (by decide), if_neg (by decide), if_pos rfl]
theorem lane3 (v3 : Vec Ideal S1x512x20 .f32) (v5 : Vec Ideal S1x2048x20 .f32) (v11 : Vec Ideal S1x1x512x2048 .i32) :
    Cert.BodySide.tileVec v3 v5 v11 (⟨3, by decide⟩ : Fin 128) = Cert.BodySide.cntLab v11 2#32 := by
  unfold Cert.BodySide.tileVec; rw [if_neg (by decide), if_neg (by decide), if_neg (by decide), if_pos rfl]

section Finite

variable (hfin : ∀ b c' n, ∃ r : ℝ, Cert.HostSide.feat (m ((c.tc : Thread nD τ).loc main_arg2)) b c' n = r)
include hfin

/-- The product of a query row and a key row of the operand arrays, guarded and rooted, is the pair's distance. -/
theorem hD (b : Fin 4) (n mm : Fin 2048) :
    Ideal.sqrt (max (∑ j : Fin 20, Qarr m c (ix3 b n j) * Karr m c (ix3 b mm j)) 0)
      = Cert.Spec.dist (Cert.HostSide.feat (m ((c.tc : Thread nD τ).loc main_arg2))) b n mm := by
  have hq : Qarr m c = Cert.HostSide.Qterm (m ((c.tc : Thread nD τ).loc main_arg2)) := Ki.V_main_v47 m c
  have hk : Karr m c = Cert.HostSide.Kterm (m ((c.tc : Thread nD τ).loc main_arg2)) := Ki.V_main_v64 m c
  rw [hq, hk]
  exact Cert.HostSide.sqrt_contraction _ hfin b n mm

end Finite

theorem hL (b : Fin 4) (n mm : Fin 2048) : Larr m c (ix4 b (0 : Fin 1) n mm) = labels m c b n mm := by
  have h : Larr m c = m ((c.tc : Thread nD τ).loc main_arg4) := V_main_arg4 m c
  rw [h]; rfl

section Finite2

variable (hfin : ∀ b c' n, ∃ r : ℝ, Cert.HostSide.feat (m ((c.tc : Thread nD τ).loc main_arg2)) b c' n = r)
include hfin

set_option maxHeartbeats 1000000 in
theorem total0 : ∑ b : Fin 4, Gv m c (ix3 b (0 : Fin 1) (⟨0, by decide⟩ : Fin 128))
    = Cert.Spec.sisc (Cert.HostSide.feat (m ((c.tc : Thread nD τ).loc main_arg2))) (labels m c) := by
  have e : ∀ b : Fin 4, Gv m c (ix3 b (0 : Fin 1) (⟨0, by decide⟩ : Fin 128)) = ∑ q : Fin 4, Cert.BodySide.sumSame (x0 m c b q) (x1 m c b q) (x2 m c b q) :=
    fun b => (G_lane m c b _).trans (Finset.sum_congr rfl fun q _ => lane0 _ _ _)
  rw [Finset.sum_congr rfl fun b _ => e b]
  exact Cert.Regroup.sumSame_spec (Qarr m c) (Karr m c) (Larr m c) (x0 m c) (x1 m c) (x2 m c) _ _
    (Blk.iblk0_pt m c) (Blk.iblk1_pt m c) (Blk.iblk2_pt m c) (hD m c hfin) (hL m c)

set_option maxHeartbeats 1000000 in
theorem total1 : ∑ b : Fin 4, Gv m c (ix3 b (0 : Fin 1) (⟨1, by decide⟩ : Fin 128))
    = Cert.Spec.disc (Cert.HostSide.feat (m ((c.tc : Thread nD τ).loc main_arg2))) (labels m c) := by
  have e : ∀ b : Fin 4, Gv m c (ix3 b (0 : Fin 1) (⟨1, by decide⟩ : Fin 128)) = ∑ q : Fin 4, Cert.BodySide.sumDiff (x0 m c b q) (x1 m c b q) (x2 m c b q) :=
    fun b => (G_lane m c b _).trans (Finset.sum_congr rfl fun q _ => lane1 _ _ _)
  rw [Finset.sum_congr rfl fun b _ => e b]
  exact Cert.Regroup.sumDiff_spec (Qarr m c) (Karr m c) (Larr m c) (x0 m c) (x1 m c) (x2 m c) _ _
    (Blk.iblk0_pt m c) (Blk.iblk1_pt m c) (Blk.iblk2_pt m c) (hD m c hfin) (hL m c)

end Finite2

set_option maxHeartbeats 1000000 in
theorem total2 : ∑ b : Fin 4, Gv m c (ix3 b (0 : Fin 1) (⟨2, by decide⟩ : Fin 128)) = Cert.Spec.cnt (labels m c) 1#32 := by
  have e : ∀ b : Fin 4, Gv m c (ix3 b (0 : Fin 1) (⟨2, by decide⟩ : Fin 128)) = ∑ q : Fin 4, Cert.BodySide.cntLab (x2 m c b q) 1#32 :=
    fun b => (G_lane m c b _).trans (Finset.sum_congr rfl fun q _ => lane2 _ _ _)
  rw [Finset.sum_congr rfl fun b _ => e b]
  exact Cert.Regroup.cntLab_spec (Larr m c) (x2 m c) _ (Blk.iblk2_pt m c) (hL m c) 1#32

set_option maxHeartbeats 1000000 in
theorem total3 : ∑ b : Fin 4, Gv m c (ix3 b (0 : Fin 1) (⟨3, by decide⟩ : Fin 128)) = Cert.Spec.cnt (labels m c) 2#32 := by
  have e : ∀ b : Fin 4, Gv m c (ix3 b (0 : Fin 1) (⟨3, by decide⟩ : Fin 128)) = ∑ q : Fin 4, Cert.BodySide.cntLab (x2 m c b q) 2#32 :=
    fun b => (G_lane m c b _).trans (Finset.sum_congr rfl fun q _ => lane3 _ _ _)
  rw [Finset.sum_congr rfl fun b _ => e b]
  exact Cert.Regroup.cntLab_spec (Larr m c) (x2 m c) _ (Blk.iblk2_pt m c) (hL m c) 2#32

/-- The program's result: the lane scalars added, plus the specification's instance part. -/
theorem kres_eq (hfin : ∀ b c' n, ∃ r : ℝ, Cert.HostSide.feat (m ((c.tc : Thread nD τ).loc main_arg2)) b c' n = r) (i : S_.Idx) :
    kres m c i = ((s15 m c i + s18 m c i) + s34 m c i)
      + Cert.Spec.inst (Cert.HostSide.feat (m ((c.tc : Thread nD τ).loc main_arg2))) (labels m c) := by
  unfold kres
  rw [tail_eq, Val.final, tailTerm_apply, total0 m c hfin, total1 m c hfin, total2, total3]
  simp only [zero_add]
  rfl

end Cert.KernelIdeal.Res

end
-- ==== Proof.KiLane.lean ====
/-
  The lane part of the loss is one function on both sides: the host operations before the kernel's launch compute its three
  terms from the launch contents of the three lane arguments by the same operations, in the same order, as the reference
  program computes them from its arguments; the sum of the three is the reference's lane term.
-/
import proofs.«134923_j35673998361268_2_alg».proof.Proof.FrKi
import proofs.«134923_j35673998361268_2_alg».proof.Proof.Gen.ReferenceIdeal.Read

set_option maxRecDepth 16384

noncomputable section

namespace Cert.KernelIdeal.Ki

open Cert.KernelIdeal Cert.KernelIdeal.Gen
open Idealize.ShloMosaic Idealize.ShloMosaic.TcCoe Idealize.ShloMosaic.StableHlo

variable (m : (ℓ : Loc nD τ sig) → Buf (Elt Ideal) ℓ)

/-- The first lane term, as the launch finds it: the reference's, of the launch contents of arguments 0 and 3. -/
theorem V_main_v15 (c : Dev nD) :
    Fr.V m c main_v15 = Cert.ReferenceIdeal.Read.val_main_v15 (F := Ideal)
      (m ((c : Thread nD τ).loc main_arg0)) (m ((c : Thread nD τ).loc main_arg3)) := by
  show StableHlo.after (List.flatten [hostOps0, hostOps0_1, hostOps0_2, hostOps0_3, hostOps0_4, hostOps0_5, hostOps0_6, hostOps0_7, hostOps0_8])
    (fun b => m (c, b)) (Proc.devRef .tc main_v15) = _
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

/-- The second lane term, as the launch finds it: the reference's, of the launch contents of arguments 0 and 3. -/
theorem V_main_v18 (c : Dev nD) :
    Fr.V m c main_v18 = Cert.ReferenceIdeal.Read.val_main_v18 (F := Ideal)
      (m ((c : Thread nD τ).loc main_arg0)) (m ((c : Thread nD τ).loc main_arg3)) := by
  show StableHlo.after (List.flatten [hostOps0, hostOps0_1, hostOps0_2, hostOps0_3, hostOps0_4, hostOps0_5, hostOps0_6, hostOps0_7, hostOps0_8])
    (fun b => m (c, b)) (Proc.devRef .tc main_v18) = _
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

/-- The third lane term, as the launch finds it: the reference's, of the launch contents of arguments 1 and 3. -/
theorem V_main_v34 (c : Dev nD) :
    Fr.V m c main_v34 = Cert.ReferenceIdeal.Read.val_main_v34 (F := Ideal)
      (m ((c : Thread nD τ).loc main_arg1)) (m ((c : Thread nD τ).loc main_arg3)) := by
  show StableHlo.after (List.flatten [hostOps0, hostOps0_1, hostOps0_2, hostOps0_3, hostOps0_4, hostOps0_5, hostOps0_6, hostOps0_7, hostOps0_8])
    (fun b => m (c, b)) (Proc.devRef .tc main_v34) = _
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

/-- **The lane part**: the sum of the three terms the launch finds is the reference's lane term of the launch contents of the
    three lane arguments. -/
theorem lane_eq (c : Dev nD) :
    addf (F := Ideal) (s := S_) (φ := .f32) (addf (F := Ideal) (s := S_) (φ := .f32) (Fr.V m c main_v15) (Fr.V m c main_v18)) (Fr.V m c main_v34)
      = Cert.ReferenceIdeal.Read.val_main_v73 (F := Ideal)
          (m ((c : Thread nD τ).loc main_arg0)) (m ((c : Thread nD τ).loc main_arg1)) (m ((c : Thread nD τ).loc main_arg3)) := by
  rw [V_main_v15, V_main_v18, V_main_v34]
  rfl

end Cert.KernelIdeal.Ki

end
-- ==== Proof.KiFinite.lean ====
/-
  From the precondition to finiteness of the features. The precondition states, of each float argument, that every entry's
  absolute value compares below +∞; its value is the conjunction of the four arguments' tests. Of the feature map this says that no entry
  is an infinity: every feature is a real number.
-/
import proofs.«134923_j35673998361268_2_alg».proof.Proof.Gen.Pre_finite_inputs
import proofs.«134923_j35673998361268_2_alg».proof.Proof.Host
import Idealize.ShloMosaic.Lib.ReduceAll

noncomputable section

namespace Cert.HostSide

open Idealize.ShloMosaic Idealize.ShloMosaic.ValueIdx

/-- The scalar shape has one index. -/
instance subsingleton_scalar_idx : Subsingleton Cert.Pre_finite_inputs.S_.Idx := ⟨fun a b => funext fun d => d.elim0⟩

/-- The f32 pattern `0x7F800000` is +∞. -/
theorem ofBits_inf_f32 : Ideal.ofBits .f32 0x7F800000#32 = ⊤ := by simp [Ideal.ofBits, Ideal.ieee]

/-- An extended real whose absolute value compares below +∞ is a real. -/
theorem real_of_abs_lt_inf (x : EReal)
    (h : Ideal.cmp .olt (max x (-x)) (Ideal.ofBits .f32 0x7F800000#32) = 1#1) : ∃ r : ℝ, x = r := by
  rw [ofBits_inf_f32] at h
  induction x using EReal.rec with
  | bot => exfalso; simp [Ideal.cmp] at h
  | coe r => exact ⟨r, rfl⟩
  | top => exfalso; simp [Ideal.cmp] at h

/-- **Under the precondition every feature is a real number.** -/
theorem feat_finite [Cert.Pre_finite_inputs.Facts]
    (a0 : FVec Ideal Cert.Pre_finite_inputs.S4x1x32x64 .f32) (a1 : FVec Ideal Cert.Pre_finite_inputs.S4x2x32x64 .f32)
    (a2 : FVec Ideal Cert.KernelIdeal.S4x4x32x64 .f32) (a3 : FVec Ideal Cert.Pre_finite_inputs.S4x3x32x64 .f32)
    (a4 : IVec Cert.Pre_finite_inputs.S4x1x2048x2048 32)
    (h : Cert.Pre_finite_inputs.fn (F := Ideal) a0 a1 a2 a3 a4 = fun _ => 1#1) (b c : Fin 4) (n : Fin 2048) :
    ∃ r : ℝ, feat a2 b c n = (r : EReal) := by
  have h0 := congrFun h ValueIdx.ix0
  dsimp only [Cert.Pre_finite_inputs.fn, Cert.Pre_finite_inputs.fn_part1] at h0
  -- the value is ((t₀ ∧ t₁) ∧ t₂) ∧ t₃: the feature map's test is t₂
  have h2 := (IntOp.andi_eq_one.1 (IntOp.andi_eq_one.1 h0).1).2
  have he := Host.reduce_andi_all _ _ _ _ _ h2
    (ix4 b c ⟨n.val / 64, by have := n.isLt; omega⟩ ⟨n.val % 64, Nat.mod_lt _ (by decide)⟩)
  exact real_of_abs_lt_inf _ he

end Cert.HostSide

end
-- ==== Proof.RefIdx.lean ====
/-
  The reference side's vocabulary. The two argument arrays the instance part of the loss depends on, read at coordinates:
  the feature map with its two spatial axes flattened row-major (point n = 64·y + x) and the pair-label matrix with its
  unit axis dropped. And a sum over a rank-4 index set as the nested sum over its coordinates, a unit axis contributing
  its one coordinate.
-/
import Idealize.ShloMosaic.Lib.ValueIdx

noncomputable section

open scoped BigOperators

namespace Cert.RefSide

open Idealize.ShloMosaic Idealize.ShloMosaic.ValueIdx

/-- Channel `c` of point `n` in batch `b`: the feature map at `[b, c, n / 64, n % 64]`. -/
def refFeat (a2 : FVec Ideal ⟨4, ![4, 4, 32, 64]⟩ .f32) (b c : Fin 4) (n : Fin 2048) : EReal :=
  a2 (ix4 b c ⟨n.val / 64, by have := n.isLt; omega⟩ ⟨n.val % 64, Nat.mod_lt _ (by decide)⟩)

/-- The label of the pair `(n, m)` in batch `b`: the label matrix at `[b, 0, n, m]`. -/
def refInst (a4 : IVec ⟨4, ![4, 1, 2048, 2048]⟩ 32) (b : Fin 4) (n m : Fin 2048) : BitVec 32 :=
  a4 (ix4 b (0 : Fin 1) n m)

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- With a unit second axis the sum over that axis is its one term. -/
theorem sum_idx4_unit {M : Type*} [AddCommMonoid M] {n0 n2 n3 : Nat} (f : (⟨4, ![n0, 1, n2, n3]⟩ : Shape).Idx → M) :
    ∑ i, f i = ∑ a : Fin n0, ∑ c : Fin n2, ∑ d : Fin n3, f (ix4 a (0 : Fin 1) c d) := by
  rw [sum_idx4]
  refine Finset.sum_congr rfl fun a _ => ?_
  rw [Fin.sum_univ_one]

end Cert.RefSide

end
-- ==== Proof.RefDist.lean ====
/-
  The reference's distance chain read at an index. The reshaped feature map at `(b, c, n)` is the feature map at
  `[b, c, n / 64, n % 64]` (row-major); broadcast along the second point axis it is the first point's feature, along the
  first the second point's; the sum over the channel axis of the square of the square of their difference, from 0, is the
  specification's `quart`; and the two selects around the square root (the operand made 1 where the sum is not positive,
  the result made 0 there) give the specification's `dist`.
-/
import proofs.«134923_j35673998361268_2_alg».proof.Proof.Gen.ReferenceIdeal.Read
import proofs.«134923_j35673998361268_2_alg».proof.Proof.Spec
import proofs.«134923_j35673998361268_2_alg».proof.Proof.RefIdx

noncomputable section

open scoped BigOperators

namespace Cert.RefSide

open Cert.ReferenceIdeal Cert.ReferenceIdeal.Read Idealize.ShloMosaic Idealize.ShloMosaic.ValueIdx

/-- The reshape `[4,4,32,64] → [4,4,2048]` is row-major: point `n` is the element at row `n / 64`, column `n % 64`. -/
theorem v35_eq (x2 : (⟨S4x4x32x64, .f32⟩ : BufTy).Contents (Elt Ideal)) (r : S4x4x2048.Idx) :
    val_main_v35 (F := Ideal) x2 r = refFeat x2 (r 0) (r 1) (r 2) := by
  rw [val_main_v35_apply]
  unfold refFeat
  have h0 : (r 0).val < 4 := (r 0).isLt
  have h1 : (r 1).val < 4 := (r 1).isLt
  have h2 : (r 2).val < 2048 := (r 2).isLt
  refine congrArg x2 (funext fun a => ?_)
  match a with
  | ⟨0, _⟩ => exact Fin.ext (by show (((r 0).val * 4 + (r 1).val) * 2048 + (r 2).val) / 8192 = (r 0).val; omega)
  | ⟨1, _⟩ => exact Fin.ext (by show (((r 0).val * 4 + (r 1).val) * 2048 + (r 2).val) / 2048 % 4 = (r 1).val; omega)
  | ⟨2, _⟩ => exact Fin.ext (by show (((r 0).val * 4 + (r 1).val) * 2048 + (r 2).val) / 64 % 32 = (r 2).val / 64; omega)
  | ⟨3, _⟩ => exact Fin.ext (by show (((r 0).val * 4 + (r 1).val) * 2048 + (r 2).val) % 64 = (r 2).val % 64; omega)

/-- The first point's feature, broadcast along the second point axis. -/
theorem v38_eq (x2 : (⟨S4x4x32x64, .f32⟩ : BufTy).Contents (Elt Ideal)) (q : S4x4x2048x2048.Idx) :
    val_main_v38 (F := Ideal) x2 q = refFeat x2 (q 0) (q 1) (q 2) := by
  rw [val_main_v38_apply, val_main_v36_apply, v35_eq]
  rfl

/-- The second point's feature, broadcast along the first point axis. -/
theorem v39_eq (x2 : (⟨S4x4x32x64, .f32⟩ : BufTy).Contents (Elt Ideal)) (q : S4x4x2048x2048.Idx) :
    val_main_v39 (F := Ideal) x2 q = refFeat x2 (q 0) (q 1) (q 3) := by
  rw [val_main_v39_apply, val_main_v37_apply, v35_eq]
  rfl

/-- The sum over the channels of the fourth power of the difference is the specification's `quart`. -/
theorem v43_eq (x2 : (⟨S4x4x32x64, .f32⟩ : BufTy).Contents (Elt Ideal)) (j : S4x2048x2048.Idx) :
    val_main_v43 (F := Ideal) x2 j = Cert.Spec.quart (refFeat x2) (j 0) (j 1) (j 2) := by
  rw [val_main_v43_apply, val_main_cst_11_apply, Ideal.ofBits_def, Ideal.ofBits_zero_f32, zero_add]
  unfold Cert.Spec.quart
  refine Finset.sum_congr rfl fun k _ => ?_
  rw [val_main_v42_apply, val_main_v41_apply, val_main_v40_apply, v38_eq, v39_eq]
  rfl

/-- The square root between its two selects is the specification's `dist`. -/
theorem v50_eq (x2 : (⟨S4x4x32x64, .f32⟩ : BufTy).Contents (Elt Ideal)) (j : S4x2048x2048.Idx) :
    val_main_v50 (F := Ideal) x2 j = Cert.Spec.dist (refFeat x2) (j 0) (j 1) (j 2) := by
  rw [val_main_v50_apply, val_main_v48_apply, val_main_v49_apply, val_main_v46_apply, val_main_v45_apply,
    val_main_v47_apply, val_main_v44_apply, val_main_call5_v1_apply, val_main_call5_v0_apply,
    val_main_cst_14_apply, val_main_cst_12_apply, val_main_cst_15_apply, v43_eq]
  simp only [Ideal.ofBits_def, Ideal.ofBits_zero_f32]
  unfold Cert.Spec.dist
  by_cases h : 0 < Cert.Spec.quart (refFeat x2) (j 0) (j 1) (j 2)
  · have hc : FloatOps.cmpf (F := Ideal) (φ := .f32) .ogt (Cert.Spec.quart (refFeat x2) (j 0) (j 1) (j 2)) 0 = 1#1 := by
      show BitVec.ofBool (decide ((0 : EReal) < Cert.Spec.quart (refFeat x2) (j 0) (j 1) (j 2))) = 1#1
      rw [decide_eq_true h]; rfl
    rw [hc, select_one, select_one, if_pos h]
    rfl
  · have hc : FloatOps.cmpf (F := Ideal) (φ := .f32) .ogt (Cert.Spec.quart (refFeat x2) (j 0) (j 1) (j 2)) 0 = 0#1 := by
      show BitVec.ofBool (decide ((0 : EReal) < Cert.Spec.quart (refFeat x2) (j 0) (j 1) (j 2))) = 0#1
      rw [decide_eq_false h]; rfl
    rw [hc, select_zero, if_neg h]

/-- The distance array with its unit axis: at `[b, 0, n, m]` the distance of the pair `(n, m)` in batch `b`. -/
theorem v51_eq (x2 : (⟨S4x4x32x64, .f32⟩ : BufTy).Contents (Elt Ideal)) (i : S4x1x2048x2048.Idx) :
    val_main_v51 (F := Ideal) x2 i = Cert.Spec.dist (refFeat x2) (i 0) (i 2) (i 3) := by
  rw [val_main_v51_apply, v50_eq]
  rfl

end Cert.RefSide

end
-- ==== Proof.LibCountSum.lean ====
/-
  Counting with a 32-bit integer sum. A sum of 32-bit words is the sum of their values modulo 2^32; when every word is 0
  or 1 and there are fewer than 2^31 of them the sum neither wraps nor reaches the sign bit, so read as a signed integer
  it is the number of ones. A one-operand integer `stablehlo.reduce` by addition over all axes, from 0, of such words is
  therefore, converted to a float at the ideal instance, the sum of ones on the extended reals.
-/
import Idealize.ShloMosaic.PureOps.Reduce
import Idealize.ShloMosaic.PureOps.Ideal

noncomputable section

open scoped BigOperators

namespace Cert.RefSide

open Idealize.ShloMosaic

/-- A fold of 32-bit additions from zero has the value of the sum of the values, modulo 2^32. -/
theorem fold_addi_toNat {ι : Type*} (S : Finset ι) (f : ι → BitVec 32) :
    (S.fold IntOp.addi 0#32 f).toNat = (∑ i ∈ S, (f i).toNat) % 4294967296 := by
  induction S using Finset.cons_induction with
  | empty => rfl
  | cons a S ha ih =>
    rw [Finset.fold_cons, Finset.sum_cons]
    show (f a + S.fold IntOp.addi 0#32 f).toNat = _
    rw [BitVec.toNat_add, ih]
    omega

/-- The number of indices with a property, as a natural number cast to the extended reals, is the sum of ones there. -/
theorem coe_count {ι : Type*} (S : Finset ι) (p : ι → Prop) [DecidablePred p] :
    ((((∑ i ∈ S, if p i then 1 else 0 : ℕ) : ℤ) : ℝ) : EReal) = ∑ i ∈ S, if p i then (1 : EReal) else 0 := by
  induction S using Finset.cons_induction with
  | empty => simp
  | cons a S ha ih =>
    rw [Finset.sum_cons, Finset.sum_cons, ← ih]
    by_cases h : p a
    · rw [if_pos h, if_pos h]; push_cast; rfl
    · rw [if_neg h, if_neg h, zero_add, zero_add]

/-- Fewer than 2^31 words, each 0 or 1, folded by 32-bit addition from zero: the result read signed is the number of ones. -/
theorem fold_addi_toInt {ι : Type*} [Fintype ι] (x : ι → BitVec 32) (p : ι → Prop) [DecidablePred p]
    (hx : ∀ i, x i = if p i then 1#32 else 0#32) (hc : Fintype.card ι < 2147483648) :
    (Finset.univ.fold IntOp.addi 0#32 x).toInt = ((∑ i, if p i then 1 else 0 : ℕ) : ℤ) := by
  have hv : ∀ i, (x i).toNat = if p i then 1 else 0 := fun i => by
    rw [hx i]; by_cases h : p i
    · rw [if_pos h, if_pos h]; rfl
    · rw [if_neg h, if_neg h]; rfl
  have hs : (∑ i, if p i then 1 else 0 : ℕ) ≤ Fintype.card ι := by
    calc (∑ i, if p i then 1 else 0 : ℕ) ≤ ∑ _i : ι, 1 :=
          Finset.sum_le_sum fun i _ => by by_cases h : p i <;> simp [h]
      _ = Fintype.card ι := by simp
  have h1 := fold_addi_toNat Finset.univ x
  rw [Finset.sum_congr rfl fun i _ => hv i] at h1
  rw [BitVec.toInt_eq_toNat_of_lt (by rw [h1]; omega), h1, Nat.mod_eq_of_lt (by omega)]

/-- An integer `stablehlo.reduce` by addition, over every axis, from 0, of fewer than 2^31 words that are 1 where a
    property holds and 0 elsewhere: converted to a float at the ideal instance it is the sum of ones over the indices
    with the property. -/
theorem reduce_addi_count {s t u : Shape} {axes : List (Fin s.rank)} [Subsingleton t.Idx] (x : s.Idx → BitVec 32)
    (p : s.Idx → Prop) [DecidablePred p] (hx : ∀ i, x i = if p i then 1#32 else 0#32) (hc : s.numel < 2147483648)
    (init : u.Idx → BitVec 32) (h : s.ReducesTo axes t) (hu : 0 < u.numel) (hinit : init (Shape.Idx.first hu) = 0#32)
    (j : t.Idx) :
    ((((Host.reduce IntOp.addi x init h hu j).toInt : ℤ) : ℝ) : EReal) = ∑ i, if p i then (1 : EReal) else 0 := by
  rw [Host.reduce_eq_fold, hinit, Finset.filter_true_of_mem (fun i _ => Subsingleton.elim _ _),
    fold_addi_toInt x p hx (by rw [Shape.card_idx]; exact hc), coe_count]

end Cert.RefSide

end
-- ==== Proof.RefSums.lean ====
/-
  The reference's four instance scalars are the specification's. Each float sum over the whole pair array, from 0, is the
  sum over batch and the two point coordinates (the unit axis contributing its one coordinate) of the selected term: the
  distance where the label is 1, max (1 - distance) 0 where it is 2. Each count is a 32-bit integer sum of the widened
  comparison bits — 2^24 words that are 0 or 1, so it does not wrap — converted to a float: the sum of ones.
-/
import proofs.«134923_j35673998361268_2_alg».proof.Proof.RefDist
import proofs.«134923_j35673998361268_2_alg».proof.Proof.LibCountSum

noncomputable section

open scoped BigOperators

namespace Cert.RefSide

open Cert.ReferenceIdeal Cert.ReferenceIdeal.Read Idealize.ShloMosaic Idealize.ShloMosaic.ValueIdx

/-- The pattern of 1.0 denotes 1. -/
theorem ofBits_one_f32 : Ideal.ofBits .f32 0x3F800000#32 = 1 := by
  simp [Ideal.ofBits, Ideal.ieee, -EReal.coe_mul]; norm_num

/-- A select on an integer equality is the `if` on the equation. -/
theorem select_cmpi_eq {α : Type} (x k : BitVec 32) (a b : α) :
    Scalar.select (IntOp.cmpi .eq x k) a b = if x = k then a else b := by
  by_cases h : x = k
  · have hc : IntOp.cmpi .eq x k = 1#1 := by
      show BitVec.ofBool (x == k) = 1#1
      rw [beq_iff_eq.2 h]; rfl
    rw [hc, select_one, if_pos h]
  · have hc : IntOp.cmpi .eq x k = 0#1 := by
      show BitVec.ofBool (x == k) = 0#1
      rw [beq_eq_false_iff_ne.2 h]; rfl
    rw [hc, select_zero, if_neg h]

/-- An integer equality's bit widened to 32 bits is 1 where the equation holds and 0 elsewhere. -/
theorem setWidth_cmpi_eq (x k : BitVec 32) :
    (IntOp.cmpi .eq x k).setWidth 32 = if x = k then 1#32 else 0#32 := by
  by_cases h : x = k
  · have hc : IntOp.cmpi .eq x k = 1#1 := by
      show BitVec.ofBool (x == k) = 1#1
      rw [beq_iff_eq.2 h]; rfl
    rw [hc, if_pos h]; rfl
  · have hc : IntOp.cmpi .eq x k = 0#1 := by
      show BitVec.ofBool (x == k) = 0#1
      rw [beq_eq_false_iff_ne.2 h]; rfl
    rw [hc, if_neg h]; rfl

/-- The pair array has 2^24 elements. -/
theorem numel_pairs : S4x1x2048x2048.numel < 2147483648 := by
  rw [Shape.numel, Fin.prod_univ_four]; decide

/-- The distance where the label is 1, else 0. -/
theorem v56_eq (x2 : (⟨S4x4x32x64, .f32⟩ : BufTy).Contents (Elt Ideal))
    (x4 : (⟨S4x1x2048x2048, .i32⟩ : BufTy).Contents (Elt Ideal)) (j : S4x1x2048x2048.Idx) :
    val_main_v56 (F := Ideal) x2 x4 j
      = if x4 j = 1#32 then Cert.Spec.dist (refFeat x2) (j 0) (j 2) (j 3) else 0 := by
  rw [val_main_v56_apply, val_main_v53_apply, val_main_v52_apply, val_main_c_16_apply, val_main_call6_v1_apply,
    val_main_call6_v0_apply, val_main_cst_18_apply, Ideal.ofBits_def, Ideal.ofBits_zero_f32, v51_eq, select_cmpi_eq]

/-- max (1 - distance) 0 where the label is 2, else 0. -/
theorem v66_eq (x2 : (⟨S4x4x32x64, .f32⟩ : BufTy).Contents (Elt Ideal))
    (x4 : (⟨S4x1x2048x2048, .i32⟩ : BufTy).Contents (Elt Ideal)) (j : S4x1x2048x2048.Idx) :
    val_main_v66 (F := Ideal) x2 x4 j
      = if x4 j = 2#32 then max (1 - Cert.Spec.dist (refFeat x2) (j 0) (j 2) (j 3)) 0 else 0 := by
  rw [val_main_v66_apply, val_main_v55_apply, val_main_v54_apply, val_main_c_17_apply, val_main_call7_v1_apply,
    val_main_call7_v0_apply, val_main_cst_23_apply, val_main_v65_apply, val_main_v63_apply, val_main_v62_apply,
    val_main_v64_apply, val_main_cst_21_apply, val_main_cst_22_apply, v51_eq, select_cmpi_eq]
  simp only [Ideal.ofBits_def, Ideal.ofBits_zero_f32, ofBits_one_f32]
  rfl

/-- The sum of the distances of the pairs labelled 1. -/
theorem ref_v57 (x2 : (⟨S4x4x32x64, .f32⟩ : BufTy).Contents (Elt Ideal))
    (x4 : (⟨S4x1x2048x2048, .i32⟩ : BufTy).Contents (Elt Ideal)) (i : S_.Idx) :
    val_main_v57 (F := Ideal) x2 x4 i = Cert.Spec.sisc (refFeat x2) (refInst x4) := by
  rw [val_main_v57_apply, val_main_cst_19_apply, Ideal.ofBits_def, Ideal.ofBits_zero_f32, zero_add, sum_idx4_unit]
  unfold Cert.Spec.sisc
  refine Finset.sum_congr rfl fun b _ => Finset.sum_congr rfl fun n _ => Finset.sum_congr rfl fun m _ => ?_
  rw [v56_eq]
  rfl

/-- The sum of max (1 - distance) 0 over the pairs labelled 2. -/
theorem ref_v67 (x2 : (⟨S4x4x32x64, .f32⟩ : BufTy).Contents (Elt Ideal))
    (x4 : (⟨S4x1x2048x2048, .i32⟩ : BufTy).Contents (Elt Ideal)) (i : S_.Idx) :
    val_main_v67 (F := Ideal) x2 x4 i = Cert.Spec.disc (refFeat x2) (refInst x4) := by
  rw [val_main_v67_apply, val_main_cst_24_apply, Ideal.ofBits_def, Ideal.ofBits_zero_f32, zero_add, sum_idx4_unit]
  unfold Cert.Spec.disc
  refine Finset.sum_congr rfl fun b _ => Finset.sum_congr rfl fun n _ => Finset.sum_congr rfl fun m _ => ?_
  rw [v66_eq]
  rfl

/-- The number of pairs labelled 1. -/
theorem ref_v60 (x4 : (⟨S4x1x2048x2048, .i32⟩ : BufTy).Contents (Elt Ideal)) (i : S_.Idx) :
    val_main_v60 (F := Ideal) x4 i = Cert.Spec.cnt (refInst x4) 1#32 := by
  have hx : ∀ j, val_main_v58 (F := Ideal) x4 j = if x4 j = 1#32 then 1#32 else 0#32 := fun j => by
    rw [val_main_v58_apply, val_main_v53_apply, val_main_v52_apply, val_main_c_16_apply, setWidth_cmpi_eq]
  rw [val_main_v60_apply]
  show ((((val_main_v59 (F := Ideal) x4 i).toInt : ℤ) : ℝ) : EReal) = _
  unfold val_main_v59
  rw [reduce_addi_count (val_main_v58 (F := Ideal) x4) (fun j => x4 j = 1#32) hx numel_pairs _ _ _ rfl i, sum_idx4_unit]
  rfl

/-- The number of pairs labelled 2. -/
theorem ref_v70 (x4 : (⟨S4x1x2048x2048, .i32⟩ : BufTy).Contents (Elt Ideal)) (i : S_.Idx) :
    val_main_v70 (F := Ideal) x4 i = Cert.Spec.cnt (refInst x4) 2#32 := by
  have hx : ∀ j, val_main_v68 (F := Ideal) x4 j = if x4 j = 2#32 then 1#32 else 0#32 := fun j => by
    rw [val_main_v68_apply, val_main_v55_apply, val_main_v54_apply, val_main_c_17_apply, setWidth_cmpi_eq]
  rw [val_main_v70_apply]
  show ((((val_main_v69 (F := Ideal) x4 i).toInt : ℤ) : ℝ) : EReal) = _
  unfold val_main_v69
  rw [reduce_addi_count (val_main_v68 (F := Ideal) x4) (fun j => x4 j = 2#32) hx numel_pairs _ _ _ rfl i, sum_idx4_unit]
  rfl

end Cert.RefSide

end
-- ==== Proof.RefResult.lean ====
/-
  The reference's result. Its last value is the lane part plus the instance part; the instance part is the two quotients
  of the specification, a sum of selected terms divided by the count of the selected pairs.
-/
import proofs.«134923_j35673998361268_2_alg».proof.Proof.RefSums

noncomputable section

namespace Cert.RefSide

open Cert.ReferenceIdeal Cert.ReferenceIdeal.Read Idealize.ShloMosaic

/-- The reference's instance part is the specification's. -/
theorem ref_v74 (x2 : (⟨S4x4x32x64, .f32⟩ : BufTy).Contents (Elt Ideal))
    (x4 : (⟨S4x1x2048x2048, .i32⟩ : BufTy).Contents (Elt Ideal)) (i : S_.Idx) :
    val_main_v74 (F := Ideal) x2 x4 i = Cert.Spec.inst (refFeat x2) (refInst x4) := by
  rw [val_main_v74_apply, val_main_v61_apply, val_main_v71_apply, ref_v57, ref_v60, ref_v67, ref_v70]
  rfl

/-- The reference's result is its lane part plus the specification's instance part. -/
theorem ref_result (x0 : (⟨S4x1x32x64, .f32⟩ : BufTy).Contents (Elt Ideal))
    (x1 : (⟨S4x2x32x64, .f32⟩ : BufTy).Contents (Elt Ideal)) (x2 : (⟨S4x4x32x64, .f32⟩ : BufTy).Contents (Elt Ideal))
    (x3 : (⟨S4x3x32x64, .f32⟩ : BufTy).Contents (Elt Ideal))
    (x4 : (⟨S4x1x2048x2048, .i32⟩ : BufTy).Contents (Elt Ideal)) (i : S_.Idx) :
    val_main_v75 (F := Ideal) x0 x1 x2 x3 x4 i
      = val_main_v73 (F := Ideal) x0 x1 x3 i + Cert.Spec.inst (refFeat x2) (refInst x4) := by
  rw [val_main_v75_apply, ref_v74]
  rfl

end Cert.RefSide

end
-- ==== Proof.lean ====
/-
  The five conjuncts of the certificate.

  The kernel's entry point and its reference both compute one scalar: a lane part (masked squared errors of the
  confidence and offset maps, the same host code on both sides) plus an instance part — over all pairs of points, the mean
  distance of the pairs labelled "same lane" plus the mean of max (1 - distance) 0 of the pairs labelled "different
  lanes", the distance of a pair being the square root of the sum over four channels of the fourth power of the
  feature difference. The reference forms the differences directly. The kernel expands the fourth power by the
  binomial theorem into a contraction of two rank-20 monomial arrays built on the host, runs that contraction as one
  matrix product per block of 512 query points, sums the block's four scalars, and accumulates them over the four
  blocks of a batch row; the host adds the four batch rows and divides.

  Frames: the two kernel programs run their one launch through the pipeline (the body's run at each of the sixteen
  points is one of two cases, first point of a batch row or later point); the reference is straight-line host code.
  The idealization rewrote nothing, so it is sanctioned trivially. At the extended reals the two results are equal:
  for finite features the binomial expansion is an identity of real numbers, sqrt (max s 0) is the reference's
  guarded square root, and finite sums may be re-grouped freely.
-/
import proofs.«134923_j35673998361268_2_alg».proof.Defs
import proofs.«134923_j35673998361268_2_alg».proof.Proof.FrK
import proofs.«134923_j35673998361268_2_alg».proof.Proof.FrKi
import proofs.«134923_j35673998361268_2_alg».proof.Proof.RefImports
import proofs.«134923_j35673998361268_2_alg».proof.Proof.Gen.Pre_finite_inputs
import proofs.«134923_j35673998361268_2_alg».proof.Proof.KiResult
import proofs.«134923_j35673998361268_2_alg».proof.Proof.KiLane
import proofs.«134923_j35673998361268_2_alg».proof.Proof.KiFinite
import proofs.«134923_j35673998361268_2_alg».proof.Proof.RefResult
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization pass rewrote no operation. -/
theorem preserves : Cert.preserves_Kernel_KernelIdeal := trivial

/-- At the extended reals both programs end at the lane part plus the specification's instance part of the same
    arguments: the reference by reading its host operations one by one, the kernel by reading its launch's result array
    and the host operations around it; finiteness of the features (from the precondition) is what makes the kernel's
    binomial expansion the reference's fourth power. -/
theorem algebraic : Cert.algebraic_KernelIdeal_ReferenceIdeal := by
  intro m ρ m' ρ' hpre hagree
  refine ⟨fun c => Cert.KernelIdeal.Tail.kres m c, Cert.KernelIdeal.Tail.run (F := Ideal) m ρ, ?_⟩
  refine (θ_run Cert.ReferenceIdeal.defs _ _).mono (fun _ h c => ⟨(h c).1.trans ?_, (h c).2⟩)
    (Cert.ReferenceIdeal.Value.run (F := Ideal) m' ρ')
  have hfin : ∀ b c' n, ∃ r : ℝ, Cert.HostSide.feat (m ((c.tc : Thread Cert.KernelIdeal.nD Cert.KernelIdeal.τ).loc Cert.KernelIdeal.main_arg2)) b c' n = r :=
    fun b c' n => Cert.HostSide.feat_finite _ _ _ _ _ (hpre c) b c' n
  obtain ⟨e0, e1, e2, e3, e4⟩ := hagree c
  funext i
  rw [Cert.ReferenceIdeal.Read.val_main_v75_eq, Cert.RefSide.ref_result, e0, e1, e2, e3, e4]
  refine Eq.trans ?_ (Cert.KernelIdeal.Res.kres_eq m c hfin i).symm
  have hl := congrFun (Cert.KernelIdeal.Ki.lane_eq m c) i
  exact congrArg₂ (· + ·) hl.symm rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
